-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1888 : Shape := ⟨1, ![1888]⟩
abbrev S1701888 : Shape := ⟨1, ![1701888]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1888x128 : Shape := ⟨2, ![1888, 128]⟩
abbrev S1701888x128 : Shape := ⟨2, ![1701888, 128]⟩
abbrev S1x1701888 : Shape := ⟨2, ![1, 1701888]⟩
abbrev S2048x128 : Shape := ⟨2, ![2048, 128]⟩
abbrev S1x2048 : Shape := ⟨2, ![1, 2048]⟩
abbrev S2000x128 : Shape := ⟨2, ![2000, 128]⟩
abbrev S2000x1 : Shape := ⟨2, ![2000, 1]⟩
abbrev S2000x2048 : Shape := ⟨2, ![2000, 2048]⟩
abbrev S1x40 : Shape := ⟨2, ![1, 40]⟩
abbrev S100000x40 : Shape := ⟨2, ![100000, 40]⟩
abbrev S5000x40 : Shape := ⟨2, ![5000, 40]⟩
abbrev S1700000x40 : Shape := ⟨2, ![1700000, 40]⟩
abbrev S1888x40 : Shape := ⟨2, ![1888, 40]⟩
abbrev S1701888x40 : Shape := ⟨2, ![1701888, 40]⟩
abbrev S2048x40 : Shape := ⟨2, ![2048, 40]⟩
abbrev S2000x40 : Shape := ⟨2, ![2000, 40]⟩
abbrev S100000x1 : Shape := ⟨2, ![100000, 1]⟩

abbrev nBuf : Space → Nat
  | .hbm => 119
  | .vmem => 32
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1888, .i32⟩
  | .hbm, ⟨50, _⟩ => ⟨S1701888, .i32⟩
  | .hbm, ⟨51, _⟩ => ⟨S1x128, .f32⟩
  | .hbm, ⟨52, _⟩ => ⟨S100000x128, .f32⟩
  | .hbm, ⟨53, _⟩ => ⟨S_, .f32⟩
  | .hbm, ⟨54, _⟩ => ⟨S128, .f32⟩
  | .hbm, ⟨55, _⟩ => ⟨S1x128, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S1888x128, .f32⟩
  | .hbm, ⟨71, _⟩ => ⟨S1701888x128, .f32⟩
  | .hbm, ⟨72, _⟩ => ⟨S1x1701888, .i32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S40, .f32⟩
  | .hbm, ⟨82, _⟩ => ⟨S1x40, .f32⟩
  | .hbm, ⟨83, _⟩ => ⟨S100000x40, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x40, .f32⟩
  | .hbm, ⟨93, _⟩ => ⟨S1700000x1, .f32⟩
  | .hbm, ⟨94, _⟩ => ⟨S1700000x40, .f32⟩
  | .hbm, ⟨95, _⟩ => ⟨S1700000x40, .f32⟩
  | .hbm, ⟨96, _⟩ => ⟨S_, .f32⟩
  | .hbm, ⟨97, _⟩ => ⟨S1888x40, .f32⟩
  | .hbm, ⟨98, _⟩ => ⟨S1701888x40, .f32⟩
  | .hbm, ⟨99, _⟩ => ⟨S1x1701888, .i32⟩
  | .hbm, ⟨100, _⟩ => ⟨S100000x40, .f32⟩
  | .hbm, ⟨101, _⟩ => ⟨S1x40, .f32⟩
  | .hbm, ⟨102, _⟩ => ⟨S100000x40, .f32⟩
  | .hbm, ⟨103, _⟩ => ⟨S100000x40, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x40, .f32⟩
  | .hbm, ⟨111, _⟩ => ⟨S100000x40, .f32⟩
  | .hbm, ⟨112, _⟩ => ⟨S100000x40, .f32⟩
  | .hbm, ⟨113, _⟩ => ⟨S_, .f32⟩
  | .hbm, ⟨114, _⟩ => ⟨S100000, .f32⟩
  | .hbm, ⟨115, _⟩ => ⟨S100000x1, .f32⟩
  | .hbm, ⟨116, _⟩ => ⟨S100000x1, .f32⟩
  | .hbm, ⟨117, _⟩ => ⟨S100000x40, .f32⟩
  | .hbm, ⟨118, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S2048x128, .f32⟩
  | .local _ .vmem, ⟨13, _⟩ => ⟨S2048x128, .f32⟩
  | .local _ .vmem, ⟨14, _⟩ => ⟨S1x2048, .i32⟩
  | .local _ .vmem, ⟨15, _⟩ => ⟨S1x2048, .i32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S5000x128, .f32⟩
  | .local _ .vmem, ⟨20, _⟩ => ⟨S5000x128, .f32⟩
  | .local _ .vmem, ⟨21, _⟩ => ⟨S128x40, .f32⟩
  | .local _ .vmem, ⟨22, _⟩ => ⟨S1x40, .f32⟩
  | .local _ .vmem, ⟨23, _⟩ => ⟨S5000x40, .f32⟩
  | .local _ .vmem, ⟨24, _⟩ => ⟨S5000x40, .f32⟩
  | .local _ .vmem, ⟨25, _⟩ => ⟨S2048x40, .f32⟩
  | .local _ .vmem, ⟨26, _⟩ => ⟨S2048x40, .f32⟩
  | .local _ .vmem, ⟨27, _⟩ => ⟨S1x2048, .i32⟩
  | .local _ .vmem, ⟨28, _⟩ => ⟨S1x2048, .i32⟩
  | .local _ .vmem, ⟨29, _⟩ => ⟨S2000x40, .f32⟩
  | .local _ .vmem, ⟨30, _⟩ => ⟨S2000x40, .f32⟩
  | .local _ .vmem, ⟨31, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_call2_cst : Ref sig .tc := ⟨.hbm, 104, rfl⟩
abbrev main_call2_v0 : Ref sig .tc := ⟨.hbm, 105, rfl⟩
abbrev main_call2_cst_0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_cst_1 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_v75 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![50, 831], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![50, 831], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1x2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1888 : S_.BroadcastsInDim S1888 (![] : Fin 0 → Fin S1888.rank)
  concatenates_S1700000_S1888_S1701888_d0 : Shape.Concatenates [S1700000, S1888] S1701888 0
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S128 : S_.BroadcastsInDim S128 (![] : Fin 0 → Fin S128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S1888x128 : S_.BroadcastsInDim S1888x128 (![] : Fin 0 → Fin S1888x128.rank)
  concatenates_S1700000x128_S1888x128_S1701888x128_d0 : Shape.Concatenates [S1700000x128, S1888x128] S1701888x128 0
  shapeCasts_S1701888_S1x1701888 : S1701888.ShapeCasts S1x1701888
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  iota_S2000x1_d0_w32 : S2000x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2000x1_S2000x2048 : S2000x1.Broadcasts S2000x2048
  broadcasts_S1x2048_S2000x2048 : S1x2048.Broadcasts S2000x2048
  natLt_1_32 : 1 < 32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S40 : S_.BroadcastsInDim S40 (![] : Fin 0 → Fin S40.rank)
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S1888x40 : S_.BroadcastsInDim S1888x40 (![] : Fin 0 → Fin S1888x40.rank)
  concatenates_S1700000x40_S1888x40_S1701888x40_d0 : Shape.Concatenates [S1700000x40, S1888x40] S1701888x40 0
  inb_S2000x40_S2000x40_0_0 : ∀ a, (![0, 0] : Fin 2 → Nat) a + S2000x40.size a ≤ S2000x40.size a
  h_S2000x40 : 0 < S2000x40.numel
  shapeCasts_S2000x40_S2000x40 : S2000x40.ShapeCasts S2000x40
  inb_S2048x40_S2048x40_0_0 : ∀ a, (![0, 0] : Fin 2 → Nat) a + S2048x40.size a ≤ S2048x40.size a
  h_S2048x40 : 0 < S2048x40.numel
  shapeCasts_S2048x40_S2048x40 : S2048x40.ShapeCasts S2048x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  dot_S2000x2048_S2048x128_S2000x128_1_0_0_1_n_n_wf : DotDims.WF S2000x2048 S2048x128 S2000x128 [1] [0] [0] [1] [] []
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  dot_S2000x2048_S2048x40_S2000x40_1_0_0_1_n_n_wf : DotDims.WF S2000x2048 S2048x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S1701888x128.size a
  hwx2_0 : ∀ i : grid2.Coords, EltTy.bits .f32 = 32 ∨ (Rect.block (s := S1701888x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x1701888.size a
  hwx2_1 : ∀ i : grid2.Coords, EltTy.bits .i32 = 32 ∨ (Rect.block (s := S1x1701888) S1x2048.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x40.size a ≤ S1701888x40.size a
  hwx4_0 : ∀ i : grid4.Coords, EltTy.bits .f32 = 32 ∨ (Rect.block (s := S1701888x40) S2048x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x1701888.size a
  hwx4_1 : ∀ i : grid4.Coords, EltTy.bits .i32 = 32 ∨ (Rect.block (s := S1x1701888) S1x2048.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x40.size a ≤ S100000x40.size a
  hwx4_2 : ∀ i : grid4.Coords, EltTy.bits .f32 = 32 ∨ (Rect.block (s := S100000x40) S2000x40.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def dot_S2000x2048_S2048x128_S2000x128_1_0_0_1_n_n : DotDims S2000x2048 S2048x128 S2000x128 where
  lhsContracting := [1]
  rhsContracting := [0]
  lhsNonContracting := [0]
  rhsNonContracting := [1]
  lhsBatch := []
  rhsBatch := []
  wf := dot_S2000x2048_S2048x128_S2000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def dot_S2000x2048_S2048x40_S2000x40_1_0_0_1_n_n : DotDims S2000x2048 S2048x40 S2000x40 where
  lhsContracting := [1]
  rhsContracting := [0]
  lhsNonContracting := [0]
  rhsNonContracting := [1]
  lhsBatch := []
  rhsBatch := []
  wf := dot_S2000x2048_S2048x40_S2000x40_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S2048x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S2000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1x128 : Shape := ⟨2, ![1, 128]⟩
abbrev S1700000x128 : Shape := ⟨2, ![1700000, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x1, .f32⟩
  | .hbm, ⟨66, _⟩ => ⟨S1700000x128, .f32⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S100000x40, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x40, .f32⟩
  | .hbm, ⟨88, _⟩ => ⟨S1700000x1, .f32⟩
  | .hbm, ⟨89, _⟩ => ⟨S1700000x40, .f32⟩
  | .hbm, ⟨90, _⟩ => ⟨S1700000x40, .f32⟩
  | .hbm, ⟨91, _⟩ => ⟨S_, .f32⟩
  | .hbm, ⟨92, _⟩ => ⟨S100000x40, .f32⟩
  | .hbm, ⟨93, _⟩ => ⟨S1700000x1, .i32⟩
  | .hbm, ⟨94, _⟩ => ⟨S100000x40, .f32⟩
  | .hbm, ⟨95, _⟩ => ⟨S1x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x40, .f32⟩
  | .hbm, ⟨105, _⟩ => ⟨S100000x40, .f32⟩
  | .hbm, ⟨106, _⟩ => ⟨S100000x40, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x1, .f32⟩
  | .hbm, ⟨111, _⟩ => ⟨S100000x40, .f32⟩
  | .hbm, ⟨112, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_cst : Ref sig .tc := ⟨.hbm, 52, rfl⟩
abbrev main_call1_v0 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_cst : Ref sig .tc := ⟨.hbm, 75, rfl⟩
abbrev main_call2_v0 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call3_cst : Ref sig .tc := ⟨.hbm, 98, rfl⟩
abbrev main_call3_v0 : Ref sig .tc := ⟨.hbm, 99, rfl⟩
abbrev main_call3_cst_0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_cst_1 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_v70 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1700000x1_S1700000x128_0_1 : S1700000x1.BroadcastsInDim S1700000x128 (![0, 1] : Fin 2 → Fin S1700000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.RefRun.lean ====
/-
  The reference program's run: it is a straight line of 105 host operations, so every weakly fair execution terminates,
  nothing faulting, each buffer ending at the fold of the operations' results over the launch contents. The fold is read
  in three stretches — up to the hidden layer's product, up to the output layer's segment sum, and the bias and
  log-softmax tail —: the result buffer's fold is the last stage of the argument arrays, and no operation writes an
  argument.
-/
import proofs.«147088_j4836133175935_1_alg».proof.Proof.RefRunP
import proofs.«147088_j4836133175935_1_alg».proof.Proof.RefReadP

noncomputable section

namespace Cert.ReferenceIdeal.ValueH

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-- The first 48 operations: the edge weights and the first two layers' products. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant (F := F) S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant (F := F) S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant (F := F) S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant (F := F) S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg3 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v30 main_v32 main_v33 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant (F := F) S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v33) (TRef.of (T := ⟨S100000x128, .f32⟩) main_call1_v0) (TRef.of (T := ⟨S100000x128, .f32⟩) main_v34) maximumf,
    binary main_v34 main_arg4 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The next 39: messages, the hidden layer's segment sum, the output layer's product, its messages and segment sum. -/
abbrev opsB : List (HloOp τ sig (Elt F)) :=
  [ nullary main_c_6 (constantI S_ 32 0#32),
    unary main_c_6 main_v36 (broadcastInDim S1700000 ![] bcast_S_S1700000 : (⟨S_, .i32⟩ : BufTy).Contents (Elt F) → (⟨S1700000, .i32⟩ : BufTy).Contents (Elt F)),
    binary main_v3 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v38 (broadcastInDim S1700000 ![] bcast_S_S1700000 : (⟨S_, .i32⟩ : BufTy).Contents (Elt F) → (⟨S1700000, .i32⟩ : BufTy).Contents (Elt F)),
    binary main_v3 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v3 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v35 main_v41 main_v42 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v43 (broadcastInDim S1700000x1 ![0] bcast_S1700000_S1700000x1_0 : (⟨S1700000, .f32⟩ : BufTy).Contents (Elt F) → (⟨S1700000x1, .f32⟩ : BufTy).Contents (Elt F)),
    unary main_v43 main_v44 (broadcastInDim S1700000x128 ![0, 1] bcast_S1700000x1_S1700000x128_0_1 : (⟨S1700000x1, .f32⟩ : BufTy).Contents (Elt F) → (⟨S1700000x128, .f32⟩ : BufTy).Contents (Elt F)),
    binary main_v42 main_v44 main_v45 (mulf : (⟨S1700000x128, .f32⟩ : BufTy).Contents (Elt F) → (⟨S1700000x128, .f32⟩ : BufTy).Contents (Elt F) → (⟨S1700000x128, .f32⟩ : BufTy).Contents (Elt F)),
    nullary main_cst_8 (constant (F := F) S_ .f32 0x00000000#32),
    unary main_cst_8 main_v46 (broadcastInDim S100000x128 ![] bcast_S_S100000x128 : (⟨S_, .f32⟩ : BufTy).Contents (Elt F) → (⟨S100000x128, .f32⟩ : BufTy).Contents (Elt F)),
    unary main_v6 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant (F := F) S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v51) (TRef.of (T := ⟨S100000x128, .f32⟩) main_call2_v0) (TRef.of (T := ⟨S100000x128, .f32⟩) main_v52) maximumf,
    binary main_v52 main_arg6 main_v53 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_9 (constantI S_ 32 0#32),
    unary main_c_9 main_v54 (broadcastInDim S1700000 ![] bcast_S_S1700000 : (⟨S_, .i32⟩ : BufTy).Contents (Elt F) → (⟨S1700000, .i32⟩ : BufTy).Contents (Elt F)),
    binary main_v3 main_v54 main_v55 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v56 (broadcastInDim S1700000 ![] bcast_S_S1700000 : (⟨S_, .i32⟩ : BufTy).Contents (Elt F) → (⟨S1700000, .i32⟩ : BufTy).Contents (Elt F)),
    binary main_v3 main_v56 main_v57 (addi : (⟨S1700000, .i32⟩ : BufTy).Contents (Elt F) → (⟨S1700000, .i32⟩ : BufTy).Contents (Elt F) → (⟨S1700000, .i32⟩ : BufTy).Contents (Elt F)),
    ternary main_v55 main_v57 main_v3 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v58 main_v59 (broadcastInDim S1700000x1 ![0] bcast_S1700000_S1700000x1_0 : (⟨S1700000, .i32⟩ : BufTy).Contents (Elt F) → (⟨S1700000x1, .i32⟩ : BufTy).Contents (Elt F)),
    binary main_v53 main_v59 main_v60 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v29 main_v61 (broadcastInDim S1700000x1 ![0] bcast_S1700000_S1700000x1_0 : (⟨S1700000, .f32⟩ : BufTy).Contents (Elt F) → (⟨S1700000x1, .f32⟩ : BufTy).Contents (Elt F)),
    unary main_v61 main_v62 (broadcastInDim S1700000x40 ![0, 1] bcast_S1700000x1_S1700000x40_0_1 : (⟨S1700000x1, .f32⟩ : BufTy).Contents (Elt F) → (⟨S1700000x40, .f32⟩ : BufTy).Contents (Elt F)),
    binary main_v60 main_v62 main_v63 (mulf : (⟨S1700000x40, .f32⟩ : BufTy).Contents (Elt F) → (⟨S1700000x40, .f32⟩ : BufTy).Contents (Elt F) → (⟨S1700000x40, .f32⟩ : BufTy).Contents (Elt F)),
    nullary main_cst_11 (constant (F := F) S_ .f32 0x00000000#32),
    unary main_cst_11 main_v64 (broadcastInDim S100000x40 ![] bcast_S_S100000x40 : (⟨S_, .f32⟩ : BufTy).Contents (Elt F) → (⟨S100000x40, .f32⟩ : BufTy).Contents (Elt F)),
    unary main_v6 main_v65 (broadcastInDim S1700000x1 ![0] bcast_S1700000_S1700000x1_0 : (⟨S1700000, .i32⟩ : BufTy).Contents (Elt F) → (⟨S1700000x1, .i32⟩ : BufTy).Contents (Elt F)),
    ternary main_v64 main_v65 main_v63 main_v66 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]
/-- The last 18, in three stretches: the bias; the shifted logits; their log-sum-exp taken off. -/
abbrev opsC1 : List (HloOp τ sig (Elt F)) :=
  [ unary main_arg7 main_v67 (broadcastInDim S1x40 ![1] bcast_S40_S1x40_1 : (⟨S40, .f32⟩ : BufTy).Contents (Elt F) → (⟨S1x40, .f32⟩ : BufTy).Contents (Elt F)),
    unary main_v67 main_v68 (broadcastInDim S100000x40 ![0, 1] bcast_S1x40_S100000x40_0_1 : (⟨S1x40, .f32⟩ : BufTy).Contents (Elt F) → (⟨S100000x40, .f32⟩ : BufTy).Contents (Elt F)),
    binary main_v66 main_v68 main_v69 (addf : (⟨S100000x40, .f32⟩ : BufTy).Contents (Elt F) → (⟨S100000x40, .f32⟩ : BufTy).Contents (Elt F) → (⟨S100000x40, .f32⟩ : BufTy).Contents (Elt F)) ]
abbrev opsC2 : List (HloOp τ sig (Elt F)) :=
  [ TRef.nullary (TRef.of (T := ⟨S_, .f32⟩) main_call3_cst) (constant (F := F) S_ .f32 0xFF800000#32),
    TRef.binary (TRef.of (T := ⟨S100000x40, .f32⟩) main_v69) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant (F := F) S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v69) (TRef.of (T := ⟨S100000x40, .f32⟩) main_call3_v4) (TRef.of (T := ⟨S100000x40, .f32⟩) main_call3_v5) subf ]
abbrev opsC3 : List (HloOp τ sig (Elt F)) :=
  [ TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant (F := F) S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v70) subf ]

theorem ops_split : (ops (F := F)) = opsA ++ (opsB ++ (opsC1 ++ (opsC2 ++ opsC3))) := rfl

theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are unchanged; at the buffers below the carrying is the identity. -/
theorem ofBuf_toBuf {Val : EltTy → Type} {T : BufTy} (x : TRef sig T) (v : T.Contents Val) : x.ofBuf (x.toBuf v) = v := by
  obtain ⟨r, h, _, _⟩ := x
  subst h
  rfl
theorem ofBuf_main_v69 (v : (⟨S100000x40, .f32⟩ : BufTy).Contents (Elt F)) : (TRef.of (sig := sig) (T := ⟨S100000x40, .f32⟩) main_v69).ofBuf (Val := Elt F) v = v := rfl
theorem toBuf_call3_v5 (v : (⟨S100000x40, .f32⟩ : BufTy).Contents (Elt F)) : (TRef.of (sig := sig) (T := ⟨S100000x40, .f32⟩) main_call3_v5).toBuf (Val := Elt F) v = v := rfl
theorem ofBuf_call3_v5 (v : (⟨S100000x40, .f32⟩ : BufTy).Contents (Elt F)) : (TRef.of (sig := sig) (T := ⟨S100000x40, .f32⟩) main_call3_v5).ofBuf (Val := Elt F) v = v := rfl
theorem toBuf_main_v70 (v : (⟨S100000x40, .f32⟩ : BufTy).Contents (Elt F)) : (TRef.of (sig := sig) (T := ⟨S100000x40, .f32⟩) main_v70).toBuf (Val := Elt F) v = v := rfl

variable (m : (ℓ : Loc nD τ sig) → Buf (Elt F) ℓ) (c : Dev nD)

/-- The buffers after the first stretch, and after the second. -/
def VA : Valuation τ sig (Elt F) := after opsA (launchContents m c)
def VB : Valuation τ sig (Elt F) := after opsB (VA m c)
def VC1 : Valuation τ sig (Elt F) := after opsC1 (VB m c)
def VC2 : Valuation τ sig (Elt F) := after opsC2 (VC1 m c)

set_option maxHeartbeats 4000000 in
theorem VA_arg (k : Ref sig .tc) (hk : k ∈ ([main_arg0, main_arg1, main_arg2, main_arg3, main_arg4, main_arg5, main_arg6, main_arg7] : List (Ref sig .tc))) :
    VA m c (Proc.devRef .tc k) = launchContents m c (Proc.devRef .tc k) := by
  simp only [List.mem_cons, List.mem_singleton, List.not_mem_nil, or_false] at hk
  rcases hk with rfl | rfl | rfl | rfl | rfl | rfl | rfl | rfl <;> (unfold VA; after_results_simp) <;> rfl
set_option maxHeartbeats 4000000 in
theorem VB_arg (k : Ref sig .tc) (hk : k ∈ ([main_arg0, main_arg1, main_arg2, main_arg3, main_arg4, main_arg5, main_arg6, main_arg7] : List (Ref sig .tc))) :
    VB m c (Proc.devRef .tc k) = VA m c (Proc.devRef .tc k) := by
  simp only [List.mem_cons, List.mem_singleton, List.not_mem_nil, or_false] at hk
  rcases hk with rfl | rfl | rfl | rfl | rfl | rfl | rfl | rfl <;> (unfold VB; after_results_simp) <;> rfl

set_option maxHeartbeats 4000000 in
theorem VA_v3 : VA m c (Proc.devRef .tc main_v3) = Cert.ReferenceIdeal.ReadP.val_main_v3 (F := F) (m ((c.tc : Thread nD τ).loc main_arg1)) := by
  unfold VA; after_results_simp; rfl
set_option maxHeartbeats 4000000 in
theorem VA_v6 : VA m c (Proc.devRef .tc main_v6) = Cert.ReferenceIdeal.ReadP.val_main_v6 (F := F) (m ((c.tc : Thread nD τ).loc main_arg1)) := by
  unfold VA; after_results_simp; rfl
set_option maxHeartbeats 4000000 in
theorem VA_v29 : VA m c (Proc.devRef .tc main_v29) = Cert.ReferenceIdeal.ReadP.val_main_v29 (F := F) (m ((c.tc : Thread nD τ).loc main_arg1)) := by
  unfold VA; after_results_simp; rfl
set_option maxHeartbeats 4000000 in
theorem VA_v35 : VA m c (Proc.devRef .tc main_v35) = Cert.ReferenceIdeal.ReadP.val_main_v35 (F := F) (m ((c.tc : Thread nD τ).loc main_arg0)) (m ((c.tc : Thread nD τ).loc main_arg2)) (m ((c.tc : Thread nD τ).loc main_arg3)) (m ((c.tc : Thread nD τ).loc main_arg4)) := by
  unfold VA; after_results_simp; rfl

set_option maxHeartbeats 4000000 in
theorem VB_v66 : VB m c (Proc.devRef .tc main_v66) = Cert.ReferenceIdeal.ReadP.val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold VB; after_results_simp
  rw [VA_v3, VA_v6, VA_v29, VA_v35, VA_arg m c main_arg5 (by decide), VA_arg m c main_arg6 (by decide)]
  rfl

set_option maxHeartbeats 4000000 in
theorem VC1_arg (k : Ref sig .tc) (hk : k ∈ ([main_arg0, main_arg1, main_arg2, main_arg3, main_arg4, main_arg5, main_arg6, main_arg7] : List (Ref sig .tc))) :
    VC1 m c (Proc.devRef .tc k) = VB m c (Proc.devRef .tc k) := by
  simp only [List.mem_cons, List.mem_singleton, List.not_mem_nil, or_false] at hk
  rcases hk with rfl | rfl | rfl | rfl | rfl | rfl | rfl | rfl <;> (unfold VC1; after_results_simp) <;> rfl
set_option maxHeartbeats 4000000 in
theorem VC2_arg (k : Ref sig .tc) (hk : k ∈ ([main_arg0, main_arg1, main_arg2, main_arg3, main_arg4, main_arg5, main_arg6, main_arg7] : List (Ref sig .tc))) :
    VC2 m c (Proc.devRef .tc k) = VC1 m c (Proc.devRef .tc k) := by
  simp only [List.mem_cons, List.mem_singleton, List.not_mem_nil, or_false] at hk
  rcases hk with rfl | rfl | rfl | rfl | rfl | rfl | rfl | rfl <;> (unfold VC2; after_results_simp) <;> rfl

set_option maxHeartbeats 4000000 in
theorem VC1_v69 : VC1 m c (Proc.devRef .tc main_v69) = Cert.ReferenceIdeal.ReadP.val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold VC1; after_results_simp
  rw [VB_v66, VB_arg m c main_arg7 (by decide), VA_arg m c main_arg7 (by decide)]
  rfl

set_option maxHeartbeats 4000000 in
theorem VC2_v5 : VC2 m c (Proc.devRef .tc main_call3_v5) = Cert.ReferenceIdeal.ReadP.val_main_call3_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold VC2; after_results_simp
  rw [VC1_v69]
  simp only [ofBuf_toBuf, ofBuf_main_v69, toBuf_call3_v5]
  rfl

set_option maxHeartbeats 4000000 in
/-- The result buffer's fold is the last stage of the argument arrays. -/
theorem fold_eq :
    after (ops (F := F)) (launchContents m c) (Proc.devRef .tc main_v70)
      = Cert.ReferenceIdeal.ReadP.val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_split, after_append, after_append, after_append, after_append]
  show after opsC3 (VC2 m c) (Proc.devRef .tc main_v70) = _
  after_results_simp
  rw [VC2_v5]
  simp only [ofBuf_toBuf, ofBuf_call3_v5, toBuf_main_v70]
  rfl

/-- No operation writes an argument. -/
theorem fold_arg (k : Ref sig .tc) (hk : k ∈ ([main_arg0, main_arg1, main_arg2, main_arg3, main_arg4, main_arg5, main_arg6, main_arg7] : List (Ref sig .tc))) :
    after (ops (F := F)) (launchContents m c) (Proc.devRef .tc k) = launchContents m c (Proc.devRef .tc k) := by
  rw [ops_split, after_append, after_append, after_append, after_append]
  show after opsC3 (VC2 m c) (Proc.devRef .tc k) = _
  refine Eq.trans ?_ ((VC2_arg m c k hk).trans ((VC1_arg m c k hk).trans ((VB_arg m c k hk).trans (VA_arg m c k hk))))
  simp only [List.mem_cons, List.mem_singleton, List.not_mem_nil, or_false] at hk
  rcases hk with rfl | rfl | rfl | rfl | rfl | rfl | rfl | rfl <;> after_results_simp

variable (ρ : Dev nD → PrngReg)

/-- On every device, from any memory with zero counters: every weakly fair execution of the reference terminates with
    the result at the last stage of the arguments and the arguments unchanged. -/
theorem run :
    θ_run defs (onTc (τ := τ) (main (F := F))) ⟨m, fun _ => 0, ρ⟩ fun r => ∀ c : Dev nD,
      r.2.mem ((c.tc : Thread nD τ).loc main_v70) = Cert.ReferenceIdeal.ReadP.val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v70).trans (fold_eq m c),
      (h c main_arg0).trans ((fold_arg m c main_arg0 (by decide)).trans rfl),
      (h c main_arg1).trans ((fold_arg m c main_arg1 (by decide)).trans rfl),
      (h c main_arg2).trans ((fold_arg m c main_arg2 (by decide)).trans rfl),
      (h c main_arg3).trans ((fold_arg m c main_arg3 (by decide)).trans rfl),
      (h c main_arg4).trans ((fold_arg m c main_arg4 (by decide)).trans rfl),
      (h c main_arg5).trans ((fold_arg m c main_arg5 (by decide)).trans rfl),
      (h c main_arg6).trans ((fold_arg m c main_arg6 (by decide)).trans rfl),
      (h c main_arg7).trans ((fold_arg m c main_arg7 (by decide)).trans rfl)⟩)
    (run_seq scopedRefs_eq scopedSems_eq defs main (fun _ => ops) main_eq (fun _ => ops_sub) m ρ)

end Cert.ReferenceIdeal.ValueH

end
-- ==== Proof.Bits.Pts.lean ====
/-
  The staging memref each window of each region is on at a grid point, and the kernel body as the pipeline calls it
  there; and when the accumulating regions write their output block back: at the last of a node block's 831 chunks.
-/
import proofs.«147088_j4836133175935_1_alg».proof.Proof.Gen.Kernel.Launch

noncomputable section

namespace Cert.Kernel.Run

open Idealize.ShloMosaic Idealize.ShloMosaic.TcCoe
open Idealize.SL Idealize.SL.Sem
open Cert.Kernel Cert.Kernel.Gen

variable {F : FTy → Type} [FloatOps F]

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev bodyAt0 (t : Fin cfg0.N) : Prog (TpuEff nD τ sig (Elt F) Λ₀ .tc) PUnit :=
  cc0_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev bodyAt1 (t : Fin cfg1.N) : Prog (TpuEff nD τ sig (Elt F) Λ₀ .tc) PUnit :=
  cc1_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3))
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev bodyAt2 (t : Fin cfg2.N) : Prog (TpuEff nD τ sig (Elt F) Λ₀ .tc) PUnit :=
  cc2__scatter_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (Memref.whole cc2_scratch0) (Memref.isWhole_whole _)
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)
abbrev st3_3 (t : Fin cfg3.N) := (cfg3.win 3).stage (cfg3.slots t 3)
abbrev bodyAt3 (t : Fin cfg3.N) : Prog (TpuEff nD τ sig (Elt F) Λ₀ .tc) PUnit :=
  cc3_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3))
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev bodyAt4 (t : Fin cfg4.N) : Prog (TpuEff nD τ sig (Elt F) Λ₀ .tc) PUnit :=
  cc4__scatter_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (Memref.whole cc4_scratch0) (Memref.isWhole_whole _)

end Cert.Kernel.Run

end
-- ==== Proof.Bits.Dense0.lean ====
/-
  Region 0 of the program: a dense layer on a block of 5000 rows. At each of the 20 grid points the body loads the
  point's block of rows (window 0), the whole weight matrix (window 1) and the bias row (window 2), and stores
  max(rows · W + bias, 0) whole into the output block (window 3). Stated at a parameter `V`, the
  buffer contents when the region is entered: the windows' blocks, what the body leaves in the output block as a
  function of the three input blocks, the body's triple, the proof data of the pipeline and its body obligation.
-/
import proofs.«147088_j4836133175935_1_alg».proof.Proof.Gen.Kernel.Launch
import proofs.«147088_j4836133175935_1_alg».proof.Proof.Gen.Kernel.Skeleton
import proofs.«147088_j4836133175935_1_alg».proof.Proof.Bits.Pts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window that is
    not fetched has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_x : Rect S5000x256 := Rect.unit (s := S5000x256) ![0, 0] S5000x256.size inb_S5000x256_S5000x256_0_0
abbrev r0_w : Rect S256x128 := Rect.unit (s := S256x128) ![0, 0] S256x128.size inb_S256x128_S256x128_0_0
abbrev r0_b : Rect S1x128 := Rect.unit (s := S1x128) ![0, 0] S1x128.size inb_S1x128_S1x128_0_0
abbrev r0_o : Rect S5000x128 := Rect.unit (s := S5000x128) ![0, 0] S5000x128.size inb_S5000x128_S5000x128_0_0

/-- The output block after the body, from the three input blocks: its one whole store. -/
def out0_3 (x0 : Vec F S5000x256 .f32) (x1 : Vec F S256x128 .f32) (x2 : Vec F S1x128 .f32) : Vec F S5000x128 .f32 :=
  View.canon [⟨r0_o, k0_pay1 (View.ld x0 r0_x) (View.ld x1 r0_w) (View.ld x2 r0_b)⟩]

/-- The one store covers the block. -/
theorem cover0_3 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

/-! ## The body's triple -/

set_option maxHeartbeats 1000000 in
/-- On whole staging memrefs, the inputs' at contents `x0 x1 x2` and the output's at anything, the body runs to the
    continuation holding the inputs' as they were and the output's at `out0_3 x0 x1 x2`. -/
theorem sound_kernel0 (c : Dev nD) (E : Set ℕ) (i : grid0.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.Bits.Dense1.lean ====
/-
  Region 1 of the program: a dense layer on a block of 5000 rows. At each of the 20 grid points the body loads the
  point's block of rows (window 0), the whole weight matrix (window 1) and the bias row (window 2), and stores
  rows · W + bias whole into the output block (window 3). Stated at a parameter `V`, the
  buffer contents when the region is entered: the windows' blocks, what the body leaves in the output block as a
  function of the three input blocks, the body's triple, the proof data of the pipeline and its body obligation.
-/
import proofs.«147088_j4836133175935_1_alg».proof.Proof.Gen.Kernel.Launch
import proofs.«147088_j4836133175935_1_alg».proof.Proof.Gen.Kernel.Skeleton
import proofs.«147088_j4836133175935_1_alg».proof.Proof.Bits.Pts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window that is
    not fetched has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_x : Rect S5000x128 := Rect.unit (s := S5000x128) ![0, 0] S5000x128.size inb_S5000x128_S5000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_o : Rect S5000x128 := Rect.unit (s := S5000x128) ![0, 0] S5000x128.size inb_S5000x128_S5000x128_0_0

/-- The output block after the body, from the three input blocks: its one whole store. -/
def out1_3 (x0 : Vec F S5000x128 .f32) (x1 : Vec F S128x128 .f32) (x2 : Vec F S1x128 .f32) : Vec F S5000x128 .f32 :=
  View.canon [⟨r1_o, k1_pay1 (View.ld x0 r1_x) (View.ld x1 r1_w) (View.ld x2 r1_b)⟩]

/-- The one store covers the block. -/
theorem cover1_3 (p0 : Vec F S5000x128 .f32) (y : S5000x128.Idx) :
    ∃ pc ∈ ([⟨r1_o, p0⟩] : List (View.Piece (Elt F) S5000x128 .f32)), y ∈ pc.1.set :=
  View.cover_of_tiled [⟨r1_o, p0⟩] S5000x128.size (by rfl) y

/-! ## The body's triple -/

set_option maxHeartbeats 1000000 in
/-- On whole staging memrefs, the inputs' at contents `x0 x1 x2` and the output's at anything, the body runs to the
    continuation holding the inputs' as they were and the output's at `out1_3 x0 x1 x2`. -/
theorem sound_kernel1 (c : Dev nD) (E : Set ℕ) (i : grid1.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.Bits.Dense3.lean ====
/-
  Region 3 of the program: a dense layer on a block of 5000 rows. At each of the 20 grid points the body loads the
  point's block of rows (window 0), the whole weight matrix (window 1) and the bias row (window 2), and stores
  rows · W + bias whole into the output block (window 3). Stated at a parameter `V`, the
  buffer contents when the region is entered: the windows' blocks, what the body leaves in the output block as a
  function of the three input blocks, the body's triple, the proof data of the pipeline and its body obligation.
-/
import proofs.«147088_j4836133175935_1_alg».proof.Proof.Gen.Kernel.Launch
import proofs.«147088_j4836133175935_1_alg».proof.Proof.Gen.Kernel.Skeleton
import proofs.«147088_j4836133175935_1_alg».proof.Proof.Bits.Pts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (a window that is
    not fetched has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written whole -/

abbrev r3_x : Rect S5000x128 := Rect.unit (s := S5000x128) ![0, 0] S5000x128.size inb_S5000x128_S5000x128_0_0
abbrev r3_w : Rect S128x40 := Rect.unit (s := S128x40) ![0, 0] S128x40.size inb_S128x40_S128x40_0_0
abbrev r3_b : Rect S1x40 := Rect.unit (s := S1x40) ![0, 0] S1x40.size inb_S1x40_S1x40_0_0
abbrev r3_o : Rect S5000x40 := Rect.unit (s := S5000x40) ![0, 0] S5000x40.size inb_S5000x40_S5000x40_0_0

/-- The output block after the body, from the three input blocks: its one whole store. -/
def out3_3 (x0 : Vec F S5000x128 .f32) (x1 : Vec F S128x40 .f32) (x2 : Vec F S1x40 .f32) : Vec F S5000x40 .f32 :=
  View.canon [⟨r3_o, k3_pay1 (View.ld x0 r3_x) (View.ld x1 r3_w) (View.ld x2 r3_b)⟩]

/-- The one store covers the block. -/
theorem cover3_3 (p0 : Vec F S5000x40 .f32) (y : S5000x40.Idx) :
    ∃ pc ∈ ([⟨r3_o, p0⟩] : List (View.Piece (Elt F) S5000x40 .f32)), y ∈ pc.1.set :=
  View.cover_of_tiled [⟨r3_o, p0⟩] S5000x40.size (by rfl) y

/-! ## The body's triple -/

set_option maxHeartbeats 1000000 in
/-- On whole staging memrefs, the inputs' at contents `x0 x1 x2` and the output's at anything, the body runs to the
    continuation holding the inputs' as they were and the output's at `out3_3 x0 x1 x2`. -/
theorem sound_kernel3 (c : Dev nD) (E : Set ℕ) (i : grid3.Coords) (arg1 : Memref sig .tc .vmem S5000x128 .f32) (harg1 : arg1.IsWhole) (arg2 : Memref sig .tc .vmem S128x40 .f32) (harg2 : arg2.IsWhole) (arg3 : Memref sig .tc .vmem S1x40 .f32) (harg3 : arg3.IsWhole) (arg4 : Memref sig .tc .vmem S5000x40 .f32) (harg4 : arg4.IsWhole)
    (x0 : Vec F S5000x128 .f32) (x1 : Vec F S128x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them; after the body at point `t`
    each input's buffer at its block and the output's at `out3_3` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Run

end
-- ==== Proof.Bits.Scatter2Runs.lean ====
import proofs.«147088_j4836133175935_1_alg».proof.Proof.Gen.Kernel.Launch
import proofs.«147088_j4836133175935_1_alg».proof.Proof.Gen.Kernel.Skeleton
import proofs.«147088_j4836133175935_1_alg».proof.Proof.Bits.Pts
import Idealize.ShloMosaic.Lib.Pipeline.FrameBody
import Idealize.ShloMosaic.Lib.Ring
import Idealize.ShloMosaic.Lib.Tactic

-- membership in a rectangle of long extents recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the width-128 segment sum): what its two control cases share

The body zeroes its accumulator when the second grid coordinate is 0, then adds the point's one-hot product into it
and copies it to the output block. So a point is in one of two cases: the accumulator starts from zero (A), or from
what the point before left (B). -/

/-! ## The body's branch condition -/

/-- The condition of the body's one conditional, from the grid coordinates: the second coordinate is 0. -/
abbrev cond2_0 (i : grid2.Coords) : Prop := (Scalar.cmpi .ne (Scalar.extui (Scalar.cmpi .eq (BitVec.ofNat 32 (i 1).val) 0#32)) 0#32) = 1#1

/-- On a value of the second coordinate the condition says that it is 0 — decided over the 831 values. -/
theorem cond2_0_iff : ∀ k : Fin 831, ((Scalar.cmpi .ne (Scalar.extui (Scalar.cmpi .eq (BitVec.ofNat 32 k.val) 0#32)) 0#32) = 1#1) ↔ k.val = 0 := by
  decide +kernel

/-- The second coordinate of point `t` is `t % 831`: the last axis runs fastest. -/
theorem coord2_1 (t : Fin cfg2.N) : (grid2.coords t 1).val = t.val % 831 := by
  show t.val / grid2.stride 1 % grid2.bound 1 = t.val % 831
  rw [show grid2.stride 1 = 1 from by decide, Nat.div_one]
  rfl

/-- The condition holds exactly at the first point of each row of the grid. -/
theorem hcond2_0 (t : Fin cfg2.N) : cond2_0 (grid2.coords t) ↔ t.val % 831 = 0 :=
  (cond2_0_iff (grid2.coords t 1)).trans (by rw [coord2_1])

/-- No window is idle anywhere: the configuration states no idle point. -/
theorem liveAt2 (w : Fin cfg2.W) (t : Fin cfg2.N) : cfg2.idle w (grid2.coords t) = false := rfl

/-! ## The staging and scratch memrefs -/

/-- One staging buffer of output window 2, through which its contents are stated (the choice does not matter). -/
abbrev VO2_2 : View sig .tc .vmem S2000x128 .f32 := (Memref.whole cc2_stg2_0 : Memref sig .tc .vmem S2000x128 .f32).view
/-- Each window's current staging memref at point `t`, spelled as the pipeline passes it, and its wholeness. -/
abbrev ms2_0 (t : Fin cfg2.N) : Memref sig .tc .vmem S2048x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x128 .f32 := win2_2.stage (cfg2.slots t 2)
abbrev hs2_2 (t : Fin cfg2.N) : (ms2_2 t).IsWhole := hstage2_2 ((cfg2.slots t 2).cast nbuf2_2)
/-- The scratch operand: a whole scoped buffer of the kernel's own, passed beside the windows. -/
abbrev scM2_0 : Memref sig .tc .vmem S2000x128 .f32 := Memref.whole cc2_scratch0
/-- The accumulator the kernel carries between points, as a view: what it holds is stated through it. -/
abbrev VS2_0 : View sig .tc .vmem S2000x128 .f32 := scM2_0.view

/-- The class invariant with the accumulator as a memref owned at some contents, the other scoped buffers unopened. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is `V`'s
    and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Regions

end Cert.Kernel.Run

end
-- ==== Proof.Bits.Scatter2RunA.lean ====
import proofs.«147088_j4836133175935_1_alg».proof.Proof.Bits.Scatter2Runs

-- membership in a rectangle of long extents recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), IN
    CASE A (the second grid coordinate is 0: the accumulator is zeroed first), WITH the proof that on whole memrefs — the
    inputs' at their contents, the output's and the accumulator at anything — the body runs to the continuation holding the
    inputs' as they were and the output's buffer and the accumulator with their pieces written. The pieces are the witness
    the symbolic run finds. -/
noncomputable def kernelRun2_A (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : cond2_0 i)
    (x0 : Vec F S2048x128 .f32) (x1 : Vec F S1x2048 .i32) :
    Σ' (L2 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__scatter_kernel i arg2 harg2 arg3 harg3 arg4 harg4 arg5 harg5) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Run

end
-- ==== Proof.Bits.Scatter2RunB.lean ====
import proofs.«147088_j4836133175935_1_alg».proof.Proof.Bits.Scatter2RunA

-- membership in a rectangle of long extents recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same IN CASE B (the second grid coordinate is not 0: the accumulator is read at what the point before left,
    `xs0`). -/
noncomputable def kernelRun2_B (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : ¬cond2_0 i)
    (x0 : Vec F S2048x128 .f32) (x1 : Vec F S1x2048 .i32) (xs0 : Vec F S2000x128 .f32) :
    Σ' (L2 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__scatter_kernel i arg2 harg2 arg3 harg3 arg4 harg4 arg5 harg5) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Run

end
-- ==== Proof.Bits.Scatter2.lean ====
import proofs.«147088_j4836133175935_1_alg».proof.Proof.Bits.Scatter2RunB

-- membership in a rectangle of long extents recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the width-128 segment sum): its proof data and body obligation, at the entry contents `V` -/

/-! ## What each case leaves in the output's buffer and in the accumulator -/

/-- Case A's pieces for the output tile its block, so they cover it. -/
theorem cover2_A_2 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : cond2_0 i)
    (x0 : Vec F S2048x128 .f32) (x1 : Vec F S1x2048 .i32) (y : S2000x128.Idx) :
    ∃ pc ∈ (kernelRun2_A c i arg2 harg2 arg3 harg3 arg4 harg4 arg5 harg5 hc0 x0 x1).1, y ∈ pc.1.set :=
  View.cover_of_tiledL (kernelRun2_A c i arg2 harg2 arg3 harg3 arg4 harg4 arg5 harg5 hc0 x0 x1).1 S2000x128.size (by sl_kernel_rfl) y

/-- What case A leaves in the output's staging buffer: its pieces read back over junk. -/
def out2_A_2 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : cond2_0 i)
    (x0 : Vec F S2048x128 .f32) (x1 : Vec F S1x2048 .i32) : Vec F S2000x128 .f32 :=
  VO2_2.read (Elt F) (VO2_2.writes (Elt F) VO2_2.junk (kernelRun2_A c i arg2 harg2 arg3 harg3 arg4 harg4 arg5 harg5 hc0 x0 x1).1)

/-- Case A's pieces for the accumulator cover it. -/
theorem scover2_A_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : cond2_0 i)
    (x0 : Vec F S2048x128 .f32) (x1 : Vec F S1x2048 .i32) (y : S2000x128.Idx) :
    ∃ pc ∈ (kernelRun2_A c i arg2 harg2 arg3 harg3 arg4 harg4 arg5 harg5 hc0 x0 x1).2.1, y ∈ pc.1.set :=
  View.cover_of_tiledL (kernelRun2_A c i arg2 harg2 arg3 harg3 arg4 harg4 arg5 harg5 hc0 x0 x1).2.1 S2000x128.size (by sl_kernel_rfl) y

/-- What case A leaves in the accumulator: its pieces read back over junk. -/
def sout2_A_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : cond2_0 i)
    (x0 : Vec F S2048x128 .f32) (x1 : Vec F S1x2048 .i32) : Vec F S2000x128 .f32 :=
  VS2_0.read (Elt F) (VS2_0.writes (Elt F) VS2_0.junk (kernelRun2_A c i arg2 harg2 arg3 harg3 arg4 harg4 arg5 harg5 hc0 x0 x1).2.1)

/-- Case B's pieces for the output tile its block, so they cover it. -/
theorem cover2_B_2 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : ¬cond2_0 i)
    (x0 : Vec F S2048x128 .f32) (x1 : Vec F S1x2048 .i32) (xs0 : Vec F S2000x128 .f32) (y : S2000x128.Idx) :
    ∃ pc ∈ (kernelRun2_B c i arg2 harg2 arg3 harg3 arg4 harg4 arg5 harg5 hc0 x0 x1 xs0).1, y ∈ pc.1.set :=
  View.cover_of_tiledL (kernelRun2_B c i arg2 harg2 arg3 harg3 arg4 harg4 arg5 harg5 hc0 x0 x1 xs0).1 S2000x128.size (by sl_kernel_rfl) y

/-- What case B leaves in the output's staging buffer: its pieces read back over junk. -/
def out2_B_2 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : ¬cond2_0 i)
    (x0 : Vec F S2048x128 .f32) (x1 : Vec F S1x2048 .i32) (xs0 : Vec F S2000x128 .f32) : Vec F S2000x128 .f32 :=
  VO2_2.read (Elt F) (VO2_2.writes (Elt F) VO2_2.junk (kernelRun2_B c i arg2 harg2 arg3 harg3 arg4 harg4 arg5 harg5 hc0 x0 x1 xs0).1)

/-- Case B's pieces for the accumulator cover it. -/
theorem scover2_B_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : ¬cond2_0 i)
    (x0 : Vec F S2048x128 .f32) (x1 : Vec F S1x2048 .i32) (xs0 : Vec F S2000x128 .f32) (y : S2000x128.Idx) :
    ∃ pc ∈ (kernelRun2_B c i arg2 harg2 arg3 harg3 arg4 harg4 arg5 harg5 hc0 x0 x1 xs0).2.1, y ∈ pc.1.set :=
  View.cover_of_tiledL (kernelRun2_B c i arg2 harg2 arg3 harg3 arg4 harg4 arg5 harg5 hc0 x0 x1 xs0).2.1 S2000x128.size (by sl_kernel_rfl) y

/-- What case B leaves in the accumulator: its pieces read back over junk. -/
def sout2_B_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : ¬cond2_0 i)
    (x0 : Vec F S2048x128 .f32) (x1 : Vec F S1x2048 .i32) (xs0 : Vec F S2000x128 .f32) : Vec F S2000x128 .f32 :=
  VS2_0.read (Elt F) (VS2_0.writes (Elt F) VS2_0.junk (kernelRun2_B c i arg2 harg2 arg3 harg3 arg4 harg4 arg5 harg5 hc0 x0 x1 xs0).2.1)

section Regions
-- the TensorCore's buffer contents when the region is entered
variable (V : (c : Dev nD) → (b : Ref sig .tc) → Buf (Elt F) ((c : Thread nD τ).loc b))

/-! ## What the output's buffer and the accumulator hold after each point -/

/-- THE ACCUMULATION. What the output's staging buffer and the accumulator hold after the body at position `n` (a pair:
    the output, then the accumulator): the case the closed form selects at `n`, run at the point's memrefs and input
    blocks, the accumulator read at what this leaves at `n - 1`. -/
def outsAt2 (c : Dev nD) : (n : ℕ) → n < cfg2.N → Vec F S2000x128 .f32 × Vec F S2000x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (iblk2 V c 0 ⟨0, hn⟩) (iblk2 V c 1 ⟨0, hn⟩))
  | n + 1, hn =>
    if h0 : (n + 1) % 831 = 0 then
      (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (iblk2 V c 0 ⟨n + 1, hn⟩) (iblk2 V c 1 ⟨n + 1, hn⟩))
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (outsAt2 c n (Nat.lt_of_succ_lt hn)).2)

/-- `outsAt2` at a point of case A: that case's contents. -/
theorem outsAt2_A (c : Dev nD) (t : Fin cfg2.N) (h0 : t.val % 831 = 0) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 831 = 0) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What output window 2's staging buffer holds after the body at position `n`. -/
def accAt2 (c : Dev nD) (n : ℕ) (hn : n < cfg2.N) : Vec F S2000x128 .f32 := (outsAt2 V c n hn).1

/-- The scoped buffers of the region other than its staging buffers and its accumulator, unopened. -/
abbrev restBut2 (c : Dev nD) : sProp 𝕄 :=
  Pipeline.scopedRestBut (Ix := Unit) (Name := ℕ) (U := UR sig nD τ) (Lvl := ℕ) (Val := Elt F) spec2 c [cc2_scratch0]

/-- The region invariant before position `n`: before the first point the class's (every scratch at anything);
    afterwards the accumulator at what the point before left in it, the other scoped buffers unopened, and the generator
    register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ restBut2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(iprop(owns (c : Thread nD τ) scM2_0 fullShare ((outsAt2 V c n hn).2)) ∗ restBut2 c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ restBut2 c) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the output's at `accAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 4800000 in
/-- The body at any point: the inputs' memrefs hold their blocks; the closed form says which case the point is in; the
    invariant hands the body the accumulator at what the point before left (at anything at the first point) and takes it
    back at this point's contents; the other scoped buffers, the generator register and the core's debts pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  unfold accAt2
  by_cases h0 : t.val % 831 = 0
  · rw [outsAt2_A V c t h0]
    unfold out2_A_2 sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A_2 c _ _ _ _ _ _ _ _ _ _ _ _)
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A_2 c _ _ _ _ _ _ _ _ _ _ _ _)
  · rw [outsAt2_B V c t h0]
    unfold out2_B_2 sout2_B_0; (try dsimp only)
    by_cases hz : t.val = 0
    · exfalso; exact h0 (by rw [hz])
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_B_2 c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 41550 := N_2; omega)

end Regions

end Cert.Kernel.Run

end
-- ==== Proof.Bits.Scatter4Runs.lean ====
import proofs.«147088_j4836133175935_1_alg».proof.Proof.Gen.Kernel.Launch
import proofs.«147088_j4836133175935_1_alg».proof.Proof.Gen.Kernel.Skeleton
import proofs.«147088_j4836133175935_1_alg».proof.Proof.Bits.Pts
import Idealize.ShloMosaic.Lib.Pipeline.FrameBody
import Idealize.ShloMosaic.Lib.Ring
import Idealize.ShloMosaic.Lib.Tactic

-- membership in a rectangle of long extents recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (the width-40 segment sum): what its two control cases share

The body zeroes its accumulator when the second grid coordinate is 0, then adds the point's one-hot product into it
and copies it to the output block. So a point is in one of two cases: the accumulator starts from zero (A), or from
what the point before left (B). -/

/-! ## The body's branch condition -/

/-- The condition of the body's one conditional, from the grid coordinates: the second coordinate is 0. -/
abbrev cond4_0 (i : grid4.Coords) : Prop := (Scalar.cmpi .ne (Scalar.extui (Scalar.cmpi .eq (BitVec.ofNat 32 (i 1).val) 0#32)) 0#32) = 1#1

/-- On a value of the second coordinate the condition says that it is 0 — decided over the 831 values. -/
theorem cond4_0_iff : ∀ k : Fin 831, ((Scalar.cmpi .ne (Scalar.extui (Scalar.cmpi .eq (BitVec.ofNat 32 k.val) 0#32)) 0#32) = 1#1) ↔ k.val = 0 := by
  decide +kernel

/-- The second coordinate of point `t` is `t % 831`: the last axis runs fastest. -/
theorem coord4_1 (t : Fin cfg4.N) : (grid4.coords t 1).val = t.val % 831 := by
  show t.val / grid4.stride 1 % grid4.bound 1 = t.val % 831
  rw [show grid4.stride 1 = 1 from by decide, Nat.div_one]
  rfl

/-- The condition holds exactly at the first point of each row of the grid. -/
theorem hcond4_0 (t : Fin cfg4.N) : cond4_0 (grid4.coords t) ↔ t.val % 831 = 0 :=
  (cond4_0_iff (grid4.coords t 1)).trans (by rw [coord4_1])

/-- No window is idle anywhere: the configuration states no idle point. -/
theorem liveAt4 (w : Fin cfg4.W) (t : Fin cfg4.N) : cfg4.idle w (grid4.coords t) = false := rfl

/-! ## The staging and scratch memrefs -/

/-- One staging buffer of output window 2, through which its contents are stated (the choice does not matter). -/
abbrev VO4_2 : View sig .tc .vmem S2000x40 .f32 := (Memref.whole cc4_stg2_0 : Memref sig .tc .vmem S2000x40 .f32).view
/-- Each window's current staging memref at point `t`, spelled as the pipeline passes it, and its wholeness. -/
abbrev ms4_0 (t : Fin cfg4.N) : Memref sig .tc .vmem S2048x40 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x2048 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x40 .f32 := win4_2.stage (cfg4.slots t 2)
abbrev hs4_2 (t : Fin cfg4.N) : (ms4_2 t).IsWhole := hstage4_2 ((cfg4.slots t 2).cast nbuf4_2)
/-- The scratch operand: a whole scoped buffer of the kernel's own, passed beside the windows. -/
abbrev scM4_0 : Memref sig .tc .vmem S2000x40 .f32 := Memref.whole cc4_scratch0
/-- The accumulator the kernel carries between points, as a view: what it holds is stated through it. -/
abbrev VS4_0 : View sig .tc .vmem S2000x40 .f32 := scM4_0.view

/-- The class invariant with the accumulator as a memref owned at some contents, the other scoped buffers unopened. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is `V`'s
    and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end Regions

end Cert.Kernel.Run

end
-- ==== Proof.Bits.Scatter4RunA.lean ====
import proofs.«147088_j4836133175935_1_alg».proof.Proof.Bits.Scatter4Runs

-- membership in a rectangle of long extents recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), IN
    CASE A (the second grid coordinate is 0: the accumulator is zeroed first), WITH the proof that on whole memrefs — the
    inputs' at their contents, the output's and the accumulator at anything — the body runs to the continuation holding the
    inputs' as they were and the output's buffer and the accumulator with their pieces written. The pieces are the witness
    the symbolic run finds. -/
noncomputable def kernelRun4_A (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : cond4_0 i)
    (x0 : Vec F S2048x40 .f32) (x1 : Vec F S1x2048 .i32) :
    Σ' (L2 : List (View.Piece (Elt F) S2000x40 .f32)), { LS0 : List (View.Piece (Elt F) S2000x40 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__scatter_kernel i arg2 harg2 arg3 harg3 arg4 harg4 arg5 harg5) K } := by
  refine ⟨?_, ?_, fun E K => ?run⟩
  case run =>
    simp only [cc4__scatter_kernel_eq_skeleton]; unfold cc4__scatter_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Run

end
-- ==== Proof.Bits.Scatter4RunB.lean ====
import proofs.«147088_j4836133175935_1_alg».proof.Proof.Bits.Scatter4RunA

-- membership in a rectangle of long extents recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same IN CASE B (the second grid coordinate is not 0: the accumulator is read at what the point before left,
    `xs0`). -/
noncomputable def kernelRun4_B (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : ¬cond4_0 i)
    (x0 : Vec F S2048x40 .f32) (x1 : Vec F S1x2048 .i32) (xs0 : Vec F S2000x40 .f32) :
    Σ' (L2 : List (View.Piece (Elt F) S2000x40 .f32)), { LS0 : List (View.Piece (Elt F) S2000x40 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__scatter_kernel i arg2 harg2 arg3 harg3 arg4 harg4 arg5 harg5) K } := by
  refine ⟨?_, ?_, fun E K => ?run⟩
  case run =>
    simp only [cc4__scatter_kernel_eq_skeleton]; unfold cc4__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Run

end
-- ==== Proof.Bits.Scatter4.lean ====
import proofs.«147088_j4836133175935_1_alg».proof.Proof.Bits.Scatter4RunB

-- membership in a rectangle of long extents recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (the width-40 segment sum): its proof data and body obligation, at the entry contents `V` -/

/-! ## What each case leaves in the output's buffer and in the accumulator -/

/-- Case A's pieces for the output tile its block, so they cover it. -/
theorem cover4_A_2 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : cond4_0 i)
    (x0 : Vec F S2048x40 .f32) (x1 : Vec F S1x2048 .i32) (y : S2000x40.Idx) :
    ∃ pc ∈ (kernelRun4_A c i arg2 harg2 arg3 harg3 arg4 harg4 arg5 harg5 hc0 x0 x1).1, y ∈ pc.1.set :=
  View.cover_of_tiledL (kernelRun4_A c i arg2 harg2 arg3 harg3 arg4 harg4 arg5 harg5 hc0 x0 x1).1 S2000x40.size (by sl_kernel_rfl) y

/-- What case A leaves in the output's staging buffer: its pieces read back over junk. -/
def out4_A_2 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : cond4_0 i)
    (x0 : Vec F S2048x40 .f32) (x1 : Vec F S1x2048 .i32) : Vec F S2000x40 .f32 :=
  VO4_2.read (Elt F) (VO4_2.writes (Elt F) VO4_2.junk (kernelRun4_A c i arg2 harg2 arg3 harg3 arg4 harg4 arg5 harg5 hc0 x0 x1).1)

/-- Case A's pieces for the accumulator cover it. -/
theorem scover4_A_0 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : cond4_0 i)
    (x0 : Vec F S2048x40 .f32) (x1 : Vec F S1x2048 .i32) (y : S2000x40.Idx) :
    ∃ pc ∈ (kernelRun4_A c i arg2 harg2 arg3 harg3 arg4 harg4 arg5 harg5 hc0 x0 x1).2.1, y ∈ pc.1.set :=
  View.cover_of_tiledL (kernelRun4_A c i arg2 harg2 arg3 harg3 arg4 harg4 arg5 harg5 hc0 x0 x1).2.1 S2000x40.size (by sl_kernel_rfl) y

/-- What case A leaves in the accumulator: its pieces read back over junk. -/
def sout4_A_0 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : cond4_0 i)
    (x0 : Vec F S2048x40 .f32) (x1 : Vec F S1x2048 .i32) : Vec F S2000x40 .f32 :=
  VS4_0.read (Elt F) (VS4_0.writes (Elt F) VS4_0.junk (kernelRun4_A c i arg2 harg2 arg3 harg3 arg4 harg4 arg5 harg5 hc0 x0 x1).2.1)

/-- Case B's pieces for the output tile its block, so they cover it. -/
theorem cover4_B_2 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : ¬cond4_0 i)
    (x0 : Vec F S2048x40 .f32) (x1 : Vec F S1x2048 .i32) (xs0 : Vec F S2000x40 .f32) (y : S2000x40.Idx) :
    ∃ pc ∈ (kernelRun4_B c i arg2 harg2 arg3 harg3 arg4 harg4 arg5 harg5 hc0 x0 x1 xs0).1, y ∈ pc.1.set :=
  View.cover_of_tiledL (kernelRun4_B c i arg2 harg2 arg3 harg3 arg4 harg4 arg5 harg5 hc0 x0 x1 xs0).1 S2000x40.size (by sl_kernel_rfl) y

/-- What case B leaves in the output's staging buffer: its pieces read back over junk. -/
def out4_B_2 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : ¬cond4_0 i)
    (x0 : Vec F S2048x40 .f32) (x1 : Vec F S1x2048 .i32) (xs0 : Vec F S2000x40 .f32) : Vec F S2000x40 .f32 :=
  VO4_2.read (Elt F) (VO4_2.writes (Elt F) VO4_2.junk (kernelRun4_B c i arg2 harg2 arg3 harg3 arg4 harg4 arg5 harg5 hc0 x0 x1 xs0).1)

/-- Case B's pieces for the accumulator cover it. -/
theorem scover4_B_0 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : ¬cond4_0 i)
    (x0 : Vec F S2048x40 .f32) (x1 : Vec F S1x2048 .i32) (xs0 : Vec F S2000x40 .f32) (y : S2000x40.Idx) :
    ∃ pc ∈ (kernelRun4_B c i arg2 harg2 arg3 harg3 arg4 harg4 arg5 harg5 hc0 x0 x1 xs0).2.1, y ∈ pc.1.set :=
  View.cover_of_tiledL (kernelRun4_B c i arg2 harg2 arg3 harg3 arg4 harg4 arg5 harg5 hc0 x0 x1 xs0).2.1 S2000x40.size (by sl_kernel_rfl) y

/-- What case B leaves in the accumulator: its pieces read back over junk. -/
def sout4_B_0 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : ¬cond4_0 i)
    (x0 : Vec F S2048x40 .f32) (x1 : Vec F S1x2048 .i32) (xs0 : Vec F S2000x40 .f32) : Vec F S2000x40 .f32 :=
  VS4_0.read (Elt F) (VS4_0.writes (Elt F) VS4_0.junk (kernelRun4_B c i arg2 harg2 arg3 harg3 arg4 harg4 arg5 harg5 hc0 x0 x1 xs0).2.1)

section Regions
-- the TensorCore's buffer contents when the region is entered
variable (V : (c : Dev nD) → (b : Ref sig .tc) → Buf (Elt F) ((c : Thread nD τ).loc b))

/-! ## What the output's buffer and the accumulator hold after each point -/

/-- THE ACCUMULATION. What the output's staging buffer and the accumulator hold after the body at position `n` (a pair:
    the output, then the accumulator): the case the closed form selects at `n`, run at the point's memrefs and input
    blocks, the accumulator read at what this leaves at `n - 1`. -/
def outsAt4 (c : Dev nD) : (n : ℕ) → n < cfg4.N → Vec F S2000x40 .f32 × Vec F S2000x40 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (iblk4 V c 0 ⟨0, hn⟩) (iblk4 V c 1 ⟨0, hn⟩))
  | n + 1, hn =>
    if h0 : (n + 1) % 831 = 0 then
      (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (iblk4 V c 0 ⟨n + 1, hn⟩) (iblk4 V c 1 ⟨n + 1, hn⟩))
    else
      (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (iblk4 V c 0 ⟨n + 1, hn⟩) (iblk4 V c 1 ⟨n + 1, hn⟩) (outsAt4 c n (Nat.lt_of_succ_lt hn)).2)

/-- `outsAt4` at a point of case A: that case's contents. -/
theorem outsAt4_A (c : Dev nD) (t : Fin cfg4.N) (h0 : t.val % 831 = 0) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (iblk4 V c 0 t) (iblk4 V c 1 t)) := by
  obtain ⟨n, hn⟩ := t
  cases n with
  | zero => exact rfl
  | succ n => exact (dif_pos h0).trans rfl

/-- `outsAt4` at a point of case B: that case's contents, over what the point before left. -/
theorem outsAt4_B (c : Dev nD) (t : Fin cfg4.N) (h0 : ¬t.val % 831 = 0) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What output window 2's staging buffer holds after the body at position `n`. -/
def accAt4 (c : Dev nD) (n : ℕ) (hn : n < cfg4.N) : Vec F S2000x40 .f32 := (outsAt4 V c n hn).1

/-- The scoped buffers of the region other than its staging buffers and its accumulator, unopened. -/
abbrev restBut4 (c : Dev nD) : sProp 𝕄 :=
  Pipeline.scopedRestBut (Ix := Unit) (Name := ℕ) (U := UR sig nD τ) (Lvl := ℕ) (Val := Elt F) spec4 c [cc4_scratch0]

/-- The region invariant before position `n`: before the first point the class's (every scratch at anything);
    afterwards the accumulator at what the point before left in it, the other scoped buffers unopened, and the generator
    register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ restBut4 c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(iprop(owns (c : Thread nD τ) scM4_0 fullShare ((outsAt4 V c n hn).2)) ∗ restBut4 c) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ restBut4 c) ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the output's at `accAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => accAt4 V c t.val t.isLt
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = accAt4 V c t.val t.isLt := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t))

set_option maxHeartbeats 4800000 in
/-- The body at any point: the inputs' memrefs hold their blocks; the closed form says which case the point is in; the
    invariant hands the body the accumulator at what the point before left (at anything at the first point) and takes it
    back at this point's contents; the other scoped buffers, the generator register and the core's debts pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [after4_0, after4_1, after4_2]
  unfold accAt4
  by_cases h0 : t.val % 831 = 0
  · rw [outsAt4_A V c t h0]
    unfold out4_A_2 sout4_A_0; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩⟩
      iapply ((kernelRun4_A c (grid4.coords t) _ _ _ _ _ _ _ _ ((hcond4_0 t).mpr h0) (iblk4 V c 0 t) (iblk4 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_A_2 c _ _ _ _ _ _ _ _ _ _ _ _)
    · rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_A c (grid4.coords t) _ _ _ _ _ _ _ _ ((hcond4_0 t).mpr h0) (iblk4 V c 0 t) (iblk4 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_A_2 c _ _ _ _ _ _ _ _ _ _ _ _)
  · rw [outsAt4_B V c t h0]
    unfold out4_B_2 sout4_B_0; (try dsimp only)
    by_cases hz : t.val = 0
    · exfalso; exact h0 (by rw [hz])
    · rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_B_2 c _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 41550 := N_4; omega)

end Regions

end Cert.Kernel.Run

end
-- ==== Proof.Bits.Chain.lean ====
/-
  The buffer contents at each boundary between the items of the program — host stretches and the five kernel regions —
  as a fold from the launch memory: a host stretch applies its operations; a region leaves its arrays at what its
  pipeline's write-backs fold to and every other buffer as entered. Each argument array is read back through the fold to
  its launch contents. Then the proof data of the five pipelines, each at its region's entry contents, and the thread
  state that rides beside the buffers.
-/
import proofs.«147088_j4836133175935_1_alg».proof.Proof.Gen.Kernel.Regions
import proofs.«147088_j4836133175935_1_alg».proof.Proof.Bits.Dense0
import proofs.«147088_j4836133175935_1_alg».proof.Proof.Bits.Dense1
import proofs.«147088_j4836133175935_1_alg».proof.Proof.Bits.Dense3
import proofs.«147088_j4836133175935_1_alg».proof.Proof.Bits.Scatter2
import proofs.«147088_j4836133175935_1_alg».proof.Proof.Bits.Scatter4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c r = W0 m ρ c r :=
  StableHlo.after_of_writes_sub hostOps0 _ hostOps0_writes h
abbrev W2 : Dev nD → Valuation τ sig (Elt F) := fun c => StableHlo.after hostOps0_1 (W1 m ρ c)
theorem W2_of (c : Dev nD) (r : Ref sig .tc) (h : r ∉ hostOps0_1_W) : W2 m ρ c r = W1 m ρ c r :=
  StableHlo.after_of_writes_sub hostOps0_1 _ hostOps0_1_writes h
abbrev W3 : Dev nD → Valuation τ sig (Elt F) := fun c => StableHlo.after hostOps0_2 (W2 m ρ c)
theorem W3_of (c : Dev nD) (r : Ref sig .tc) (h : r ∉ hostOps0_2_W) : W3 m ρ c r = W2 m ρ c r :=
  StableHlo.after_of_writes_sub hostOps0_2 _ hostOps0_2_writes h
abbrev V3 : (c : Dev nD) → (b : Ref sig .tc) → Buf (Elt F) ((c : Thread nD τ).loc b) := fun c b => W3 m ρ c b

/-- At region 0's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after hostOps1 (W4 m ρ c)
theorem W5_of (c : Dev nD) (r : Ref sig .tc) (h : r ∉ hostOps1_W) : W5 m ρ c r = W4 m ρ c r :=
  StableHlo.after_of_writes_sub hostOps1 _ hostOps1_writes h
abbrev V5 : (c : Dev nD) → (b : Ref sig .tc) → Buf (Elt F) ((c : Thread nD τ).loc b) := fun c b => W5 m ρ c b

/-- At region 1's exit: its arrays at what the pipeline leaves (the inputs as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
abbrev W7 : Dev nD → Valuation τ sig (Elt F) := fun c => StableHlo.after hostOps2 (W6 m ρ c)
theorem W7_of (c : Dev nD) (r : Ref sig .tc) (h : r ∉ hostOps2_W) : W7 m ρ c r = W6 m ρ c r :=
  StableHlo.after_of_writes_sub hostOps2 _ hostOps2_writes h
abbrev V7 : (c : Dev nD) → (b : Ref sig .tc) → Buf (Elt F) ((c : Thread nD τ).loc b) := fun c b => W7 m ρ c b

/-- At region 2's exit: its arrays at what the pipeline leaves (the inputs as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
abbrev W9 : Dev nD → Valuation τ sig (Elt F) := fun c => StableHlo.after hostOps3 (W8 m ρ c)
theorem W9_of (c : Dev nD) (r : Ref sig .tc) (h : r ∉ hostOps3_W) : W9 m ρ c r = W8 m ρ c r :=
  StableHlo.after_of_writes_sub hostOps3 _ hostOps3_writes h
abbrev W10 : Dev nD → Valuation τ sig (Elt F) := fun c => StableHlo.after hostOps3_1 (W9 m ρ c)
theorem W10_of (c : Dev nD) (r : Ref sig .tc) (h : r ∉ hostOps3_1_W) : W10 m ρ c r = W9 m ρ c r :=
  StableHlo.after_of_writes_sub hostOps3_1 _ hostOps3_1_writes h
abbrev W11 : Dev nD → Valuation τ sig (Elt F) := fun c => StableHlo.after hostOps3_2 (W10 m ρ c)
theorem W11_of (c : Dev nD) (r : Ref sig .tc) (h : r ∉ hostOps3_2_W) : W11 m ρ c r = W10 m ρ c r :=
  StableHlo.after_of_writes_sub hostOps3_2 _ hostOps3_2_writes h
abbrev V11 : (c : Dev nD) → (b : Ref sig .tc) → Buf (Elt F) ((c : Thread nD τ).loc b) := fun c b => W11 m ρ c b

/-- At region 3's exit: its arrays at what the pipeline leaves (the inputs as entered, the output's write-backs
    folded), every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
abbrev W13 : Dev nD → Valuation τ sig (Elt F) := fun c => StableHlo.after hostOps4 (W12 m ρ c)
theorem W13_of (c : Dev nD) (r : Ref sig .tc) (h : r ∉ hostOps4_W) : W13 m ρ c r = W12 m ρ c r :=
  StableHlo.after_of_writes_sub hostOps4 _ hostOps4_writes h
abbrev V13 : (c : Dev nD) → (b : Ref sig .tc) → Buf (Elt F) ((c : Thread nD τ).loc b) := fun c b => W13 m ρ c b

/-- At region 4's exit: its arrays at what the pipeline leaves (the inputs as entered, the output's write-backs
    folded), every other buffer as entered. -/
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
abbrev V14 : (c : Dev nD) → (b : Ref sig .tc) → Buf (Elt F) ((c : Thread nD τ).loc b) := fun c b => W14 m ρ c b
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)
abbrev W15 : Dev nD → Valuation τ sig (Elt F) := fun c => StableHlo.after hostOps5 (W14 m ρ c)
theorem W15_of (c : Dev nD) (r : Ref sig .tc) (h : r ∉ hostOps5_W) : W15 m ρ c r = W14 m ρ c r :=
  StableHlo.after_of_writes_sub hostOps5 _ hostOps5_writes h
abbrev W16 : Dev nD → Valuation τ sig (Elt F) := fun c => StableHlo.after hostOps5_1 (W15 m ρ c)
theorem W16_of (c : Dev nD) (r : Ref sig .tc) (h : r ∉ hostOps5_1_W) : W16 m ρ c r = W15 m ρ c r :=
  StableHlo.after_of_writes_sub hostOps5_1 _ hostOps5_1_writes h

/-! ## The arguments end as launched -/

/-- `main_arg0` ends as launched: no host operation writes it, a region reads it through an input window or passes it by. -/
theorem W16_main_arg0 (c : Dev nD) : W16 m ρ c (Proc.devRef .tc main_arg0) = m ((c : Thread nD τ).loc main_arg0) :=
  (W16_of m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  ((W4_arr m ρ c 0).trans (((dat0 (V3 m ρ) c).arrAt_in 0 rfl _).trans (A_eq0 (V3 m ρ) c 0))).trans <|
  (W3_of m ρ c main_arg0 (by decide)).trans <|
  (W2_of m ρ c main_arg0 (by decide)).trans <|
  (W1_of m ρ c main_arg0 (by decide)).trans rfl

/-- `main_arg1` ends as launched: no host operation writes it, a region reads it through an input window or passes it by. -/
theorem W16_main_arg1 (c : Dev nD) : W16 m ρ c (Proc.devRef .tc main_arg1) = m ((c : Thread nD τ).loc main_arg1) :=
  (W16_of m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of m ρ c main_arg1 (by decide)).trans <|
  (W1_of m ρ c main_arg1 (by decide)).trans rfl

/-- `main_arg2` ends as launched: no host operation writes it, a region reads it through an input window or passes it by. -/
theorem W16_main_arg2 (c : Dev nD) : W16 m ρ c (Proc.devRef .tc main_arg2) = m ((c : Thread nD τ).loc main_arg2) :=
  (W16_of m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  ((W4_arr m ρ c 1).trans (((dat0 (V3 m ρ) c).arrAt_in 1 rfl _).trans (A_eq0 (V3 m ρ) c 1))).trans <|
  (W3_of m ρ c main_arg2 (by decide)).trans <|
  (W2_of m ρ c main_arg2 (by decide)).trans <|
  (W1_of m ρ c main_arg2 (by decide)).trans rfl

/-- `main_arg3` ends as launched: no host operation writes it, a region reads it through an input window or passes it by. -/
theorem W16_main_arg3 (c : Dev nD) : W16 m ρ c (Proc.devRef .tc main_arg3) = m ((c : Thread nD τ).loc main_arg3) :=
  (W16_of m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of m ρ c main_arg3 (by decide)).trans <|
  (W1_of m ρ c main_arg3 (by decide)).trans rfl

/-- `main_arg4` ends as launched: no host operation writes it, a region reads it through an input window or passes it by. -/
theorem W16_main_arg4 (c : Dev nD) : W16 m ρ c (Proc.devRef .tc main_arg4) = m ((c : Thread nD τ).loc main_arg4) :=
  (W16_of m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of m ρ c main_arg4 (by decide)).trans <|
  (W9_of m ρ c main_arg4 (by decide)).trans <|
  (W8_of_ne m ρ c main_arg4 (by decide)).trans <|
  (W7_of m ρ c main_arg4 (by decide)).trans <|
  ((W6_arr m ρ c 1).trans (((dat1 (V5 m ρ) c).arrAt_in 1 rfl _).trans (A_eq1 (V5 m ρ) c 1))).trans <|
  (W5_of m ρ c main_arg4 (by decide)).trans <|
  (W4_of_ne m ρ c main_arg4 (by decide)).trans <|
  (W3_of m ρ c main_arg4 (by decide)).trans <|
  (W2_of m ρ c main_arg4 (by decide)).trans <|
  (W1_of m ρ c main_arg4 (by decide)).trans rfl

/-- `main_arg5` ends as launched: no host operation writes it, a region reads it through an input window or passes it by. -/
theorem W16_main_arg5 (c : Dev nD) : W16 m ρ c (Proc.devRef .tc main_arg5) = m ((c : Thread nD τ).loc main_arg5) :=
  (W16_of m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of m ρ c main_arg5 (by decide)).trans <|
  (W1_of m ρ c main_arg5 (by decide)).trans rfl

/-- `main_arg6` ends as launched: no host operation writes it, a region reads it through an input window or passes it by. -/
theorem W16_main_arg6 (c : Dev nD) : W16 m ρ c (Proc.devRef .tc main_arg6) = m ((c : Thread nD τ).loc main_arg6) :=
  (W16_of m ρ c main_arg6 (by decide)).trans <|
  (W15_of m ρ c main_arg6 (by decide)).trans <|
  (W14_of_ne m ρ c main_arg6 (by decide)).trans <|
  (W13_of m ρ c main_arg6 (by decide)).trans <|
  ((W12_arr m ρ c 1).trans (((dat3 (V11 m ρ) c).arrAt_in 1 rfl _).trans (A_eq3 (V11 m ρ) c 1))).trans <|
  (W11_of m ρ c main_arg6 (by decide)).trans <|
  (W10_of m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of m ρ c main_arg6 (by decide)).trans <|
  (W1_of m ρ c main_arg6 (by decide)).trans rfl

/-- `main_arg7` ends as launched: no host operation writes it, a region reads it through an input window or passes it by. -/
theorem W16_main_arg7 (c : Dev nD) : W16 m ρ c (Proc.devRef .tc main_arg7) = m ((c : Thread nD τ).loc main_arg7) :=
  (W16_of m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of m ρ c main_arg7 (by decide)).trans <|
  (W1_of m ρ c main_arg7 (by decide)).trans rfl

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V11 m ρ) c
  | ⟨4, _⟩ => fun c => dat4 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item: its operations over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W16 m ρ c) ∗ ∃ r, prngReg c r)

end Cert.Kernel.Run

end
-- ==== Proof.Bits.Reg0.lean ====
/-
  Region 0 as an item of the program's run, over the thread state "every unscoped buffer at the boundary's contents,
  the generator register at some state, nothing owed".
-/
import proofs.«147088_j4836133175935_1_alg».proof.Proof.Bits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 0 over the thread state: entered with every unscoped buffer at `W3`, left with them at `W4`. Its
    arrays are split out of the unscoped buffers and put back at what the pipeline leaves; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.Reg1.lean ====
/-
  Region 1 as an item of the program's run, over the thread state "every unscoped buffer at the boundary's contents,
  the generator register at some state, nothing owed".
-/
import proofs.«147088_j4836133175935_1_alg».proof.Proof.Bits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 1 over the thread state: entered with every unscoped buffer at `W5`, left with them at `W6`. Its
    arrays are split out of the unscoped buffers and put back at what the pipeline leaves; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.Reg2.lean ====
/-
  Region 2 as an item of the program's run, over the thread state "every unscoped buffer at the boundary's contents,
  the generator register at some state, nothing owed".
-/
import proofs.«147088_j4836133175935_1_alg».proof.Proof.Bits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 2 over the thread state: entered with every unscoped buffer at `W7`, left with them at `W8`. Its
    arrays are split out of the unscoped buffers and put back at what the pipeline leaves; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 := hin2 (V7 m ρ) c
    unfold Pipeline.ΦA at h1
    rw [show (pdats m ρ 2 c).Φ 0 = (dat2 (V7 m ρ) c).Φ 0 from rfl]
    iintro ⟨Hp, -, Hr⟩
    iapply h1
    isplitl [Hr]; · iexact Hr
    iexact Hp
  hout c := by
    have h1 := hout2 (V7 m ρ) c
    unfold Pipeline.ΦA at h1
    rw [Pipeline.ownSems0_none, show (pdats m ρ 2 c).Φ (Fin.last _) = (dat2 (V7 m ρ) c).Φ (Fin.last cfg2.N) from rfl]
    iintro H
    ihave H' := h1 $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.Reg3.lean ====
/-
  Region 3 as an item of the program's run, over the thread state "every unscoped buffer at the boundary's contents,
  the generator register at some state, nothing owed".
-/
import proofs.«147088_j4836133175935_1_alg».proof.Proof.Bits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 3 over the thread state: entered with every unscoped buffer at `W11`, left with them at `W12`. Its
    arrays are split out of the unscoped buffers and put back at what the pipeline leaves; the generator register
    goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.Reg4.lean ====
/-
  Region 4 as an item of the program's run, over the thread state "every unscoped buffer at the boundary's contents,
  the generator register at some state, nothing owed".
-/
import proofs.«147088_j4836133175935_1_alg».proof.Proof.Bits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 4 over the thread state: entered with every unscoped buffer at `W13`, left with them at `W14`. Its
    arrays are split out of the unscoped buffers and put back at what the pipeline leaves; the generator register
    goes into the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 := hin4 (V13 m ρ) c
    unfold Pipeline.ΦA at h1
    rw [show (pdats m ρ 4 c).Φ 0 = (dat4 (V13 m ρ) c).Φ 0 from rfl]
    iintro ⟨Hp, -, Hr⟩
    iapply h1
    isplitl [Hr]; · iexact Hr
    iexact Hp
  hout c := by
    have h1 := hout4 (V13 m ρ) c
    unfold Pipeline.ΦA at h1
    rw [Pipeline.ownSems0_none, show (pdats m ρ 4 c).Φ (Fin.last _) = (dat4 (V13 m ρ) c).Φ (Fin.last cfg4.N) from rfl]
    iintro H
    ihave H' := h1 $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V13 m ρ c) (V14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.RunAll.lean ====
/-
  The run of the whole program: its sixteen items in order — host stretches and the five kernel regions — from the launch
  memory to the return. Every weakly fair execution terminates, nothing faulting, and the final memory holds every
  unscoped buffer at the last boundary's contents: the argument arrays as launched, the result at the fold's value.
-/
import proofs.«147088_j4836133175935_1_alg».proof.Proof.Bits.Reg0
import proofs.«147088_j4836133175935_1_alg».proof.Proof.Bits.Reg1
import proofs.«147088_j4836133175935_1_alg».proof.Proof.Bits.Reg2
import proofs.«147088_j4836133175935_1_alg».proof.Proof.Bits.Reg3
import proofs.«147088_j4836133175935_1_alg».proof.Proof.Bits.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's sixteen items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .region (reg3 m ρ),
    .host (hseg hostOps4 hostOps4_sub hostOps4_fresh (W12 m ρ)),
    .region (reg4 m ρ),
    .host (hseg hostOps5 hostOps5_sub hostOps5_fresh (W14 m ρ)),
    .host (hseg hostOps5_1 hostOps5_1_sub hostOps5_1_fresh (W15 m ρ)) ]

/-- The program is the run of its items. -/
theorem main_run (c : Dev nD) : main (F := F) c = Pipeline.Seg.run (segs m ρ) := (main_chain c).trans (by chain_rfl)

-- the library theorem's implicit arguments are found by unifying its conclusion with this one, which takes unfolding
-- plain definitions in a metavariable's type
set_option backward.isDefEq.respectTransparency.types false in
/-- From any memory with zero counters every weakly fair execution of the program terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W16 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c)⟩) (run_all m ρ)

end Cert.Kernel.Run

end
-- ==== Proof.Pts.lean ====
/-
  The staging memref each window of each region is on at a grid point, and the kernel body as the pipeline calls it
  there; and when the accumulating regions write their output block back: at the last of a node block's 831 chunks.
-/
import proofs.«147088_j4836133175935_1_alg».proof.Proof.Gen.KernelIdeal.Launch

noncomputable section

namespace Cert.KernelIdeal.Run

open Idealize.ShloMosaic Idealize.ShloMosaic.TcCoe
open Idealize.SL Idealize.SL.Sem
open Cert.KernelIdeal Cert.KernelIdeal.Gen

variable {F : FTy → Type} [FloatOps F]

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev bodyAt0 (t : Fin cfg0.N) : Prog (TpuEff nD τ sig (Elt F) Λ₀ .tc) PUnit :=
  cc0_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev bodyAt1 (t : Fin cfg1.N) : Prog (TpuEff nD τ sig (Elt F) Λ₀ .tc) PUnit :=
  cc1_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3))
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev bodyAt2 (t : Fin cfg2.N) : Prog (TpuEff nD τ sig (Elt F) Λ₀ .tc) PUnit :=
  cc2__scatter_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (Memref.whole cc2_scratch0) (Memref.isWhole_whole _)
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)
abbrev st3_3 (t : Fin cfg3.N) := (cfg3.win 3).stage (cfg3.slots t 3)
abbrev bodyAt3 (t : Fin cfg3.N) : Prog (TpuEff nD τ sig (Elt F) Λ₀ .tc) PUnit :=
  cc3_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3))
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev bodyAt4 (t : Fin cfg4.N) : Prog (TpuEff nD τ sig (Elt F) Λ₀ .tc) PUnit :=
  cc4__scatter_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (Memref.whole cc4_scratch0) (Memref.isWhole_whole _)

end Cert.KernelIdeal.Run

end
-- ==== Proof.Dense0.lean ====
/-
  Region 0 of the program: a dense layer on a block of 5000 rows. At each of the 20 grid points the body loads the
  point's block of rows (window 0), the whole weight matrix (window 1) and the bias row (window 2), and stores
  max(rows · W + bias, 0) whole into the output block (window 3). Stated at a parameter `V`, the
  buffer contents when the region is entered: the windows' blocks, what the body leaves in the output block as a
  function of the three input blocks, the body's triple, the proof data of the pipeline and its body obligation.
-/
import proofs.«147088_j4836133175935_1_alg».proof.Proof.Gen.KernelIdeal.Launch
import proofs.«147088_j4836133175935_1_alg».proof.Proof.Gen.KernelIdeal.Skeleton
import proofs.«147088_j4836133175935_1_alg».proof.Proof.Pts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window that is
    not fetched has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_x : Rect S5000x256 := Rect.unit (s := S5000x256) ![0, 0] S5000x256.size inb_S5000x256_S5000x256_0_0
abbrev r0_w : Rect S256x128 := Rect.unit (s := S256x128) ![0, 0] S256x128.size inb_S256x128_S256x128_0_0
abbrev r0_b : Rect S1x128 := Rect.unit (s := S1x128) ![0, 0] S1x128.size inb_S1x128_S1x128_0_0
abbrev r0_o : Rect S5000x128 := Rect.unit (s := S5000x128) ![0, 0] S5000x128.size inb_S5000x128_S5000x128_0_0

/-- The output block after the body, from the three input blocks: its one whole store. -/
def out0_3 (x0 : Vec F S5000x256 .f32) (x1 : Vec F S256x128 .f32) (x2 : Vec F S1x128 .f32) : Vec F S5000x128 .f32 :=
  View.canon [⟨r0_o, k0_pay1 (View.ld x0 r0_x) (View.ld x1 r0_w) (View.ld x2 r0_b)⟩]

/-- The one store covers the block. -/
theorem cover0_3 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

/-! ## The body's triple -/

set_option maxHeartbeats 1000000 in
/-- On whole staging memrefs, the inputs' at contents `x0 x1 x2` and the output's at anything, the body runs to the
    continuation holding the inputs' as they were and the output's at `out0_3 x0 x1 x2`. -/
theorem sound_kernel0 (c : Dev nD) (E : Set ℕ) (i : grid0.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.Dense1.lean ====
/-
  Region 1 of the program: a dense layer on a block of 5000 rows. At each of the 20 grid points the body loads the
  point's block of rows (window 0), the whole weight matrix (window 1) and the bias row (window 2), and stores
  rows · W + bias whole into the output block (window 3). Stated at a parameter `V`, the
  buffer contents when the region is entered: the windows' blocks, what the body leaves in the output block as a
  function of the three input blocks, the body's triple, the proof data of the pipeline and its body obligation.
-/
import proofs.«147088_j4836133175935_1_alg».proof.Proof.Gen.KernelIdeal.Launch
import proofs.«147088_j4836133175935_1_alg».proof.Proof.Gen.KernelIdeal.Skeleton
import proofs.«147088_j4836133175935_1_alg».proof.Proof.Pts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window that is
    not fetched has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_x : Rect S5000x128 := Rect.unit (s := S5000x128) ![0, 0] S5000x128.size inb_S5000x128_S5000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_o : Rect S5000x128 := Rect.unit (s := S5000x128) ![0, 0] S5000x128.size inb_S5000x128_S5000x128_0_0

/-- The output block after the body, from the three input blocks: its one whole store. -/
def out1_3 (x0 : Vec F S5000x128 .f32) (x1 : Vec F S128x128 .f32) (x2 : Vec F S1x128 .f32) : Vec F S5000x128 .f32 :=
  View.canon [⟨r1_o, k1_pay1 (View.ld x0 r1_x) (View.ld x1 r1_w) (View.ld x2 r1_b)⟩]

/-- The one store covers the block. -/
theorem cover1_3 (p0 : Vec F S5000x128 .f32) (y : S5000x128.Idx) :
    ∃ pc ∈ ([⟨r1_o, p0⟩] : List (View.Piece (Elt F) S5000x128 .f32)), y ∈ pc.1.set :=
  View.cover_of_tiled [⟨r1_o, p0⟩] S5000x128.size (by rfl) y

/-! ## The body's triple -/

set_option maxHeartbeats 1000000 in
/-- On whole staging memrefs, the inputs' at contents `x0 x1 x2` and the output's at anything, the body runs to the
    continuation holding the inputs' as they were and the output's at `out1_3 x0 x1 x2`. -/
theorem sound_kernel1 (c : Dev nD) (E : Set ℕ) (i : grid1.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.Dense3.lean ====
/-
  Region 3 of the program: a dense layer on a block of 5000 rows. At each of the 20 grid points the body loads the
  point's block of rows (window 0), the whole weight matrix (window 1) and the bias row (window 2), and stores
  rows · W + bias whole into the output block (window 3). Stated at a parameter `V`, the
  buffer contents when the region is entered: the windows' blocks, what the body leaves in the output block as a
  function of the three input blocks, the body's triple, the proof data of the pipeline and its body obligation.
-/
import proofs.«147088_j4836133175935_1_alg».proof.Proof.Gen.KernelIdeal.Launch
import proofs.«147088_j4836133175935_1_alg».proof.Proof.Gen.KernelIdeal.Skeleton
import proofs.«147088_j4836133175935_1_alg».proof.Proof.Pts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (a window that is
    not fetched has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written whole -/

abbrev r3_x : Rect S5000x128 := Rect.unit (s := S5000x128) ![0, 0] S5000x128.size inb_S5000x128_S5000x128_0_0
abbrev r3_w : Rect S128x40 := Rect.unit (s := S128x40) ![0, 0] S128x40.size inb_S128x40_S128x40_0_0
abbrev r3_b : Rect S1x40 := Rect.unit (s := S1x40) ![0, 0] S1x40.size inb_S1x40_S1x40_0_0
abbrev r3_o : Rect S5000x40 := Rect.unit (s := S5000x40) ![0, 0] S5000x40.size inb_S5000x40_S5000x40_0_0

/-- The output block after the body, from the three input blocks: its one whole store. -/
def out3_3 (x0 : Vec F S5000x128 .f32) (x1 : Vec F S128x40 .f32) (x2 : Vec F S1x40 .f32) : Vec F S5000x40 .f32 :=
  View.canon [⟨r3_o, k3_pay1 (View.ld x0 r3_x) (View.ld x1 r3_w) (View.ld x2 r3_b)⟩]

/-- The one store covers the block. -/
theorem cover3_3 (p0 : Vec F S5000x40 .f32) (y : S5000x40.Idx) :
    ∃ pc ∈ ([⟨r3_o, p0⟩] : List (View.Piece (Elt F) S5000x40 .f32)), y ∈ pc.1.set :=
  View.cover_of_tiled [⟨r3_o, p0⟩] S5000x40.size (by rfl) y

/-! ## The body's triple -/

set_option maxHeartbeats 1000000 in
/-- On whole staging memrefs, the inputs' at contents `x0 x1 x2` and the output's at anything, the body runs to the
    continuation holding the inputs' as they were and the output's at `out3_3 x0 x1 x2`. -/
theorem sound_kernel3 (c : Dev nD) (E : Set ℕ) (i : grid3.Coords) (arg1 : Memref sig .tc .vmem S5000x128 .f32) (harg1 : arg1.IsWhole) (arg2 : Memref sig .tc .vmem S128x40 .f32) (harg2 : arg2.IsWhole) (arg3 : Memref sig .tc .vmem S1x40 .f32) (harg3 : arg3.IsWhole) (arg4 : Memref sig .tc .vmem S5000x40 .f32) (harg4 : arg4.IsWhole)
    (x0 : Vec F S5000x128 .f32) (x1 : Vec F S128x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them; after the body at point `t`
    each input's buffer at its block and the output's at `out3_3` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Run

end
-- ==== Proof.Scatter2Runs.lean ====
import proofs.«147088_j4836133175935_1_alg».proof.Proof.Gen.KernelIdeal.Launch
import proofs.«147088_j4836133175935_1_alg».proof.Proof.Gen.KernelIdeal.Skeleton
import proofs.«147088_j4836133175935_1_alg».proof.Proof.Pts
import Idealize.ShloMosaic.Lib.Pipeline.FrameBody
import Idealize.ShloMosaic.Lib.Ring
import Idealize.ShloMosaic.Lib.Tactic

-- membership in a rectangle of long extents recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the width-128 segment sum): what its two control cases share

The body zeroes its accumulator when the second grid coordinate is 0, then adds the point's one-hot product into it
and copies it to the output block. So a point is in one of two cases: the accumulator starts from zero (A), or from
what the point before left (B). -/

/-! ## The body's branch condition -/

/-- The condition of the body's one conditional, from the grid coordinates: the second coordinate is 0. -/
abbrev cond2_0 (i : grid2.Coords) : Prop := (Scalar.cmpi .ne (Scalar.extui (Scalar.cmpi .eq (BitVec.ofNat 32 (i 1).val) 0#32)) 0#32) = 1#1

/-- On a value of the second coordinate the condition says that it is 0 — decided over the 831 values. -/
theorem cond2_0_iff : ∀ k : Fin 831, ((Scalar.cmpi .ne (Scalar.extui (Scalar.cmpi .eq (BitVec.ofNat 32 k.val) 0#32)) 0#32) = 1#1) ↔ k.val = 0 := by
  decide +kernel

/-- The second coordinate of point `t` is `t % 831`: the last axis runs fastest. -/
theorem coord2_1 (t : Fin cfg2.N) : (grid2.coords t 1).val = t.val % 831 := by
  show t.val / grid2.stride 1 % grid2.bound 1 = t.val % 831
  rw [show grid2.stride 1 = 1 from by decide, Nat.div_one]
  rfl

/-- The condition holds exactly at the first point of each row of the grid. -/
theorem hcond2_0 (t : Fin cfg2.N) : cond2_0 (grid2.coords t) ↔ t.val % 831 = 0 :=
  (cond2_0_iff (grid2.coords t 1)).trans (by rw [coord2_1])

/-- No window is idle anywhere: the configuration states no idle point. -/
theorem liveAt2 (w : Fin cfg2.W) (t : Fin cfg2.N) : cfg2.idle w (grid2.coords t) = false := rfl

/-! ## The staging and scratch memrefs -/

/-- One staging buffer of output window 2, through which its contents are stated (the choice does not matter). -/
abbrev VO2_2 : View sig .tc .vmem S2000x128 .f32 := (Memref.whole cc2_stg2_0 : Memref sig .tc .vmem S2000x128 .f32).view
/-- Each window's current staging memref at point `t`, spelled as the pipeline passes it, and its wholeness. -/
abbrev ms2_0 (t : Fin cfg2.N) : Memref sig .tc .vmem S2048x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x128 .f32 := win2_2.stage (cfg2.slots t 2)
abbrev hs2_2 (t : Fin cfg2.N) : (ms2_2 t).IsWhole := hstage2_2 ((cfg2.slots t 2).cast nbuf2_2)
/-- The scratch operand: a whole scoped buffer of the kernel's own, passed beside the windows. -/
abbrev scM2_0 : Memref sig .tc .vmem S2000x128 .f32 := Memref.whole cc2_scratch0
/-- The accumulator the kernel carries between points, as a view: what it holds is stated through it. -/
abbrev VS2_0 : View sig .tc .vmem S2000x128 .f32 := scM2_0.view

/-- The class invariant with the accumulator as a memref owned at some contents, the other scoped buffers unopened. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is `V`'s
    and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Regions

end Cert.KernelIdeal.Run

end
-- ==== Proof.Scatter2RunA.lean ====
import proofs.«147088_j4836133175935_1_alg».proof.Proof.Scatter2Runs

-- membership in a rectangle of long extents recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), IN
    CASE A (the second grid coordinate is 0: the accumulator is zeroed first), WITH the proof that on whole memrefs — the
    inputs' at their contents, the output's and the accumulator at anything — the body runs to the continuation holding the
    inputs' as they were and the output's buffer and the accumulator with their pieces written. The pieces are the witness
    the symbolic run finds. -/
noncomputable def kernelRun2_A (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : cond2_0 i)
    (x0 : Vec F S2048x128 .f32) (x1 : Vec F S1x2048 .i32) :
    Σ' (L2 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__scatter_kernel i arg2 harg2 arg3 harg3 arg4 harg4 arg5 harg5) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Run

end
-- ==== Proof.Scatter2RunB.lean ====
import proofs.«147088_j4836133175935_1_alg».proof.Proof.Scatter2RunA

-- membership in a rectangle of long extents recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same IN CASE B (the second grid coordinate is not 0: the accumulator is read at what the point before left,
    `xs0`). -/
noncomputable def kernelRun2_B (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : ¬cond2_0 i)
    (x0 : Vec F S2048x128 .f32) (x1 : Vec F S1x2048 .i32) (xs0 : Vec F S2000x128 .f32) :
    Σ' (L2 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__scatter_kernel i arg2 harg2 arg3 harg3 arg4 harg4 arg5 harg5) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Run

end
-- ==== Proof.Scatter2.lean ====
import proofs.«147088_j4836133175935_1_alg».proof.Proof.Scatter2RunB

-- membership in a rectangle of long extents recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the width-128 segment sum): its proof data and body obligation, at the entry contents `V` -/

/-! ## What each case leaves in the output's buffer and in the accumulator -/

/-- Case A's pieces for the output tile its block, so they cover it. -/
theorem cover2_A_2 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : cond2_0 i)
    (x0 : Vec F S2048x128 .f32) (x1 : Vec F S1x2048 .i32) (y : S2000x128.Idx) :
    ∃ pc ∈ (kernelRun2_A c i arg2 harg2 arg3 harg3 arg4 harg4 arg5 harg5 hc0 x0 x1).1, y ∈ pc.1.set :=
  View.cover_of_tiledL (kernelRun2_A c i arg2 harg2 arg3 harg3 arg4 harg4 arg5 harg5 hc0 x0 x1).1 S2000x128.size (by sl_kernel_rfl) y

/-- What case A leaves in the output's staging buffer: its pieces read back over junk. -/
def out2_A_2 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : cond2_0 i)
    (x0 : Vec F S2048x128 .f32) (x1 : Vec F S1x2048 .i32) : Vec F S2000x128 .f32 :=
  VO2_2.read (Elt F) (VO2_2.writes (Elt F) VO2_2.junk (kernelRun2_A c i arg2 harg2 arg3 harg3 arg4 harg4 arg5 harg5 hc0 x0 x1).1)

/-- Case A's pieces for the accumulator cover it. -/
theorem scover2_A_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : cond2_0 i)
    (x0 : Vec F S2048x128 .f32) (x1 : Vec F S1x2048 .i32) (y : S2000x128.Idx) :
    ∃ pc ∈ (kernelRun2_A c i arg2 harg2 arg3 harg3 arg4 harg4 arg5 harg5 hc0 x0 x1).2.1, y ∈ pc.1.set :=
  View.cover_of_tiledL (kernelRun2_A c i arg2 harg2 arg3 harg3 arg4 harg4 arg5 harg5 hc0 x0 x1).2.1 S2000x128.size (by sl_kernel_rfl) y

/-- What case A leaves in the accumulator: its pieces read back over junk. -/
def sout2_A_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : cond2_0 i)
    (x0 : Vec F S2048x128 .f32) (x1 : Vec F S1x2048 .i32) : Vec F S2000x128 .f32 :=
  VS2_0.read (Elt F) (VS2_0.writes (Elt F) VS2_0.junk (kernelRun2_A c i arg2 harg2 arg3 harg3 arg4 harg4 arg5 harg5 hc0 x0 x1).2.1)

/-- Case B's pieces for the output tile its block, so they cover it. -/
theorem cover2_B_2 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : ¬cond2_0 i)
    (x0 : Vec F S2048x128 .f32) (x1 : Vec F S1x2048 .i32) (xs0 : Vec F S2000x128 .f32) (y : S2000x128.Idx) :
    ∃ pc ∈ (kernelRun2_B c i arg2 harg2 arg3 harg3 arg4 harg4 arg5 harg5 hc0 x0 x1 xs0).1, y ∈ pc.1.set :=
  View.cover_of_tiledL (kernelRun2_B c i arg2 harg2 arg3 harg3 arg4 harg4 arg5 harg5 hc0 x0 x1 xs0).1 S2000x128.size (by sl_kernel_rfl) y

/-- What case B leaves in the output's staging buffer: its pieces read back over junk. -/
def out2_B_2 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : ¬cond2_0 i)
    (x0 : Vec F S2048x128 .f32) (x1 : Vec F S1x2048 .i32) (xs0 : Vec F S2000x128 .f32) : Vec F S2000x128 .f32 :=
  VO2_2.read (Elt F) (VO2_2.writes (Elt F) VO2_2.junk (kernelRun2_B c i arg2 harg2 arg3 harg3 arg4 harg4 arg5 harg5 hc0 x0 x1 xs0).1)

/-- Case B's pieces for the accumulator cover it. -/
theorem scover2_B_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : ¬cond2_0 i)
    (x0 : Vec F S2048x128 .f32) (x1 : Vec F S1x2048 .i32) (xs0 : Vec F S2000x128 .f32) (y : S2000x128.Idx) :
    ∃ pc ∈ (kernelRun2_B c i arg2 harg2 arg3 harg3 arg4 harg4 arg5 harg5 hc0 x0 x1 xs0).2.1, y ∈ pc.1.set :=
  View.cover_of_tiledL (kernelRun2_B c i arg2 harg2 arg3 harg3 arg4 harg4 arg5 harg5 hc0 x0 x1 xs0).2.1 S2000x128.size (by sl_kernel_rfl) y

/-- What case B leaves in the accumulator: its pieces read back over junk. -/
def sout2_B_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : ¬cond2_0 i)
    (x0 : Vec F S2048x128 .f32) (x1 : Vec F S1x2048 .i32) (xs0 : Vec F S2000x128 .f32) : Vec F S2000x128 .f32 :=
  VS2_0.read (Elt F) (VS2_0.writes (Elt F) VS2_0.junk (kernelRun2_B c i arg2 harg2 arg3 harg3 arg4 harg4 arg5 harg5 hc0 x0 x1 xs0).2.1)

section Regions
-- the TensorCore's buffer contents when the region is entered
variable (V : (c : Dev nD) → (b : Ref sig .tc) → Buf (Elt F) ((c : Thread nD τ).loc b))

/-! ## What the output's buffer and the accumulator hold after each point -/

/-- THE ACCUMULATION. What the output's staging buffer and the accumulator hold after the body at position `n` (a pair:
    the output, then the accumulator): the case the closed form selects at `n`, run at the point's memrefs and input
    blocks, the accumulator read at what this leaves at `n - 1`. -/
def outsAt2 (c : Dev nD) : (n : ℕ) → n < cfg2.N → Vec F S2000x128 .f32 × Vec F S2000x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (iblk2 V c 0 ⟨0, hn⟩) (iblk2 V c 1 ⟨0, hn⟩))
  | n + 1, hn =>
    if h0 : (n + 1) % 831 = 0 then
      (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (iblk2 V c 0 ⟨n + 1, hn⟩) (iblk2 V c 1 ⟨n + 1, hn⟩))
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (outsAt2 c n (Nat.lt_of_succ_lt hn)).2)

/-- `outsAt2` at a point of case A: that case's contents. -/
theorem outsAt2_A (c : Dev nD) (t : Fin cfg2.N) (h0 : t.val % 831 = 0) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 831 = 0) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What output window 2's staging buffer holds after the body at position `n`. -/
def accAt2 (c : Dev nD) (n : ℕ) (hn : n < cfg2.N) : Vec F S2000x128 .f32 := (outsAt2 V c n hn).1

/-- The scoped buffers of the region other than its staging buffers and its accumulator, unopened. -/
abbrev restBut2 (c : Dev nD) : sProp 𝕄 :=
  Pipeline.scopedRestBut (Ix := Unit) (Name := ℕ) (U := UR sig nD τ) (Lvl := ℕ) (Val := Elt F) spec2 c [cc2_scratch0]

/-- The region invariant before position `n`: before the first point the class's (every scratch at anything);
    afterwards the accumulator at what the point before left in it, the other scoped buffers unopened, and the generator
    register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ restBut2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(iprop(owns (c : Thread nD τ) scM2_0 fullShare ((outsAt2 V c n hn).2)) ∗ restBut2 c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ restBut2 c) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the output's at `accAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 4800000 in
/-- The body at any point: the inputs' memrefs hold their blocks; the closed form says which case the point is in; the
    invariant hands the body the accumulator at what the point before left (at anything at the first point) and takes it
    back at this point's contents; the other scoped buffers, the generator register and the core's debts pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  unfold accAt2
  by_cases h0 : t.val % 831 = 0
  · rw [outsAt2_A V c t h0]
    unfold out2_A_2 sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A_2 c _ _ _ _ _ _ _ _ _ _ _ _)
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A_2 c _ _ _ _ _ _ _ _ _ _ _ _)
  · rw [outsAt2_B V c t h0]
    unfold out2_B_2 sout2_B_0; (try dsimp only)
    by_cases hz : t.val = 0
    · exfalso; exact h0 (by rw [hz])
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_B_2 c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 41550 := N_2; omega)

end Regions

end Cert.KernelIdeal.Run

end
-- ==== Proof.Scatter4Runs.lean ====
import proofs.«147088_j4836133175935_1_alg».proof.Proof.Gen.KernelIdeal.Launch
import proofs.«147088_j4836133175935_1_alg».proof.Proof.Gen.KernelIdeal.Skeleton
import proofs.«147088_j4836133175935_1_alg».proof.Proof.Pts
import Idealize.ShloMosaic.Lib.Pipeline.FrameBody
import Idealize.ShloMosaic.Lib.Ring
import Idealize.ShloMosaic.Lib.Tactic

-- membership in a rectangle of long extents recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (the width-40 segment sum): what its two control cases share

The body zeroes its accumulator when the second grid coordinate is 0, then adds the point's one-hot product into it
and copies it to the output block. So a point is in one of two cases: the accumulator starts from zero (A), or from
what the point before left (B). -/

/-! ## The body's branch condition -/

/-- The condition of the body's one conditional, from the grid coordinates: the second coordinate is 0. -/
abbrev cond4_0 (i : grid4.Coords) : Prop := (Scalar.cmpi .ne (Scalar.extui (Scalar.cmpi .eq (BitVec.ofNat 32 (i 1).val) 0#32)) 0#32) = 1#1

/-- On a value of the second coordinate the condition says that it is 0 — decided over the 831 values. -/
theorem cond4_0_iff : ∀ k : Fin 831, ((Scalar.cmpi .ne (Scalar.extui (Scalar.cmpi .eq (BitVec.ofNat 32 k.val) 0#32)) 0#32) = 1#1) ↔ k.val = 0 := by
  decide +kernel

/-- The second coordinate of point `t` is `t % 831`: the last axis runs fastest. -/
theorem coord4_1 (t : Fin cfg4.N) : (grid4.coords t 1).val = t.val % 831 := by
  show t.val / grid4.stride 1 % grid4.bound 1 = t.val % 831
  rw [show grid4.stride 1 = 1 from by decide, Nat.div_one]
  rfl

/-- The condition holds exactly at the first point of each row of the grid. -/
theorem hcond4_0 (t : Fin cfg4.N) : cond4_0 (grid4.coords t) ↔ t.val % 831 = 0 :=
  (cond4_0_iff (grid4.coords t 1)).trans (by rw [coord4_1])

/-- No window is idle anywhere: the configuration states no idle point. -/
theorem liveAt4 (w : Fin cfg4.W) (t : Fin cfg4.N) : cfg4.idle w (grid4.coords t) = false := rfl

/-! ## The staging and scratch memrefs -/

/-- One staging buffer of output window 2, through which its contents are stated (the choice does not matter). -/
abbrev VO4_2 : View sig .tc .vmem S2000x40 .f32 := (Memref.whole cc4_stg2_0 : Memref sig .tc .vmem S2000x40 .f32).view
/-- Each window's current staging memref at point `t`, spelled as the pipeline passes it, and its wholeness. -/
abbrev ms4_0 (t : Fin cfg4.N) : Memref sig .tc .vmem S2048x40 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x2048 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x40 .f32 := win4_2.stage (cfg4.slots t 2)
abbrev hs4_2 (t : Fin cfg4.N) : (ms4_2 t).IsWhole := hstage4_2 ((cfg4.slots t 2).cast nbuf4_2)
/-- The scratch operand: a whole scoped buffer of the kernel's own, passed beside the windows. -/
abbrev scM4_0 : Memref sig .tc .vmem S2000x40 .f32 := Memref.whole cc4_scratch0
/-- The accumulator the kernel carries between points, as a view: what it holds is stated through it. -/
abbrev VS4_0 : View sig .tc .vmem S2000x40 .f32 := scM4_0.view

/-- The class invariant with the accumulator as a memref owned at some contents, the other scoped buffers unopened. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is `V`'s
    and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end Regions

end Cert.KernelIdeal.Run

end
-- ==== Proof.Scatter4RunA.lean ====
import proofs.«147088_j4836133175935_1_alg».proof.Proof.Scatter4Runs

-- membership in a rectangle of long extents recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), IN
    CASE A (the second grid coordinate is 0: the accumulator is zeroed first), WITH the proof that on whole memrefs — the
    inputs' at their contents, the output's and the accumulator at anything — the body runs to the continuation holding the
    inputs' as they were and the output's buffer and the accumulator with their pieces written. The pieces are the witness
    the symbolic run finds. -/
noncomputable def kernelRun4_A (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : cond4_0 i)
    (x0 : Vec F S2048x40 .f32) (x1 : Vec F S1x2048 .i32) :
    Σ' (L2 : List (View.Piece (Elt F) S2000x40 .f32)), { LS0 : List (View.Piece (Elt F) S2000x40 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__scatter_kernel i arg2 harg2 arg3 harg3 arg4 harg4 arg5 harg5) K } := by
  refine ⟨?_, ?_, fun E K => ?run⟩
  case run =>
    simp only [cc4__scatter_kernel_eq_skeleton]; unfold cc4__scatter_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Run

end
-- ==== Proof.Scatter4RunB.lean ====
import proofs.«147088_j4836133175935_1_alg».proof.Proof.Scatter4RunA

-- membership in a rectangle of long extents recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same IN CASE B (the second grid coordinate is not 0: the accumulator is read at what the point before left,
    `xs0`). -/
noncomputable def kernelRun4_B (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : ¬cond4_0 i)
    (x0 : Vec F S2048x40 .f32) (x1 : Vec F S1x2048 .i32) (xs0 : Vec F S2000x40 .f32) :
    Σ' (L2 : List (View.Piece (Elt F) S2000x40 .f32)), { LS0 : List (View.Piece (Elt F) S2000x40 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__scatter_kernel i arg2 harg2 arg3 harg3 arg4 harg4 arg5 harg5) K } := by
  refine ⟨?_, ?_, fun E K => ?run⟩
  case run =>
    simp only [cc4__scatter_kernel_eq_skeleton]; unfold cc4__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Run

end
-- ==== Proof.Scatter4.lean ====
import proofs.«147088_j4836133175935_1_alg».proof.Proof.Scatter4RunB

-- membership in a rectangle of long extents recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (the width-40 segment sum): its proof data and body obligation, at the entry contents `V` -/

/-! ## What each case leaves in the output's buffer and in the accumulator -/

/-- Case A's pieces for the output tile its block, so they cover it. -/
theorem cover4_A_2 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : cond4_0 i)
    (x0 : Vec F S2048x40 .f32) (x1 : Vec F S1x2048 .i32) (y : S2000x40.Idx) :
    ∃ pc ∈ (kernelRun4_A c i arg2 harg2 arg3 harg3 arg4 harg4 arg5 harg5 hc0 x0 x1).1, y ∈ pc.1.set :=
  View.cover_of_tiledL (kernelRun4_A c i arg2 harg2 arg3 harg3 arg4 harg4 arg5 harg5 hc0 x0 x1).1 S2000x40.size (by sl_kernel_rfl) y

/-- What case A leaves in the output's staging buffer: its pieces read back over junk. -/
def out4_A_2 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : cond4_0 i)
    (x0 : Vec F S2048x40 .f32) (x1 : Vec F S1x2048 .i32) : Vec F S2000x40 .f32 :=
  VO4_2.read (Elt F) (VO4_2.writes (Elt F) VO4_2.junk (kernelRun4_A c i arg2 harg2 arg3 harg3 arg4 harg4 arg5 harg5 hc0 x0 x1).1)

/-- Case A's pieces for the accumulator cover it. -/
theorem scover4_A_0 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : cond4_0 i)
    (x0 : Vec F S2048x40 .f32) (x1 : Vec F S1x2048 .i32) (y : S2000x40.Idx) :
    ∃ pc ∈ (kernelRun4_A c i arg2 harg2 arg3 harg3 arg4 harg4 arg5 harg5 hc0 x0 x1).2.1, y ∈ pc.1.set :=
  View.cover_of_tiledL (kernelRun4_A c i arg2 harg2 arg3 harg3 arg4 harg4 arg5 harg5 hc0 x0 x1).2.1 S2000x40.size (by sl_kernel_rfl) y

/-- What case A leaves in the accumulator: its pieces read back over junk. -/
def sout4_A_0 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : cond4_0 i)
    (x0 : Vec F S2048x40 .f32) (x1 : Vec F S1x2048 .i32) : Vec F S2000x40 .f32 :=
  VS4_0.read (Elt F) (VS4_0.writes (Elt F) VS4_0.junk (kernelRun4_A c i arg2 harg2 arg3 harg3 arg4 harg4 arg5 harg5 hc0 x0 x1).2.1)

/-- Case B's pieces for the output tile its block, so they cover it. -/
theorem cover4_B_2 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : ¬cond4_0 i)
    (x0 : Vec F S2048x40 .f32) (x1 : Vec F S1x2048 .i32) (xs0 : Vec F S2000x40 .f32) (y : S2000x40.Idx) :
    ∃ pc ∈ (kernelRun4_B c i arg2 harg2 arg3 harg3 arg4 harg4 arg5 harg5 hc0 x0 x1 xs0).1, y ∈ pc.1.set :=
  View.cover_of_tiledL (kernelRun4_B c i arg2 harg2 arg3 harg3 arg4 harg4 arg5 harg5 hc0 x0 x1 xs0).1 S2000x40.size (by sl_kernel_rfl) y

/-- What case B leaves in the output's staging buffer: its pieces read back over junk. -/
def out4_B_2 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : ¬cond4_0 i)
    (x0 : Vec F S2048x40 .f32) (x1 : Vec F S1x2048 .i32) (xs0 : Vec F S2000x40 .f32) : Vec F S2000x40 .f32 :=
  VO4_2.read (Elt F) (VO4_2.writes (Elt F) VO4_2.junk (kernelRun4_B c i arg2 harg2 arg3 harg3 arg4 harg4 arg5 harg5 hc0 x0 x1 xs0).1)

/-- Case B's pieces for the accumulator cover it. -/
theorem scover4_B_0 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : ¬cond4_0 i)
    (x0 : Vec F S2048x40 .f32) (x1 : Vec F S1x2048 .i32) (xs0 : Vec F S2000x40 .f32) (y : S2000x40.Idx) :
    ∃ pc ∈ (kernelRun4_B c i arg2 harg2 arg3 harg3 arg4 harg4 arg5 harg5 hc0 x0 x1 xs0).2.1, y ∈ pc.1.set :=
  View.cover_of_tiledL (kernelRun4_B c i arg2 harg2 arg3 harg3 arg4 harg4 arg5 harg5 hc0 x0 x1 xs0).2.1 S2000x40.size (by sl_kernel_rfl) y

/-- What case B leaves in the accumulator: its pieces read back over junk. -/
def sout4_B_0 (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : ¬cond4_0 i)
    (x0 : Vec F S2048x40 .f32) (x1 : Vec F S1x2048 .i32) (xs0 : Vec F S2000x40 .f32) : Vec F S2000x40 .f32 :=
  VS4_0.read (Elt F) (VS4_0.writes (Elt F) VS4_0.junk (kernelRun4_B c i arg2 harg2 arg3 harg3 arg4 harg4 arg5 harg5 hc0 x0 x1 xs0).2.1)

section Regions
-- the TensorCore's buffer contents when the region is entered
variable (V : (c : Dev nD) → (b : Ref sig .tc) → Buf (Elt F) ((c : Thread nD τ).loc b))

/-! ## What the output's buffer and the accumulator hold after each point -/

/-- THE ACCUMULATION. What the output's staging buffer and the accumulator hold after the body at position `n` (a pair:
    the output, then the accumulator): the case the closed form selects at `n`, run at the point's memrefs and input
    blocks, the accumulator read at what this leaves at `n - 1`. -/
def outsAt4 (c : Dev nD) : (n : ℕ) → n < cfg4.N → Vec F S2000x40 .f32 × Vec F S2000x40 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (iblk4 V c 0 ⟨0, hn⟩) (iblk4 V c 1 ⟨0, hn⟩))
  | n + 1, hn =>
    if h0 : (n + 1) % 831 = 0 then
      (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (iblk4 V c 0 ⟨n + 1, hn⟩) (iblk4 V c 1 ⟨n + 1, hn⟩))
    else
      (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (iblk4 V c 0 ⟨n + 1, hn⟩) (iblk4 V c 1 ⟨n + 1, hn⟩) (outsAt4 c n (Nat.lt_of_succ_lt hn)).2)

/-- `outsAt4` at a point of case A: that case's contents. -/
theorem outsAt4_A (c : Dev nD) (t : Fin cfg4.N) (h0 : t.val % 831 = 0) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (iblk4 V c 0 t) (iblk4 V c 1 t)) := by
  obtain ⟨n, hn⟩ := t
  cases n with
  | zero => exact rfl
  | succ n => exact (dif_pos h0).trans rfl

/-- `outsAt4` at a point of case B: that case's contents, over what the point before left. -/
theorem outsAt4_B (c : Dev nD) (t : Fin cfg4.N) (h0 : ¬t.val % 831 = 0) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What output window 2's staging buffer holds after the body at position `n`. -/
def accAt4 (c : Dev nD) (n : ℕ) (hn : n < cfg4.N) : Vec F S2000x40 .f32 := (outsAt4 V c n hn).1

/-- The scoped buffers of the region other than its staging buffers and its accumulator, unopened. -/
abbrev restBut4 (c : Dev nD) : sProp 𝕄 :=
  Pipeline.scopedRestBut (Ix := Unit) (Name := ℕ) (U := UR sig nD τ) (Lvl := ℕ) (Val := Elt F) spec4 c [cc4_scratch0]

/-- The region invariant before position `n`: before the first point the class's (every scratch at anything);
    afterwards the accumulator at what the point before left in it, the other scoped buffers unopened, and the generator
    register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ restBut4 c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(iprop(owns (c : Thread nD τ) scM4_0 fullShare ((outsAt4 V c n hn).2)) ∗ restBut4 c) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ restBut4 c) ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the output's at `accAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => accAt4 V c t.val t.isLt
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = accAt4 V c t.val t.isLt := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t))

set_option maxHeartbeats 4800000 in
/-- The body at any point: the inputs' memrefs hold their blocks; the closed form says which case the point is in; the
    invariant hands the body the accumulator at what the point before left (at anything at the first point) and takes it
    back at this point's contents; the other scoped buffers, the generator register and the core's debts pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [after4_0, after4_1, after4_2]
  unfold accAt4
  by_cases h0 : t.val % 831 = 0
  · rw [outsAt4_A V c t h0]
    unfold out4_A_2 sout4_A_0; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩⟩
      iapply ((kernelRun4_A c (grid4.coords t) _ _ _ _ _ _ _ _ ((hcond4_0 t).mpr h0) (iblk4 V c 0 t) (iblk4 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_A_2 c _ _ _ _ _ _ _ _ _ _ _ _)
    · rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_A c (grid4.coords t) _ _ _ _ _ _ _ _ ((hcond4_0 t).mpr h0) (iblk4 V c 0 t) (iblk4 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_A_2 c _ _ _ _ _ _ _ _ _ _ _ _)
  · rw [outsAt4_B V c t h0]
    unfold out4_B_2 sout4_B_0; (try dsimp only)
    by_cases hz : t.val = 0
    · exfalso; exact h0 (by rw [hz])
    · rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_B_2 c _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 41550 := N_4; omega)

end Regions

end Cert.KernelIdeal.Run

end
-- ==== Proof.Chain.lean ====
/-
  The buffer contents at each boundary between the items of the program — host stretches and the five kernel regions —
  as a fold from the launch memory: a host stretch applies its operations; a region leaves its arrays at what its
  pipeline's write-backs fold to and every other buffer as entered. Each argument array is read back through the fold to
  its launch contents. Then the proof data of the five pipelines, each at its region's entry contents, and the thread
  state that rides beside the buffers.
-/
import proofs.«147088_j4836133175935_1_alg».proof.Proof.Gen.KernelIdeal.Regions
import proofs.«147088_j4836133175935_1_alg».proof.Proof.Dense0
import proofs.«147088_j4836133175935_1_alg».proof.Proof.Dense1
import proofs.«147088_j4836133175935_1_alg».proof.Proof.Dense3
import proofs.«147088_j4836133175935_1_alg».proof.Proof.Scatter2
import proofs.«147088_j4836133175935_1_alg».proof.Proof.Scatter4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c r = W0 m ρ c r :=
  StableHlo.after_of_writes_sub hostOps0 _ hostOps0_writes h
abbrev W2 : Dev nD → Valuation τ sig (Elt F) := fun c => StableHlo.after hostOps0_1 (W1 m ρ c)
theorem W2_of (c : Dev nD) (r : Ref sig .tc) (h : r ∉ hostOps0_1_W) : W2 m ρ c r = W1 m ρ c r :=
  StableHlo.after_of_writes_sub hostOps0_1 _ hostOps0_1_writes h
abbrev W3 : Dev nD → Valuation τ sig (Elt F) := fun c => StableHlo.after hostOps0_2 (W2 m ρ c)
theorem W3_of (c : Dev nD) (r : Ref sig .tc) (h : r ∉ hostOps0_2_W) : W3 m ρ c r = W2 m ρ c r :=
  StableHlo.after_of_writes_sub hostOps0_2 _ hostOps0_2_writes h
abbrev V3 : (c : Dev nD) → (b : Ref sig .tc) → Buf (Elt F) ((c : Thread nD τ).loc b) := fun c b => W3 m ρ c b

/-- At region 0's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after hostOps1 (W4 m ρ c)
theorem W5_of (c : Dev nD) (r : Ref sig .tc) (h : r ∉ hostOps1_W) : W5 m ρ c r = W4 m ρ c r :=
  StableHlo.after_of_writes_sub hostOps1 _ hostOps1_writes h
abbrev V5 : (c : Dev nD) → (b : Ref sig .tc) → Buf (Elt F) ((c : Thread nD τ).loc b) := fun c b => W5 m ρ c b

/-- At region 1's exit: its arrays at what the pipeline leaves (the inputs as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
abbrev W7 : Dev nD → Valuation τ sig (Elt F) := fun c => StableHlo.after hostOps2 (W6 m ρ c)
theorem W7_of (c : Dev nD) (r : Ref sig .tc) (h : r ∉ hostOps2_W) : W7 m ρ c r = W6 m ρ c r :=
  StableHlo.after_of_writes_sub hostOps2 _ hostOps2_writes h
abbrev V7 : (c : Dev nD) → (b : Ref sig .tc) → Buf (Elt F) ((c : Thread nD τ).loc b) := fun c b => W7 m ρ c b

/-- At region 2's exit: its arrays at what the pipeline leaves (the inputs as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
abbrev W9 : Dev nD → Valuation τ sig (Elt F) := fun c => StableHlo.after hostOps3 (W8 m ρ c)
theorem W9_of (c : Dev nD) (r : Ref sig .tc) (h : r ∉ hostOps3_W) : W9 m ρ c r = W8 m ρ c r :=
  StableHlo.after_of_writes_sub hostOps3 _ hostOps3_writes h
abbrev W10 : Dev nD → Valuation τ sig (Elt F) := fun c => StableHlo.after hostOps3_1 (W9 m ρ c)
theorem W10_of (c : Dev nD) (r : Ref sig .tc) (h : r ∉ hostOps3_1_W) : W10 m ρ c r = W9 m ρ c r :=
  StableHlo.after_of_writes_sub hostOps3_1 _ hostOps3_1_writes h
abbrev W11 : Dev nD → Valuation τ sig (Elt F) := fun c => StableHlo.after hostOps3_2 (W10 m ρ c)
theorem W11_of (c : Dev nD) (r : Ref sig .tc) (h : r ∉ hostOps3_2_W) : W11 m ρ c r = W10 m ρ c r :=
  StableHlo.after_of_writes_sub hostOps3_2 _ hostOps3_2_writes h
abbrev V11 : (c : Dev nD) → (b : Ref sig .tc) → Buf (Elt F) ((c : Thread nD τ).loc b) := fun c b => W11 m ρ c b

/-- At region 3's exit: its arrays at what the pipeline leaves (the inputs as entered, the output's write-backs
    folded), every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
abbrev W13 : Dev nD → Valuation τ sig (Elt F) := fun c => StableHlo.after hostOps4 (W12 m ρ c)
theorem W13_of (c : Dev nD) (r : Ref sig .tc) (h : r ∉ hostOps4_W) : W13 m ρ c r = W12 m ρ c r :=
  StableHlo.after_of_writes_sub hostOps4 _ hostOps4_writes h
abbrev V13 : (c : Dev nD) → (b : Ref sig .tc) → Buf (Elt F) ((c : Thread nD τ).loc b) := fun c b => W13 m ρ c b

/-- At region 4's exit: its arrays at what the pipeline leaves (the inputs as entered, the output's write-backs
    folded), every other buffer as entered. -/
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
abbrev V14 : (c : Dev nD) → (b : Ref sig .tc) → Buf (Elt F) ((c : Thread nD τ).loc b) := fun c b => W14 m ρ c b
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)
abbrev W15 : Dev nD → Valuation τ sig (Elt F) := fun c => StableHlo.after hostOps5 (W14 m ρ c)
theorem W15_of (c : Dev nD) (r : Ref sig .tc) (h : r ∉ hostOps5_W) : W15 m ρ c r = W14 m ρ c r :=
  StableHlo.after_of_writes_sub hostOps5 _ hostOps5_writes h
abbrev W16 : Dev nD → Valuation τ sig (Elt F) := fun c => StableHlo.after hostOps5_1 (W15 m ρ c)
theorem W16_of (c : Dev nD) (r : Ref sig .tc) (h : r ∉ hostOps5_1_W) : W16 m ρ c r = W15 m ρ c r :=
  StableHlo.after_of_writes_sub hostOps5_1 _ hostOps5_1_writes h

/-! ## The arguments end as launched -/

/-- `main_arg0` ends as launched: no host operation writes it, a region reads it through an input window or passes it by. -/
theorem W16_main_arg0 (c : Dev nD) : W16 m ρ c (Proc.devRef .tc main_arg0) = m ((c : Thread nD τ).loc main_arg0) :=
  (W16_of m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  ((W4_arr m ρ c 0).trans (((dat0 (V3 m ρ) c).arrAt_in 0 rfl _).trans (A_eq0 (V3 m ρ) c 0))).trans <|
  (W3_of m ρ c main_arg0 (by decide)).trans <|
  (W2_of m ρ c main_arg0 (by decide)).trans <|
  (W1_of m ρ c main_arg0 (by decide)).trans rfl

/-- `main_arg1` ends as launched: no host operation writes it, a region reads it through an input window or passes it by. -/
theorem W16_main_arg1 (c : Dev nD) : W16 m ρ c (Proc.devRef .tc main_arg1) = m ((c : Thread nD τ).loc main_arg1) :=
  (W16_of m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of m ρ c main_arg1 (by decide)).trans <|
  (W1_of m ρ c main_arg1 (by decide)).trans rfl

/-- `main_arg2` ends as launched: no host operation writes it, a region reads it through an input window or passes it by. -/
theorem W16_main_arg2 (c : Dev nD) : W16 m ρ c (Proc.devRef .tc main_arg2) = m ((c : Thread nD τ).loc main_arg2) :=
  (W16_of m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  ((W4_arr m ρ c 1).trans (((dat0 (V3 m ρ) c).arrAt_in 1 rfl _).trans (A_eq0 (V3 m ρ) c 1))).trans <|
  (W3_of m ρ c main_arg2 (by decide)).trans <|
  (W2_of m ρ c main_arg2 (by decide)).trans <|
  (W1_of m ρ c main_arg2 (by decide)).trans rfl

/-- `main_arg3` ends as launched: no host operation writes it, a region reads it through an input window or passes it by. -/
theorem W16_main_arg3 (c : Dev nD) : W16 m ρ c (Proc.devRef .tc main_arg3) = m ((c : Thread nD τ).loc main_arg3) :=
  (W16_of m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of m ρ c main_arg3 (by decide)).trans <|
  (W1_of m ρ c main_arg3 (by decide)).trans rfl

/-- `main_arg4` ends as launched: no host operation writes it, a region reads it through an input window or passes it by. -/
theorem W16_main_arg4 (c : Dev nD) : W16 m ρ c (Proc.devRef .tc main_arg4) = m ((c : Thread nD τ).loc main_arg4) :=
  (W16_of m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of m ρ c main_arg4 (by decide)).trans <|
  (W9_of m ρ c main_arg4 (by decide)).trans <|
  (W8_of_ne m ρ c main_arg4 (by decide)).trans <|
  (W7_of m ρ c main_arg4 (by decide)).trans <|
  ((W6_arr m ρ c 1).trans (((dat1 (V5 m ρ) c).arrAt_in 1 rfl _).trans (A_eq1 (V5 m ρ) c 1))).trans <|
  (W5_of m ρ c main_arg4 (by decide)).trans <|
  (W4_of_ne m ρ c main_arg4 (by decide)).trans <|
  (W3_of m ρ c main_arg4 (by decide)).trans <|
  (W2_of m ρ c main_arg4 (by decide)).trans <|
  (W1_of m ρ c main_arg4 (by decide)).trans rfl

/-- `main_arg5` ends as launched: no host operation writes it, a region reads it through an input window or passes it by. -/
theorem W16_main_arg5 (c : Dev nD) : W16 m ρ c (Proc.devRef .tc main_arg5) = m ((c : Thread nD τ).loc main_arg5) :=
  (W16_of m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of m ρ c main_arg5 (by decide)).trans <|
  (W1_of m ρ c main_arg5 (by decide)).trans rfl

/-- `main_arg6` ends as launched: no host operation writes it, a region reads it through an input window or passes it by. -/
theorem W16_main_arg6 (c : Dev nD) : W16 m ρ c (Proc.devRef .tc main_arg6) = m ((c : Thread nD τ).loc main_arg6) :=
  (W16_of m ρ c main_arg6 (by decide)).trans <|
  (W15_of m ρ c main_arg6 (by decide)).trans <|
  (W14_of_ne m ρ c main_arg6 (by decide)).trans <|
  (W13_of m ρ c main_arg6 (by decide)).trans <|
  ((W12_arr m ρ c 1).trans (((dat3 (V11 m ρ) c).arrAt_in 1 rfl _).trans (A_eq3 (V11 m ρ) c 1))).trans <|
  (W11_of m ρ c main_arg6 (by decide)).trans <|
  (W10_of m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of m ρ c main_arg6 (by decide)).trans <|
  (W1_of m ρ c main_arg6 (by decide)).trans rfl

/-- `main_arg7` ends as launched: no host operation writes it, a region reads it through an input window or passes it by. -/
theorem W16_main_arg7 (c : Dev nD) : W16 m ρ c (Proc.devRef .tc main_arg7) = m ((c : Thread nD τ).loc main_arg7) :=
  (W16_of m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of m ρ c main_arg7 (by decide)).trans <|
  (W1_of m ρ c main_arg7 (by decide)).trans rfl

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V11 m ρ) c
  | ⟨4, _⟩ => fun c => dat4 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item: its operations over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W16 m ρ c) ∗ ∃ r, prngReg c r)

end Cert.KernelIdeal.Run

end
-- ==== Proof.Reg0.lean ====
/-
  Region 0 as an item of the program's run, over the thread state "every unscoped buffer at the boundary's contents,
  the generator register at some state, nothing owed".
-/
import proofs.«147088_j4836133175935_1_alg».proof.Proof.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 0 over the thread state: entered with every unscoped buffer at `W3`, left with them at `W4`. Its
    arrays are split out of the unscoped buffers and put back at what the pipeline leaves; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Reg1.lean ====
/-
  Region 1 as an item of the program's run, over the thread state "every unscoped buffer at the boundary's contents,
  the generator register at some state, nothing owed".
-/
import proofs.«147088_j4836133175935_1_alg».proof.Proof.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 1 over the thread state: entered with every unscoped buffer at `W5`, left with them at `W6`. Its
    arrays are split out of the unscoped buffers and put back at what the pipeline leaves; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Reg2.lean ====
/-
  Region 2 as an item of the program's run, over the thread state "every unscoped buffer at the boundary's contents,
  the generator register at some state, nothing owed".
-/
import proofs.«147088_j4836133175935_1_alg».proof.Proof.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 2 over the thread state: entered with every unscoped buffer at `W7`, left with them at `W8`. Its
    arrays are split out of the unscoped buffers and put back at what the pipeline leaves; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 := hin2 (V7 m ρ) c
    unfold Pipeline.ΦA at h1
    rw [show (pdats m ρ 2 c).Φ 0 = (dat2 (V7 m ρ) c).Φ 0 from rfl]
    iintro ⟨Hp, -, Hr⟩
    iapply h1
    isplitl [Hr]; · iexact Hr
    iexact Hp
  hout c := by
    have h1 := hout2 (V7 m ρ) c
    unfold Pipeline.ΦA at h1
    rw [Pipeline.ownSems0_none, show (pdats m ρ 2 c).Φ (Fin.last _) = (dat2 (V7 m ρ) c).Φ (Fin.last cfg2.N) from rfl]
    iintro H
    ihave H' := h1 $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Reg3.lean ====
/-
  Region 3 as an item of the program's run, over the thread state "every unscoped buffer at the boundary's contents,
  the generator register at some state, nothing owed".
-/
import proofs.«147088_j4836133175935_1_alg».proof.Proof.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 3 over the thread state: entered with every unscoped buffer at `W11`, left with them at `W12`. Its
    arrays are split out of the unscoped buffers and put back at what the pipeline leaves; the generator register
    goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Reg4.lean ====
/-
  Region 4 as an item of the program's run, over the thread state "every unscoped buffer at the boundary's contents,
  the generator register at some state, nothing owed".
-/
import proofs.«147088_j4836133175935_1_alg».proof.Proof.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 4 over the thread state: entered with every unscoped buffer at `W13`, left with them at `W14`. Its
    arrays are split out of the unscoped buffers and put back at what the pipeline leaves; the generator register
    goes into the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 := hin4 (V13 m ρ) c
    unfold Pipeline.ΦA at h1
    rw [show (pdats m ρ 4 c).Φ 0 = (dat4 (V13 m ρ) c).Φ 0 from rfl]
    iintro ⟨Hp, -, Hr⟩
    iapply h1
    isplitl [Hr]; · iexact Hr
    iexact Hp
  hout c := by
    have h1 := hout4 (V13 m ρ) c
    unfold Pipeline.ΦA at h1
    rw [Pipeline.ownSems0_none, show (pdats m ρ 4 c).Φ (Fin.last _) = (dat4 (V13 m ρ) c).Φ (Fin.last cfg4.N) from rfl]
    iintro H
    ihave H' := h1 $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V13 m ρ c) (V14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.RunAll.lean ====
/-
  The run of the whole program: its sixteen items in order — host stretches and the five kernel regions — from the launch
  memory to the return. Every weakly fair execution terminates, nothing faulting, and the final memory holds every
  unscoped buffer at the last boundary's contents: the argument arrays as launched, the result at the fold's value.
-/
import proofs.«147088_j4836133175935_1_alg».proof.Proof.Reg0
import proofs.«147088_j4836133175935_1_alg».proof.Proof.Reg1
import proofs.«147088_j4836133175935_1_alg».proof.Proof.Reg2
import proofs.«147088_j4836133175935_1_alg».proof.Proof.Reg3
import proofs.«147088_j4836133175935_1_alg».proof.Proof.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's sixteen items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .region (reg3 m ρ),
    .host (hseg hostOps4 hostOps4_sub hostOps4_fresh (W12 m ρ)),
    .region (reg4 m ρ),
    .host (hseg hostOps5 hostOps5_sub hostOps5_fresh (W14 m ρ)),
    .host (hseg hostOps5_1 hostOps5_1_sub hostOps5_1_fresh (W15 m ρ)) ]

/-- The program is the run of its items. -/
theorem main_run (c : Dev nD) : main (F := F) c = Pipeline.Seg.run (segs m ρ) := (main_chain c).trans (by chain_rfl)

-- the library theorem's implicit arguments are found by unifying its conclusion with this one, which takes unfolding
-- plain definitions in a metavariable's type
set_option backward.isDefEq.respectTransparency.types false in
/-- From any memory with zero counters every weakly fair execution of the program terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W16 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c)⟩) (run_all m ρ)

end Cert.KernelIdeal.Run

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.PayDense.lean ====
/-
  The three dense layers' block values read at one row and one column.

  Each dense kernel multiplies a block of 5000 rows by the whole weight matrix into a zero accumulator and adds
  the bias row to every row (the first layer then clamps below at zero).  At the exact values narrowing the
  operands to the product unit's format changes nothing, a shape cast to the same shape is the identity, and
  the one-row bias broadcast down the rows reads its column; so the entry at row `r`, column `j` is
  `∑ k, x[r,k] · W[k,j] + b[0,j]`.
-/
import proofs.«147088_j4836133175935_1_alg».proof.Proof.Gen.KernelIdeal.Skeleton
import proofs.«147088_j4836133175935_1_alg».proof.Proof.LibMatmulRows
import Idealize.ShloMosaic.Lib.ValueLayout

noncomputable section

open scoped BigOperators

namespace Cert.KernelIdeal.Pay

open Idealize.ShloMosaic Idealize.ShloMosaic.ValueIdx Cert.KernelIdeal Cert.KernelIdeal.Gen

/-! The coordinate facts of the dimension record `dot_S5000x128_S128x128_S5000x128_1_0_0_1_n_n`: the left operand is read at (row, contraction
    position), the right operand at (contraction position, column). -/
theorem d1_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem d1_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem d1_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem d1_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The second layer's block: `(x · W)[r, j] + b[0, j]`. -/
theorem k1_pay1_apply (v0 : Vec Ideal S5000x128 .f32) (v3 : Vec Ideal S128x128 .f32) (v6 : Vec Ideal S1x128 .f32)
    (r : Fin 5000) (j : Fin 128) :
    k1_pay1 (F := Ideal) v0 v3 v6 (ix2 r j)
      = (∑ k : Fin 128, v0 (ix2 r k) * v3 (ix2 k j)) + v6 (ix2 (0 : Fin 1) j) := by
  unfold k1_pay1
  rw [shapeCast_self, shapeCast_self]
  refine (addf_apply _ _ _).trans ?_
  refine congrArg₂ (· + ·) ?_ ?_
  · exact Cert.LibMatmulRows.matmul_zero_apply dot_S5000x128_S128x128_S5000x128_1_0_0_1_n_n rfl rfl
      d1_l0 d1_l1 d1_r0 d1_r1 none _ _ r j
  · exact broadcastTo_1b_ab_apply v6 _ r j

/-! The coordinate facts of the dimension record `dot_S5000x256_S256x128_S5000x128_1_0_0_1_n_n`: the left operand is read at (row, contraction
    position), the right operand at (contraction position, column). -/
theorem d0_l0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem d0_l1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem d0_r0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem d0_r1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The first layer's block: `max ((x · W)[r, j] + b[0, j]) 0`. -/
theorem k0_pay1_apply (v0 : Vec Ideal S5000x256 .f32) (v2 : Vec Ideal S256x128 .f32) (v5 : Vec Ideal S1x128 .f32)
    (r : Fin 5000) (j : Fin 128) :
    k0_pay1 (F := Ideal) v0 v2 v5 (ix2 r j)
      = max ((∑ k : Fin 256, v0 (ix2 r k) * v2 (ix2 k j)) + v5 (ix2 (0 : Fin 1) j)) 0 := by
  unfold k0_pay1
  rw [shapeCast_self]
  refine (maximumf_apply _ _ _).trans ?_
  refine congrArg₂ max ?_ ?_
  · refine (addf_apply _ _ _).trans ?_
    refine congrArg₂ (· + ·) ?_ ?_
    · exact Cert.LibMatmulRows.matmul_zero_apply dot_S5000x256_S256x128_S5000x128_1_0_0_1_n_n rfl rfl
        d0_l0 d0_l1 d0_r0 d0_r1 none _ _ r j
    · exact broadcastTo_1b_ab_apply v5 _ r j
  · exact Ideal.ofBits_zero_f32

/-! The coordinate facts of the dimension record `dot_S5000x128_S128x40_S5000x40_1_0_0_1_n_n`: the left operand is read at (row, contraction
    position), the right operand at (contraction position, column). -/
theorem d3_l0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem d3_l1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem d3_r0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem d3_r1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The output layer's block: `(x · W)[r, j] + b[0, j]` at width 40. -/
theorem k3_pay1_apply (v0 : Vec Ideal S5000x128 .f32) (v3 : Vec Ideal S128x40 .f32) (v6 : Vec Ideal S1x40 .f32)
    (r : Fin 5000) (j : Fin 40) :
    k3_pay1 (F := Ideal) v0 v3 v6 (ix2 r j)
      = (∑ k : Fin 128, v0 (ix2 r k) * v3 (ix2 k j)) + v6 (ix2 (0 : Fin 1) j) := by
  unfold k3_pay1
  rw [shapeCast_self, shapeCast_self]
  refine (addf_apply _ _ _).trans ?_
  refine congrArg₂ (· + ·) ?_ ?_
  · exact Cert.LibMatmulRows.matmul_zero_apply dot_S5000x128_S128x40_S5000x40_1_0_0_1_n_n rfl rfl
      d3_l0 d3_l1 d3_r0 d3_r1 none _ _ r j
  · exact broadcastTo_1b_ab_apply v6 _ r j

end Cert.KernelIdeal.Pay

end
-- ==== Proof.Whole0.lean ====
/-
  The first dense layer as a whole: after region 0 its output array holds, at row `p` and column `j`,
  `max (∑ k, x[p,k] · W[k,j] + b[0,j]) 0` of the three input arrays as the region finds them. Each of the 20 grid
  points writes back one block of 5000 rows; the point's row block of `x` sits at the same rows as its output block,
  the weight matrix and the bias row are read whole; the 20 blocks tile the 100000 rows.
-/
import proofs.«147088_j4836133175935_1_alg».proof.Proof.Dense0
import proofs.«147088_j4836133175935_1_alg».proof.Proof.PayDense
import Idealize.ShloMosaic.Lib.Pipeline.Value
import Idealize.ShloMosaic.Lib.ValueIdx

noncomputable section

open scoped BigOperators

namespace Cert.KernelIdeal.Whole

open Idealize.ShloMosaic Idealize.ShloMosaic.TcCoe Idealize.ShloMosaic.ValueIdx
open Idealize.ShloMosaic.Pipeline (Dat)
open Cert.KernelIdeal Cert.KernelIdeal.Gen Cert.KernelIdeal.Run

variable (V : (c : Dev nD) → (b : Ref sig .tc) → Buf (Elt Ideal) ((c : Thread nD τ).loc b))

/-- Row `p`, column `j` of `max (x · W + b) 0`. -/
def dense0 (x : S100000x256.Idx → EReal) (w : S256x128.Idx → EReal) (b : S1x128.Idx → EReal) : S100000x128.Idx → EReal :=
  fun i => max ((∑ k : Fin 256, x (ix2 (n0 := 100000) (i 0) k) * w (ix2 k (n1 := 128) (i 1))) + b (ix2 (0 : Fin 1) (n1 := 128) (i 1))) 0

theorem hz0 : (![0, 0] : Fin 2 → Nat) = fun _ => 0 := funext fun a => by fin_cases a <;> rfl

/-- The printed index maps over the grid: the rows window and the output window sit at block (t, 0), the weight
    matrix and the bias row at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every point writes its output block back. -/
theorem flushes0 : ∀ t : Fin cfg0.N, (cfg0.win 3).flush t = true :=
  (by decide +kernel : ∀ t : Fin grid0.N, win0_3.flush t = true)

/-- The rows block at point `t` is rows `5000 t … 5000 t + 4999` of the input array. -/
theorem rows0_apply (c : Dev nD) (t : Fin cfg0.N) (r : Fin 5000) (k : Fin 256) (i : S100000x256.Idx)
    (h0 : (i 0).val = t.val * 5000 + r.val) (h1 : (i 1).val = k.val) :
    (iblk0 V c 0 t : Vec Ideal S5000x256 .f32) (ix2 r k) = (V c main_arg0 : S100000x256.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * r.val = (i 0).val; rw [e0, h0]; omega
  | ⟨1, _⟩ => show win0_0.index t (1 : Fin 2) * 256 + 1 * k.val = (i 1).val; rw [e1, h1]; omega

/-- The weight window's block is the whole matrix. -/
theorem weight0_apply (c : Dev nD) (t : Fin cfg0.N) (k : Fin 256) (j : Fin 128) :
    (iblk0 V c 1 t : Vec Ideal S256x128 .f32) (ix2 k j) = (V c main_arg2 : S256x128.Idx → EReal) (ix2 k j) := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t (0 : Fin 2) * 256 + 1 * k.val = k.val; rw [e2]; omega
  | ⟨1, _⟩ => show win0_1.index t (1 : Fin 2) * 128 + 1 * j.val = j.val; rw [e3]; omega

/-- The bias window's block is the whole row. -/
theorem bias0_apply (c : Dev nD) (t : Fin cfg0.N) (j : Fin 128) :
    (iblk0 V c 2 t : Vec Ideal S1x128 .f32) (ix2 (0 : Fin 1) j) = (V c main_v32 : S1x128.Idx → EReal) (ix2 (0 : Fin 1) j) := by
  obtain ⟨-, -, -, -, e4, e5, -⟩ := idx_facts0 t
  unfold iblk0
  rw [View.read_apply]
  show V c main_v32 _ = V c main_v32 _
  congr 1
  funext a
  apply Fin.ext
  match a with
  | ⟨0, _⟩ => show win0_2.index t (0 : Fin 2) * 1 + 1 * (0 : Fin 1).val = (0 : Fin 1).val; rw [e4]; rfl
  | ⟨1, _⟩ => show win0_2.index t (1 : Fin 2) * 128 + 1 * j.val = j.val; rw [e5]; omega

/-- What point `t` writes back is block `t` of `dense0` of the input arrays as the region finds them. -/
theorem flushed0_eq (c : Dev nD) (t : Fin cfg0.N) :
    (dat0 (F := Ideal) V c).flushed 3 t
      = ((cfg0.win 3).blk t).view.read (Elt Ideal) (dense0 (V c main_arg0) (V c main_arg2) (V c main_v32)) := by
  show (cfg0.win 3).cut (grid0.coords t) ((dat0 V c).after 3 t) = _
  rw [after0_3]
  unfold out0_3
  rw [View.canon_unit_zero hz0]
  simp only [View.ld_unit_zero (S := S5000x256) hz0, View.ld_unit_zero (S := S256x128) hz0, View.ld_unit_zero (S := S1x128) hz0]
  obtain ⟨-, -, -, -, -, -, e6, e7⟩ := idx_facts0 t
  funext y
  obtain ⟨r, q, rfl⟩ : ∃ (r : Fin 5000) (q : Fin 128), y = ix2 r q := ⟨y 0, y 1, eq_ix2 y⟩
  show k0_pay1 (F := Ideal) (iblk0 V c 0 t) (iblk0 V c 1 t) (iblk0 V c 2 t) (ix2 r q)
    = dense0 (V c main_arg0) (V c main_arg2) (V c main_v32) (((cfg0.win 3).blk t).view.emb (ix2 r q))
  refine (Pay.k0_pay1_apply (iblk0 V c 0 t) (iblk0 V c 1 t) (iblk0 V c 2 t) r q).trans ?_
  have hr : ((((cfg0.win 3).blk t).view.emb (ix2 r q)) 0).val = t.val * 5000 + r.val := by
    show win0_3.index t (0 : Fin 2) * 5000 + 1 * r.val = _; rw [e6]; omega
  have hq : ((((cfg0.win 3).blk t).view.emb (ix2 r q)) 1) = q := by
    apply Fin.ext
    show win0_3.index t (1 : Fin 2) * 128 + 1 * q.val = _; rw [e7]; omega
  unfold dense0
  rw [hq]
  refine congrArg₂ max (congrArg₂ (· + ·) (Finset.sum_congr rfl fun k _ => congrArg₂ (· * ·) ?_ ?_) ?_) rfl
  · exact rows0_apply V c t r k _ hr rfl
  · exact weight0_apply V c t k q
  · exact bias0_apply V c t q

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v33).slice (win0_3.rect t)).set ↔ _
  rw [View.set_slice_whole, Rect.mem_set_unit]
  exact Iff.rfl

/-- Row `p` is in the block of point `p / 5000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e6, e7⟩ := idx_facts0 t
  have ht : t.val = (i 0).val / 5000 := rfl
  refine ⟨t, flushes0 t, ?_⟩
  rw [mem_blk0]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

/-- The output array after region 0. -/
theorem final0 (c : Dev nD) :
    (dat0 (F := Ideal) V c).arrAt 3 cfg0.N = dense0 (V c main_arg0) (V c main_arg2) (V c main_v32) :=
  (dat0 V c).arrAt_eq_of_cover 3 (dense0 (V c main_arg0) (V c main_arg2) (V c main_v32)) (fun t _ => flushed0_eq V c t) cover0

end Cert.KernelIdeal.Whole

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.RefDense.lean ====
/-
  The reference's dense stages read at one entry, at the exact values.

  Each of the reference's three `dot_general`s multiplies a matrix of node rows by a weight matrix along the one
  shared axis; at the exact values entry `(p, j)` of the product is `∑ k, x[p,k] · w[k,j]`.  The first layer adds the
  bias, a vector viewed as one row and spread over all node rows, and takes the maximum with zero.

  Every statement is over variables of the operands' literal types, the operations spelt as the reference's printed
  program spells them.
-/
import proofs.«147088_j4836133175935_1_alg».proof.Proof.Gen.ReferenceIdeal
import proofs.«147088_j4836133175935_1_alg».proof.Proof.LibHostRows
import Idealize.ShloMosaic.Lib.Pipeline.Value
import Idealize.ShloMosaic.Lib.ValueIdx
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx

/-! ### `dot_S100000x256_S256x128_S100000x128_1_0_0_1_n_n`: the left index at output `(p, j)` and contraction position `k` is `(p, k)`, the right one `(k, j)` -/

theorem dot0_lhs0 (i : S100000x128.Idx) (q : dot_S100000x256_S256x128_S100000x128_1_0_0_1_n_n.contr.Idx) :
    (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl
theorem dot0_lhs1 (i : S100000x128.Idx) (q : dot_S100000x256_S256x128_S100000x128_1_0_0_1_n_n.contr.Idx) :
    (dot_S100000x256_S256x128_S100000x128_1_0_0_1_n_n.lhsIdx i q 1).val = (q ⟨0, by decide⟩).val :=
  dot_S100000x256_S256x128_S100000x128_1_0_0_1_n_n.lhsIdx_val_of_single rfl i q
theorem dot0_rhs0 (i : S100000x128.Idx) (q : dot_S100000x256_S256x128_S100000x128_1_0_0_1_n_n.contr.Idx) :
    (dot_S100000x256_S256x128_S100000x128_1_0_0_1_n_n.rhsIdx i q 0).val = (q ⟨0, by decide⟩).val :=
  dot_S100000x256_S256x128_S100000x128_1_0_0_1_n_n.rhsIdx_val_of_single rfl i q
theorem dot0_rhs1 (i : S100000x128.Idx) (q : dot_S100000x256_S256x128_S100000x128_1_0_0_1_n_n.contr.Idx) :
    (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

/-- Entry `(p, j)` of the product of a 100000×256 by a 256×128 matrix is `∑ k, x[p,k] · w[k,j]`. -/
theorem dot0_apply (x : FVec Ideal S100000x256 .f32) (w : FVec Ideal S256x128 .f32) (p : Fin 100000) (j : Fin 128) :
    Host.dotGeneral (F := Ideal) dot_S100000x256_S256x128_S100000x128_1_0_0_1_n_n none x w (ix2 p j)
      = ∑ k : Fin 256, x (ix2 p k) * w (ix2 k j) :=
  Cert.LibHostRows.hostDot_apply dot_S100000x256_S256x128_S100000x128_1_0_0_1_n_n rfl rfl
    dot0_lhs0 dot0_lhs1 dot0_rhs0 dot0_rhs1 none x w p j

/-! ### `dot_S100000x128_S128x128_S100000x128_1_0_0_1_n_n`: the left index at output `(p, j)` and contraction position `k` is `(p, k)`, the right one `(k, j)` -/

theorem dot1_lhs0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem dot1_lhs1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem dot1_rhs0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem dot1_rhs1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- Entry `(p, j)` of the product of a 100000×128 by a 128×128 matrix is `∑ k, x[p,k] · w[k,j]`. -/
theorem dot1_apply (x : FVec Ideal S100000x128 .f32) (w : FVec Ideal S128x128 .f32) (p : Fin 100000) (j : Fin 128) :
    Host.dotGeneral (F := Ideal) dot_S100000x128_S128x128_S100000x128_1_0_0_1_n_n none x w (ix2 p j)
      = ∑ k : Fin 128, x (ix2 p k) * w (ix2 k j) :=
  Cert.LibHostRows.hostDot_apply dot_S100000x128_S128x128_S100000x128_1_0_0_1_n_n rfl rfl
    dot1_lhs0 dot1_lhs1 dot1_rhs0 dot1_rhs1 none x w p j

/-! ### `dot_S100000x128_S128x40_S100000x40_1_0_0_1_n_n`: the left index at output `(p, j)` and contraction position `k` is `(p, k)`, the right one `(k, j)` -/

theorem dot2_lhs0 (i : S100000x40.Idx) (q : dot_S100000x128_S128x40_S100000x40_1_0_0_1_n_n.contr.Idx) :
    (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide), dif_pos (show (0 : Fin S100000x128.rank) ∈ dot_S100000x128_S128x40_S100000x40_1_0_0_1_n_n.lhsNonContracting by decide)]
  rfl
theorem dot2_lhs1 (i : S100000x40.Idx) (q : dot_S100000x128_S128x40_S100000x40_1_0_0_1_n_n.contr.Idx) :
    (dot_S100000x128_S128x40_S100000x40_1_0_0_1_n_n.lhsIdx i q 1).val = (q ⟨0, by decide⟩).val :=
  dot_S100000x128_S128x40_S100000x40_1_0_0_1_n_n.lhsIdx_val_of_single rfl i q
theorem dot2_rhs0 (i : S100000x40.Idx) (q : dot_S100000x128_S128x40_S100000x40_1_0_0_1_n_n.contr.Idx) :
    (dot_S100000x128_S128x40_S100000x40_1_0_0_1_n_n.rhsIdx i q 0).val = (q ⟨0, by decide⟩).val :=
  dot_S100000x128_S128x40_S100000x40_1_0_0_1_n_n.rhsIdx_val_of_single rfl i q
theorem dot2_rhs1 (i : S100000x40.Idx) (q : dot_S100000x128_S128x40_S100000x40_1_0_0_1_n_n.contr.Idx) :
    (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide), dif_pos (show (1 : Fin S128x40.rank) ∈ dot_S100000x128_S128x40_S100000x40_1_0_0_1_n_n.rhsNonContracting by decide)]
  rfl

/-- Entry `(p, j)` of the product of a 100000×128 by a 128×40 matrix is `∑ k, x[p,k] · w[k,j]`. -/
theorem dot2_apply (x : FVec Ideal S100000x128 .f32) (w : FVec Ideal S128x40 .f32) (p : Fin 100000) (j : Fin 40) :
    Host.dotGeneral (F := Ideal) dot_S100000x128_S128x40_S100000x40_1_0_0_1_n_n none x w (ix2 p j)
      = ∑ k : Fin 128, x (ix2 p k) * w (ix2 k j) :=
  Cert.LibHostRows.hostDot_apply dot_S100000x128_S128x40_S100000x40_1_0_0_1_n_n rfl rfl
    dot2_lhs0 dot2_lhs1 dot2_rhs0 dot2_rhs1 none x w p j

/-- The first layer's product: `(x · w)[p, j] = ∑ k, x[p,k] · w[k,j]` (256 terms). -/
theorem ref_dot0 (x : FVec Ideal S100000x256 .f32) (w : FVec Ideal S256x128 .f32) (p : Fin 100000) (j : Fin 128) :
    Host.dotGeneral (F := Ideal) dot_S100000x256_S256x128_S100000x128_1_0_0_1_n_n none x w (ix2 p j)
      = ∑ k : Fin 256, x (ix2 p k) * w (ix2 k j) := dot0_apply x w p j

/-- The second product: `(x · w)[p, j] = ∑ k, x[p,k] · w[k,j]` (128 terms, 128 columns). -/
theorem ref_dense1 (x : FVec Ideal S100000x128 .f32) (w : FVec Ideal S128x128 .f32) (p : Fin 100000) (j : Fin 128) :
    Host.dotGeneral (F := Ideal) dot_S100000x128_S128x128_S100000x128_1_0_0_1_n_n none x w (ix2 p j)
      = ∑ k : Fin 128, x (ix2 p k) * w (ix2 k j) := dot1_apply x w p j

/-- The third product: `(x · w)[p, j] = ∑ k, x[p,k] · w[k,j]` (128 terms, 40 columns). -/
theorem ref_dense2 (x : FVec Ideal S100000x128 .f32) (w : FVec Ideal S128x40 .f32) (p : Fin 100000) (j : Fin 40) :
    Host.dotGeneral (F := Ideal) dot_S100000x128_S128x40_S100000x40_1_0_0_1_n_n none x w (ix2 p j)
      = ∑ k : Fin 128, x (ix2 p k) * w (ix2 k j) := dot2_apply x w p j

/-- A length-128 bias viewed as one row and spread over the 100000 node rows: entry `(p, j)` is `b[j]`. -/
theorem ref_bias128 {α : Type} (b : S128.Idx → α) (p : Fin 100000) (j : Fin 128) :
    broadcastInDim S100000x128 ![0, 1] bcast_S1x128_S100000x128_0_1 (broadcastInDim S1x128 ![1] bcast_S128_S1x128_1 b) (ix2 p j)
      = b (ix1 j) :=
  Cert.LibHostRows.rowOfVec_spread_apply (by decide) b bcast_S128_S1x128_1 bcast_S1x128_S100000x128_0_1 p j

/-- A length-40 bias viewed as one row and spread over the 100000 node rows: entry `(p, j)` is `b[j]`. -/
theorem ref_bias40 {α : Type} (b : S40.Idx → α) (p : Fin 100000) (j : Fin 40) :
    broadcastInDim S100000x40 ![0, 1] bcast_S1x40_S100000x40_0_1 (broadcastInDim S1x40 ![1] bcast_S40_S1x40_1 b) (ix2 p j)
      = b (ix1 j) :=
  Cert.LibHostRows.rowOfVec_spread_apply (by decide) b bcast_S40_S1x40_1 bcast_S1x40_S100000x40_0_1 p j

/-- The constant zero spread over a 100000×128 block is zero at every entry. -/
theorem ref_zeros128 (i : S100000x128.Idx) :
    broadcastInDim S100000x128 ![] bcast_S_S100000x128 (constant (F := Ideal) S_ .f32 0x00000000#32) i = 0 := by
  rw [broadcastInDim_apply _ bcast_S_S100000x128 _ i (fun a => a.elim0) (fun a => a.elim0), constant_apply,
    Ideal.ofBits_zero_f32]

/-- The constant zero spread over a 100000×40 block is zero at every entry. -/
theorem ref_zeros40 (i : S100000x40.Idx) :
    broadcastInDim S100000x40 ![] bcast_S_S100000x40 (constant (F := Ideal) S_ .f32 0x00000000#32) i = 0 := by
  rw [broadcastInDim_apply _ bcast_S_S100000x40 _ i (fun a => a.elim0) (fun a => a.elim0), constant_apply,
    Ideal.ofBits_zero_f32]

/-- The first layer: `relu(x · w + b)[p, j] = max (∑ k, x[p,k] · w[k,j] + b[j]) 0`. -/
theorem ref_dense0 (x : FVec Ideal S100000x256 .f32) (w : FVec Ideal S256x128 .f32) (b : FVec Ideal S128 .f32)
    (p : Fin 100000) (j : Fin 128) :
    maximumf (addf (Host.dotGeneral (F := Ideal) dot_S100000x256_S256x128_S100000x128_1_0_0_1_n_n none x w)
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32)) (ix2 p j)
      = max ((∑ k : Fin 256, x (ix2 p k) * w (ix2 k j)) + b (ix1 j)) 0 := by
  rw [maximumf_apply, addf_apply, ref_dot0, ref_bias128, ref_zeros128]

end Cert.ReferenceIdeal.RefRead

end
-- ==== Proof.BridgeS0.lean ====
/-
  The first dense layer, kernel side against reference side: what the program holds in the first layer's output
  array when region 0 is left is the reference's first activation, `max (x · W₀ + b₀) 0`, as a function of the launch
  contents of the three arguments. The region reads the feature matrix and the weight matrix as launched (no host
  operation before it writes them) and the bias as the one-row view of the bias vector.
-/
import proofs.«147088_j4836133175935_1_alg».proof.Proof.Chain
import proofs.«147088_j4836133175935_1_alg».proof.Proof.Whole0
import proofs.«147088_j4836133175935_1_alg».proof.Proof.RefDense
import proofs.«147088_j4836133175935_1_alg».proof.Proof.LibHostRows
import proofs.«147088_j4836133175935_1_alg».proof.Proof.RefReadP
import Idealize.ShloMosaic.Lib.Pipeline.Value
import Idealize.ShloMosaic.Lib.ValueIdx
import Idealize.ShloMosaic.Lib.StableHlo.Run

noncomputable section

open scoped BigOperators

namespace Cert.Bridge

open Idealize.ShloMosaic Idealize.ShloMosaic.TcCoe Idealize.ShloMosaic.ValueIdx Idealize.ShloMosaic.StableHlo
open Cert.KernelIdeal Cert.KernelIdeal.Gen Cert.KernelIdeal.Run

variable (m : (ℓ : Loc nD τ sig) → Buf (Elt Ideal) ℓ) (ρ : Dev nD → PrngReg) (c : Dev nD)

/-- The feature matrix reaches region 0 as launched. -/
theorem arg0_at3 : V3 m ρ c main_arg0 = m ((c.tc : Thread nD τ).loc main_arg0) :=
  (W3_of m ρ c main_arg0 (by decide)).trans <| (W2_of m ρ c main_arg0 (by decide)).trans <|
    (W1_of m ρ c main_arg0 (by decide)).trans rfl

/-- The first weight matrix reaches region 0 as launched. -/
theorem arg2_at3 : V3 m ρ c main_arg2 = m ((c.tc : Thread nD τ).loc main_arg2) :=
  (W3_of m ρ c main_arg2 (by decide)).trans <| (W2_of m ρ c main_arg2 (by decide)).trans <|
    (W1_of m ρ c main_arg2 (by decide)).trans rfl

/-- The bias row region 0 reads is the launched bias vector viewed as one row. -/
theorem bias_at3 : V3 m ρ c main_v32
    = shapeCast S1x128 (m ((c.tc : Thread nD τ).loc main_arg3)) shapeCasts_S128_S1x128 := by
  show StableHlo.after hostOps0_2 (W2 m ρ c) (Proc.devRef .tc main_v32) = _
  after_results
  rfl

/-- Over any three operands: the kernel's first layer with the bias vector viewed as one row is the reference's first
    activation. -/
theorem dense0_eq_ref (x0 : FVec Ideal S100000x256 .f32) (x2 : FVec Ideal S256x128 .f32) (x3 : FVec Ideal S128 .f32) :
    Whole.dense0 x0 x2 (shapeCast S1x128 x3 shapeCasts_S128_S1x128) = Cert.ReferenceIdeal.ReadP.val_main_v34 (F := Ideal) x0 x2 x3 := by
  funext i
  obtain ⟨p, j, rfl⟩ : ∃ (p : Fin 100000) (j : Fin 128), i = ix2 p j := ⟨i 0, i 1, eq_ix2 i⟩
  unfold Cert.ReferenceIdeal.ReadP.val_main_v34 Cert.ReferenceIdeal.ReadP.val_main_v33 Cert.ReferenceIdeal.ReadP.val_main_v30 Cert.ReferenceIdeal.ReadP.val_main_v32 Cert.ReferenceIdeal.ReadP.val_main_v31 Cert.ReferenceIdeal.ReadP.val_main_call1_v0 Cert.ReferenceIdeal.ReadP.val_main_call1_cst
  refine Eq.trans ?_ (Cert.ReferenceIdeal.RefRead.ref_dense0 x0 x2 x3 p j).symm
  unfold Whole.dense0
  show max ((∑ k : Fin 256, x0 (ix2 p k) * x2 (ix2 k j)) + shapeCast S1x128 x3 shapeCasts_S128_S1x128 (ix2 (0 : Fin 1) j)) 0 = _
  rw [Cert.LibHostRows.rowOfVec_cast_apply]

/-- The first layer's output array at region 0's exit is the reference's first activation. -/
theorem stage0 : W4 m ρ c (Proc.devRef .tc main_v33)
    = Cert.ReferenceIdeal.ReadP.val_main_v34 (F := Ideal) (m ((c.tc : Thread nD τ).loc main_arg0)) (m ((c.tc : Thread nD τ).loc main_arg2)) (m ((c.tc : Thread nD τ).loc main_arg3)) := by
  refine (W4_arr m ρ c 3).trans ((Cert.KernelIdeal.Whole.final0 (V3 m ρ) c).trans ?_)
  rw [arg0_at3, arg2_at3, bias_at3]
  exact dense0_eq_ref _ _ _

end Cert.Bridge

end
-- ==== Proof.Whole1.lean ====
/-
  The second dense layer as a whole: after region 1 its output array holds, at row `p` and column `j`,
  `∑ k, x[p,k] · W[k,j] + b[0,j]` of the three input arrays as the region finds them. Each of the 20 grid points
  writes back one block of 5000 rows; the point's row block of `x` sits at the same rows as its output block, the
  weight matrix and the bias row are read whole; the 20 blocks tile the 100000 rows.
-/
import proofs.«147088_j4836133175935_1_alg».proof.Proof.Dense1
import proofs.«147088_j4836133175935_1_alg».proof.Proof.PayDense
import Idealize.ShloMosaic.Lib.Pipeline.Value
import Idealize.ShloMosaic.Lib.ValueIdx

noncomputable section

open scoped BigOperators

namespace Cert.KernelIdeal.Whole

open Idealize.ShloMosaic Idealize.ShloMosaic.TcCoe Idealize.ShloMosaic.ValueIdx
open Idealize.ShloMosaic.Pipeline (Dat)
open Cert.KernelIdeal Cert.KernelIdeal.Gen Cert.KernelIdeal.Run

variable (V : (c : Dev nD) → (b : Ref sig .tc) → Buf (Elt Ideal) ((c : Thread nD τ).loc b))

/-- Row `p`, column `j` of `x · W + b`. -/
def dense1 (x : S100000x128.Idx → EReal) (w : S128x128.Idx → EReal) (b : S1x128.Idx → EReal) : S100000x128.Idx → EReal :=
  fun i => (∑ k : Fin 128, x (ix2 (n0 := 100000) (i 0) k) * w (ix2 k (n1 := 128) (i 1))) + b (ix2 (0 : Fin 1) (n1 := 128) (i 1))

theorem hz1 : (![0, 0] : Fin 2 → Nat) = fun _ => 0 := funext fun a => by fin_cases a <;> rfl

/-- The printed index maps over the grid: the rows window and the output window sit at block (t, 0), the weight
    matrix and the bias row at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every point writes its output block back. -/
theorem flushes1 : ∀ t : Fin cfg1.N, (cfg1.win 3).flush t = true :=
  (by decide +kernel : ∀ t : Fin grid1.N, win1_3.flush t = true)

/-- The rows block at point `t` is rows `5000 t … 5000 t + 4999` of the input array. -/
theorem rows1_apply (c : Dev nD) (t : Fin cfg1.N) (r : Fin 5000) (k : Fin 128) (i : S100000x128.Idx)
    (h0 : (i 0).val = t.val * 5000 + r.val) (h1 : (i 1).val = k.val) :
    (iblk1 V c 0 t : Vec Ideal S5000x128 .f32) (ix2 r k) = (V c main_v33 : S100000x128.Idx → EReal) i := by
  obtain ⟨e0, e1, -⟩ := idx_facts1 t
  unfold iblk1
  rw [View.read_apply]
  show V c main_v33 _ = V c main_v33 _
  congr 1
  funext a
  apply Fin.ext
  match a with
  | ⟨0, _⟩ => show win1_0.index t (0 : Fin 2) * 5000 + 1 * r.val = (i 0).val; rw [e0, h0]; omega
  | ⟨1, _⟩ => show win1_0.index t (1 : Fin 2) * 128 + 1 * k.val = (i 1).val; rw [e1, h1]; omega

/-- The weight window's block is the whole matrix. -/
theorem weight1_apply (c : Dev nD) (t : Fin cfg1.N) (k : Fin 128) (j : Fin 128) :
    (iblk1 V c 1 t : Vec Ideal S128x128 .f32) (ix2 k j) = (V c main_arg4 : S128x128.Idx → EReal) (ix2 k j) := by
  obtain ⟨-, -, e2, e3, -⟩ := idx_facts1 t
  unfold iblk1
  rw [View.read_apply]
  show V c main_arg4 _ = V c main_arg4 _
  congr 1
  funext a
  apply Fin.ext
  match a with
  | ⟨0, _⟩ => show win1_1.index t (0 : Fin 2) * 128 + 1 * k.val = k.val; rw [e2]; omega
  | ⟨1, _⟩ => show win1_1.index t (1 : Fin 2) * 128 + 1 * j.val = j.val; rw [e3]; omega

/-- The bias window's block is the whole row. -/
theorem bias1_apply (c : Dev nD) (t : Fin cfg1.N) (j : Fin 128) :
    (iblk1 V c 2 t : Vec Ideal S1x128 .f32) (ix2 (0 : Fin 1) j) = (V c main_v35 : S1x128.Idx → EReal) (ix2 (0 : Fin 1) j) := by
  obtain ⟨-, -, -, -, e4, e5, -⟩ := idx_facts1 t
  unfold iblk1
  rw [View.read_apply]
  show V c main_v35 _ = V c main_v35 _
  congr 1
  funext a
  apply Fin.ext
  match a with
  | ⟨0, _⟩ => show win1_2.index t (0 : Fin 2) * 1 + 1 * (0 : Fin 1).val = (0 : Fin 1).val; rw [e4]; rfl
  | ⟨1, _⟩ => show win1_2.index t (1 : Fin 2) * 128 + 1 * j.val = j.val; rw [e5]; omega

/-- What point `t` writes back is block `t` of `dense1` of the input arrays as the region finds them. -/
theorem flushed1_eq (c : Dev nD) (t : Fin cfg1.N) :
    (dat1 (F := Ideal) V c).flushed 3 t
      = ((cfg1.win 3).blk t).view.read (Elt Ideal) (dense1 (V c main_v33) (V c main_arg4) (V c main_v35)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S128x128) hz1, View.ld_unit_zero (S := S1x128) hz1]
  obtain ⟨-, -, -, -, -, -, e6, e7⟩ := idx_facts1 t
  funext y
  obtain ⟨r, q, rfl⟩ : ∃ (r : Fin 5000) (q : Fin 128), y = ix2 r q := ⟨y 0, y 1, eq_ix2 y⟩
  show k1_pay1 (F := Ideal) (iblk1 V c 0 t) (iblk1 V c 1 t) (iblk1 V c 2 t) (ix2 r q)
    = dense1 (V c main_v33) (V c main_arg4) (V c main_v35) (((cfg1.win 3).blk t).view.emb (ix2 r q))
  refine (Pay.k1_pay1_apply (iblk1 V c 0 t) (iblk1 V c 1 t) (iblk1 V c 2 t) r q).trans ?_
  have hr : ((((cfg1.win 3).blk t).view.emb (ix2 r q)) 0).val = t.val * 5000 + r.val := by
    show win1_3.index t (0 : Fin 2) * 5000 + 1 * r.val = _; rw [e6]; omega
  have hq : ((((cfg1.win 3).blk t).view.emb (ix2 r q)) 1) = q := by
    apply Fin.ext
    show win1_3.index t (1 : Fin 2) * 128 + 1 * q.val = _; rw [e7]; omega
  unfold dense1
  rw [hq]
  refine congrArg₂ (· + ·) (Finset.sum_congr rfl fun k _ => congrArg₂ (· * ·) ?_ ?_) ?_
  · exact rows1_apply V c t r k _ hr rfl
  · exact weight1_apply V c t k q
  · exact bias1_apply V c t q

/-- An index of the output array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v36).slice (win1_3.rect t)).set ↔ _
  rw [View.set_slice_whole, Rect.mem_set_unit]
  exact Iff.rfl

/-- Row `p` is in the block of point `p / 5000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, e6, e7⟩ := idx_facts1 t
  have ht : t.val = (i 0).val / 5000 := rfl
  refine ⟨t, flushes1 t, ?_⟩
  rw [mem_blk1]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 128 ≤ (i 1).val ∧ (i 1).val < win1_3.index t (1 : Fin 2) * 128 + 128; rw [e7]; omega

/-- The output array after region 1. -/
theorem final1 (c : Dev nD) :
    (dat1 (F := Ideal) V c).arrAt 3 cfg1.N = dense1 (V c main_v33) (V c main_arg4) (V c main_v35) :=
  (dat1 V c).arrAt_eq_of_cover 3 (dense1 (V c main_v33) (V c main_arg4) (V c main_v35)) (fun t _ => flushed1_eq V c t) cover1

end Cert.KernelIdeal.Whole

end
-- ==== Proof.BridgeS1.lean ====
/-
  The second dense layer, kernel side against reference side: what the program holds in the second layer's output
  array when region 1 is left is the reference's second product, the first activation times `W₁`. The region reads the
  first layer's output as region 0 left it, the weight matrix as launched, and a bias row of zeros (a zero spread over
  128 entries, viewed as one row), and adding zero changes nothing.
-/
import proofs.«147088_j4836133175935_1_alg».proof.Proof.Chain
import proofs.«147088_j4836133175935_1_alg».proof.Proof.Whole1
import proofs.«147088_j4836133175935_1_alg».proof.Proof.BridgeS0
import proofs.«147088_j4836133175935_1_alg».proof.Proof.RefDense
import proofs.«147088_j4836133175935_1_alg».proof.Proof.LibHostRows
import proofs.«147088_j4836133175935_1_alg».proof.Proof.RefReadP
import Idealize.ShloMosaic.Lib.Pipeline.Value
import Idealize.ShloMosaic.Lib.ValueIdx
import Idealize.ShloMosaic.Lib.StableHlo.Run

noncomputable section

open scoped BigOperators

namespace Cert.Bridge

open Idealize.ShloMosaic Idealize.ShloMosaic.TcCoe Idealize.ShloMosaic.ValueIdx Idealize.ShloMosaic.StableHlo
open Cert.KernelIdeal Cert.KernelIdeal.Gen Cert.KernelIdeal.Run

variable (m : (ℓ : Loc nD τ sig) → Buf (Elt Ideal) ℓ) (ρ : Dev nD → PrngReg) (c : Dev nD)

/-- The first layer's output reaches region 1 as region 0 left it. -/
theorem act_at5 : V5 m ρ c main_v33 = W4 m ρ c (Proc.devRef .tc main_v33) :=
  W5_of m ρ c main_v33 (by decide)

/-- The second weight matrix reaches region 1 as launched. -/
theorem arg4_at5 : V5 m ρ c main_arg4 = m ((c.tc : Thread nD τ).loc main_arg4) :=
  (W5_of m ρ c main_arg4 (by decide)).trans <| (W4_of_ne m ρ c main_arg4 (by decide)).trans <|
    (W3_of m ρ c main_arg4 (by decide)).trans <| (W2_of m ρ c main_arg4 (by decide)).trans <|
    (W1_of m ρ c main_arg4 (by decide)).trans rfl

/-- The bias row region 1 reads is a zero spread over 128 entries, viewed as one row. -/
theorem zero_at5 : V5 m ρ c main_v35
    = shapeCast S1x128 (broadcastInDim S128 ![] bcast_S_S128 (constant (F := Ideal) S_ .f32 0x00000000#32)) shapeCasts_S128_S1x128 := by
  show StableHlo.after hostOps1 (W4 m ρ c) (Proc.devRef .tc main_v35) = _
  after_results
  rfl

/-- Over any two operands: the kernel's second layer with the zero bias row is the host's product. -/
theorem dense1_eq_ref (y : FVec Ideal S100000x128 .f32) (x4 : FVec Ideal S128x128 .f32) :
    Whole.dense1 y x4 (shapeCast S1x128 (broadcastInDim S128 ![] bcast_S_S128 (constant (F := Ideal) S_ .f32 0x00000000#32)) shapeCasts_S128_S1x128)
      = Host.dotGeneral (F := Ideal) Cert.ReferenceIdeal.dot_S100000x128_S128x128_S100000x128_1_0_0_1_n_n none y x4 := by
  funext i
  obtain ⟨p, j, rfl⟩ : ∃ (p : Fin 100000) (j : Fin 128), i = ix2 p j := ⟨i 0, i 1, eq_ix2 i⟩
  refine Eq.trans ?_ (Cert.ReferenceIdeal.RefRead.ref_dense1 y x4 p j).symm
  unfold Whole.dense1
  show (∑ k : Fin 128, y (ix2 p k) * x4 (ix2 k j))
    + shapeCast S1x128 (broadcastInDim S128 ![] bcast_S_S128 (constant (F := Ideal) S_ .f32 0x00000000#32)) shapeCasts_S128_S1x128 (ix2 (0 : Fin 1) j) = _
  rw [Cert.LibHostRows.rowOfVec_cast_apply, broadcastInDim_apply _ bcast_S_S128 _ (ix1 j) (fun a => a.elim0) (fun a => a.elim0),
    constant_apply, Ideal.ofBits_zero_f32, add_zero]

/-- The second layer's output array at region 1's exit is the reference's second product. -/
theorem stage1 : W6 m ρ c (Proc.devRef .tc main_v36)
    = Cert.ReferenceIdeal.ReadP.val_main_v35 (F := Ideal) (m ((c.tc : Thread nD τ).loc main_arg0)) (m ((c.tc : Thread nD τ).loc main_arg2)) (m ((c.tc : Thread nD τ).loc main_arg3)) (m ((c.tc : Thread nD τ).loc main_arg4)) := by
  refine (W6_arr m ρ c 3).trans ((Cert.KernelIdeal.Whole.final1 (V5 m ρ) c).trans ?_)
  rw [act_at5, stage0, arg4_at5, zero_at5]
  unfold Cert.ReferenceIdeal.ReadP.val_main_v35
  exact dense1_eq_ref _ _

end Cert.Bridge

end
-- ==== Proof.Whole3.lean ====
/-
  The output dense layer as a whole: after region 3 its output array holds, at row `p` and column `j` (of 40),
  `∑ k, x[p,k] · W[k,j] + b[0,j]` of the three input arrays as the region finds them. Each of the 20 grid points
  writes back one block of 5000 rows; the point's row block of `x` sits at the same rows as its output block, the
  weight matrix and the bias row are read whole; the 20 blocks tile the 100000 rows.
-/
import proofs.«147088_j4836133175935_1_alg».proof.Proof.Dense3
import proofs.«147088_j4836133175935_1_alg».proof.Proof.PayDense
import Idealize.ShloMosaic.Lib.Pipeline.Value
import Idealize.ShloMosaic.Lib.ValueIdx

noncomputable section

open scoped BigOperators

namespace Cert.KernelIdeal.Whole

open Idealize.ShloMosaic Idealize.ShloMosaic.TcCoe Idealize.ShloMosaic.ValueIdx
open Idealize.ShloMosaic.Pipeline (Dat)
open Cert.KernelIdeal Cert.KernelIdeal.Gen Cert.KernelIdeal.Run

variable (V : (c : Dev nD) → (b : Ref sig .tc) → Buf (Elt Ideal) ((c : Thread nD τ).loc b))

/-- Row `p`, column `j` of `x · W + b`. -/
def dense3 (x : S100000x128.Idx → EReal) (w : S128x40.Idx → EReal) (b : S1x40.Idx → EReal) : S100000x40.Idx → EReal :=
  fun i => (∑ k : Fin 128, x (ix2 (n0 := 100000) (i 0) k) * w (ix2 k (n1 := 40) (i 1))) + b (ix2 (0 : Fin 1) (n1 := 40) (i 1))

theorem hz3 : (![0, 0] : Fin 2 → Nat) = fun _ => 0 := funext fun a => by fin_cases a <;> rfl

/-- The printed index maps over the grid: the rows window and the output window sit at block (t, 0), the weight
    matrix and the bias row at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every point writes its output block back. -/
theorem flushes3 : ∀ t : Fin cfg3.N, (cfg3.win 3).flush t = true :=
  (by decide +kernel : ∀ t : Fin grid3.N, win3_3.flush t = true)

/-- The rows block at point `t` is rows `5000 t … 5000 t + 4999` of the input array. -/
theorem rows3_apply (c : Dev nD) (t : Fin cfg3.N) (r : Fin 5000) (k : Fin 128) (i : S100000x128.Idx)
    (h0 : (i 0).val = t.val * 5000 + r.val) (h1 : (i 1).val = k.val) :
    (iblk3 V c 0 t : Vec Ideal S5000x128 .f32) (ix2 r k) = (V c main_v54 : S100000x128.Idx → EReal) i := by
  obtain ⟨e0, e1, -⟩ := idx_facts3 t
  unfold iblk3
  rw [View.read_apply]
  show V c main_v54 _ = V c main_v54 _
  congr 1
  funext a
  apply Fin.ext
  match a with
  | ⟨0, _⟩ => show win3_0.index t (0 : Fin 2) * 5000 + 1 * r.val = (i 0).val; rw [e0, h0]; omega
  | ⟨1, _⟩ => show win3_0.index t (1 : Fin 2) * 128 + 1 * k.val = (i 1).val; rw [e1, h1]; omega

/-- The weight window's block is the whole matrix. -/
theorem weight3_apply (c : Dev nD) (t : Fin cfg3.N) (k : Fin 128) (j : Fin 40) :
    (iblk3 V c 1 t : Vec Ideal S128x40 .f32) (ix2 k j) = (V c main_arg6 : S128x40.Idx → EReal) (ix2 k j) := by
  obtain ⟨-, -, e2, e3, -⟩ := idx_facts3 t
  unfold iblk3
  rw [View.read_apply]
  show V c main_arg6 _ = V c main_arg6 _
  congr 1
  funext a
  apply Fin.ext
  match a with
  | ⟨0, _⟩ => show win3_1.index t (0 : Fin 2) * 128 + 1 * k.val = k.val; rw [e2]; omega
  | ⟨1, _⟩ => show win3_1.index t (1 : Fin 2) * 40 + 1 * j.val = j.val; rw [e3]; omega

/-- The bias window's block is the whole row. -/
theorem bias3_apply (c : Dev nD) (t : Fin cfg3.N) (j : Fin 40) :
    (iblk3 V c 2 t : Vec Ideal S1x40 .f32) (ix2 (0 : Fin 1) j) = (V c main_v56 : S1x40.Idx → EReal) (ix2 (0 : Fin 1) j) := by
  obtain ⟨-, -, -, -, e4, e5, -⟩ := idx_facts3 t
  unfold iblk3
  rw [View.read_apply]
  show V c main_v56 _ = V c main_v56 _
  congr 1
  funext a
  apply Fin.ext
  match a with
  | ⟨0, _⟩ => show win3_2.index t (0 : Fin 2) * 1 + 1 * (0 : Fin 1).val = (0 : Fin 1).val; rw [e4]; rfl
  | ⟨1, _⟩ => show win3_2.index t (1 : Fin 2) * 40 + 1 * j.val = j.val; rw [e5]; omega

/-- What point `t` writes back is block `t` of `dense3` of the input arrays as the region finds them. -/
theorem flushed3_eq (c : Dev nD) (t : Fin cfg3.N) :
    (dat3 (F := Ideal) V c).flushed 3 t
      = ((cfg3.win 3).blk t).view.read (Elt Ideal) (dense3 (V c main_v54) (V c main_arg6) (V c main_v56)) := by
  show (cfg3.win 3).cut (grid3.coords t) ((dat3 V c).after 3 t) = _
  rw [after3_3]
  unfold out3_3
  rw [View.canon_unit_zero hz3]
  simp only [View.ld_unit_zero (S := S5000x128) hz3, View.ld_unit_zero (S := S128x40) hz3, View.ld_unit_zero (S := S1x40) hz3]
  obtain ⟨-, -, -, -, -, -, e6, e7⟩ := idx_facts3 t
  funext y
  obtain ⟨r, q, rfl⟩ : ∃ (r : Fin 5000) (q : Fin 40), y = ix2 r q := ⟨y 0, y 1, eq_ix2 y⟩
  show k3_pay1 (F := Ideal) (iblk3 V c 0 t) (iblk3 V c 1 t) (iblk3 V c 2 t) (ix2 r q)
    = dense3 (V c main_v54) (V c main_arg6) (V c main_v56) (((cfg3.win 3).blk t).view.emb (ix2 r q))
  refine (Pay.k3_pay1_apply (iblk3 V c 0 t) (iblk3 V c 1 t) (iblk3 V c 2 t) r q).trans ?_
  have hr : ((((cfg3.win 3).blk t).view.emb (ix2 r q)) 0).val = t.val * 5000 + r.val := by
    show win3_3.index t (0 : Fin 2) * 5000 + 1 * r.val = _; rw [e6]; omega
  have hq : ((((cfg3.win 3).blk t).view.emb (ix2 r q)) 1) = q := by
    apply Fin.ext
    show win3_3.index t (1 : Fin 2) * 40 + 1 * q.val = _; rw [e7]; omega
  unfold dense3
  rw [hq]
  refine congrArg₂ (· + ·) (Finset.sum_congr rfl fun k _ => congrArg₂ (· * ·) ?_ ?_) ?_
  · exact rows3_apply V c t r k _ hr rfl
  · exact weight3_apply V c t k q
  · exact bias3_apply V c t q

/-- An index of the output array is in point `t`'s block iff each coordinate is in the block's range on its axis. -/
theorem mem_blk3 (t : Fin cfg3.N) (i : S100000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v57).slice (win3_3.rect t)).set ↔ _
  rw [View.set_slice_whole, Rect.mem_set_unit]
  exact Iff.rfl

/-- Row `p` is in the block of point `p / 5000`. -/
theorem cover3 (i : S100000x40.Idx) : ∃ t : Fin cfg3.N, (cfg3.win 3).flush t = true ∧ i ∈ ((cfg3.win 3).blk t).view.set := by
  have hi0 : (i 0).val < 100000 := (i 0).isLt
  have hi1 : (i 1).val < 40 := (i 1).isLt
  have hN : cfg3.N = 20 := N_3
  let t : Fin cfg3.N := ⟨(i 0).val / 5000, by rw [hN]; omega⟩
  obtain ⟨-, -, -, -, -, -, e6, e7⟩ := idx_facts3 t
  have ht : t.val = (i 0).val / 5000 := rfl
  refine ⟨t, flushes3 t, ?_⟩
  rw [mem_blk3]
  intro a
  match a with
  | ⟨0, _⟩ => show win3_3.index t (0 : Fin 2) * 5000 ≤ (i 0).val ∧ (i 0).val < win3_3.index t (0 : Fin 2) * 5000 + 5000; rw [e6, ht]; omega
  | ⟨1, _⟩ => show win3_3.index t (1 : Fin 2) * 40 ≤ (i 1).val ∧ (i 1).val < win3_3.index t (1 : Fin 2) * 40 + 40; rw [e7]; omega

/-- The output array after region 3. -/
theorem final3 (c : Dev nD) :
    (dat3 (F := Ideal) V c).arrAt 3 cfg3.N = dense3 (V c main_v54) (V c main_arg6) (V c main_v56) :=
  (dat3 V c).arrAt_eq_of_cover 3 (dense3 (V c main_v54) (V c main_arg6) (V c main_v56)) (fun t _ => flushed3_eq V c t) cover3

end Cert.KernelIdeal.Whole

end
-- ==== Proof.BridgeS3.lean ====
/-
  The output dense layer, kernel side against reference side: given that the first aggregation's output array holds
  the reference's first aggregation when region 2 is left, what the program holds in the output layer's array when
  region 3 is left is the reference's third product, `max (aggregation + b₁) 0` times `W₂`. Between regions 2 and 3 the
  host adds the bias, spread over the rows, and clamps below at zero — the reference's own operations —; the region
  reads the weight matrix as launched and a bias row of zeros.
-/
import proofs.«147088_j4836133175935_1_alg».proof.Proof.Chain
import proofs.«147088_j4836133175935_1_alg».proof.Proof.Whole3
import proofs.«147088_j4836133175935_1_alg».proof.Proof.RefDense
import proofs.«147088_j4836133175935_1_alg».proof.Proof.LibHostRows
import proofs.«147088_j4836133175935_1_alg».proof.Proof.RefReadP
import Idealize.ShloMosaic.Lib.Pipeline.Value
import Idealize.ShloMosaic.Lib.ValueIdx
import Idealize.ShloMosaic.Lib.StableHlo.Run

noncomputable section

open scoped BigOperators

namespace Cert.Bridge

open Idealize.ShloMosaic Idealize.ShloMosaic.TcCoe Idealize.ShloMosaic.ValueIdx Idealize.ShloMosaic.StableHlo
open Cert.KernelIdeal Cert.KernelIdeal.Gen Cert.KernelIdeal.Run

variable (m : (ℓ : Loc nD τ sig) → Buf (Elt Ideal) ℓ) (ρ : Dev nD → PrngReg) (c : Dev nD)

/-- The second bias vector reaches region 2's exit as launched. -/
theorem arg5_at8 : W8 m ρ c (Proc.devRef .tc main_arg5) = m ((c.tc : Thread nD τ).loc main_arg5) :=
  (W8_of_ne m ρ c main_arg5 (by decide)).trans <| (W7_of m ρ c main_arg5 (by decide)).trans <|
    (W6_of_ne m ρ c main_arg5 (by decide)).trans <| (W5_of m ρ c main_arg5 (by decide)).trans <|
    (W4_of_ne m ρ c main_arg5 (by decide)).trans <| (W3_of m ρ c main_arg5 (by decide)).trans <|
    (W2_of m ρ c main_arg5 (by decide)).trans <| (W1_of m ρ c main_arg5 (by decide)).trans rfl

/-- The third weight matrix reaches region 3 as launched. -/
theorem arg6_at11 : V11 m ρ c main_arg6 = m ((c.tc : Thread nD τ).loc main_arg6) :=
  (W11_of m ρ c main_arg6 (by decide)).trans <| (W10_of m ρ c main_arg6 (by decide)).trans <|
    (W9_of m ρ c main_arg6 (by decide)).trans <| (W8_of_ne m ρ c main_arg6 (by decide)).trans <|
    (W7_of m ρ c main_arg6 (by decide)).trans <| (W6_of_ne m ρ c main_arg6 (by decide)).trans <|
    (W5_of m ρ c main_arg6 (by decide)).trans <| (W4_of_ne m ρ c main_arg6 (by decide)).trans <|
    (W3_of m ρ c main_arg6 (by decide)).trans <| (W2_of m ρ c main_arg6 (by decide)).trans <|
    (W1_of m ρ c main_arg6 (by decide)).trans rfl

/-- The rows region 3 reads: the aggregation as region 2 left it, plus the bias spread over the rows, clamped below at
    zero. -/
theorem act_at11 : V11 m ρ c main_v54
    = maximumf (addf (W8 m ρ c (Proc.devRef .tc main_v50))
        (broadcastInDim S100000x128 ![0, 1] bcast_S1x128_S100000x128_0_1 (broadcastInDim S1x128 ![1] bcast_S128_S1x128_1 (m ((c.tc : Thread nD τ).loc main_arg5)))))
      (broadcastInDim S100000x128 ![] bcast_S_S100000x128 (constant (F := Ideal) S_ .f32 0x00000000#32)) := by
  show StableHlo.after hostOps3_2 (W10 m ρ c) (Proc.devRef .tc main_v54) = _
  after_results
  rw [arg5_at8]
  rfl

/-- The bias row region 3 reads is a zero spread over 40 entries, viewed as one row. -/
theorem zero_at11 : V11 m ρ c main_v56
    = shapeCast S1x40 (broadcastInDim S40 ![] bcast_S_S40 (constant (F := Ideal) S_ .f32 0x00000000#32)) shapeCasts_S40_S1x40 := by
  show StableHlo.after hostOps3_2 (W10 m ρ c) (Proc.devRef .tc main_v56) = _
  after_results
  rfl

/-- Over any two operands: the kernel's output layer with the zero bias row is the host's product. -/
theorem dense3_eq_ref (y : FVec Ideal S100000x128 .f32) (x6 : FVec Ideal S128x40 .f32) :
    Whole.dense3 y x6 (shapeCast S1x40 (broadcastInDim S40 ![] bcast_S_S40 (constant (F := Ideal) S_ .f32 0x00000000#32)) shapeCasts_S40_S1x40)
      = Host.dotGeneral (F := Ideal) Cert.ReferenceIdeal.dot_S100000x128_S128x40_S100000x40_1_0_0_1_n_n none y x6 := by
  funext i
  obtain ⟨p, j, rfl⟩ : ∃ (p : Fin 100000) (j : Fin 40), i = ix2 p j := ⟨i 0, i 1, eq_ix2 i⟩
  refine Eq.trans ?_ (Cert.ReferenceIdeal.RefRead.ref_dense2 y x6 p j).symm
  unfold Whole.dense3
  show (∑ k : Fin 128, y (ix2 p k) * x6 (ix2 k j))
    + shapeCast S1x40 (broadcastInDim S40 ![] bcast_S_S40 (constant (F := Ideal) S_ .f32 0x00000000#32)) shapeCasts_S40_S1x40 (ix2 (0 : Fin 1) j) = _
  rw [Cert.LibHostRows.rowOfVec_cast_apply, broadcastInDim_apply _ bcast_S_S40 _ (ix1 j) (fun a => a.elim0) (fun a => a.elim0),
    constant_apply, Ideal.ofBits_zero_f32, add_zero]

/-- The output layer's array at region 3's exit is the reference's third product, given the first aggregation. -/
theorem stage3
    (h2 : W8 m ρ c (Proc.devRef .tc main_v50)
      = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    W12 m ρ c (Proc.devRef .tc main_v57)
      = Cert.ReferenceIdeal.ReadP.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W12_arr m ρ c 3).trans ((Cert.KernelIdeal.Whole.final3 (V11 m ρ) c).trans ?_)
  rw [act_at11, h2, arg6_at11, zero_at11]
  unfold Cert.ReferenceIdeal.ReadP.val_main_v53
  refine (dense3_eq_ref _ _).trans ?_
  unfold Cert.ReferenceIdeal.ReadP.val_main_v52 Cert.ReferenceIdeal.ReadP.val_main_v51 Cert.ReferenceIdeal.ReadP.val_main_v50 Cert.ReferenceIdeal.ReadP.val_main_v49 Cert.ReferenceIdeal.ReadP.val_main_call2_v0 Cert.ReferenceIdeal.ReadP.val_main_call2_cst
  rfl

end Cert.Bridge

end
-- ==== Proof.ScatterCov.lean ====
import Idealize.ShloMosaic.Lib.Pipeline.FrameBody
import Idealize.ShloMosaic.Lib.Pipeline.Value

/-! Two facts about a buffer accessed only through its whole-shape rectangle at zero offsets: the zero offsets of a
rank-2 shape, and a covered load after a last whole store reads that store's payload, whatever was stored before. -/

noncomputable section

namespace Cert.KernelIdeal.Run

open Idealize.ShloMosaic

/-- The offsets `![0, 0]` are the zero offsets. -/
theorem hz00 : (![0, 0] : Fin 2 → Nat) = fun _ => 0 := funext fun a => by fin_cases a <;> rfl

/-- A load through the whole-shape rectangle after a LAST store through it reads that store's payload, whatever the
    earlier stores were. -/
theorem readCov_cons_unit_zero {Val : EltTy → Type} {S : Shape} {e : EltTy} [∀ e, Nonempty (Val e)]
    {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.KernelIdeal.Run

end
-- ==== Proof.Scatter2Val.lean ====
import proofs.«147088_j4836133175935_1_alg».proof.Proof.Scatter2
import proofs.«147088_j4836133175935_1_alg».proof.Proof.ScatterCov
import Idealize.ShloMosaic.Lib.Pipeline.Value

-- membership in a rectangle of long extents recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the width-128 segment sum): what its accumulation IS

Each case's pieces read back are the body's payloads of the point's blocks: the one-hot product added onto zero when the
accumulator was zeroed (A), onto what the point before left otherwise (B); the output's buffer holds the same value. -/

/-- Case A leaves in the accumulator the one-hot product of the point's blocks added onto zero. -/
theorem sout2_A_eq (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : cond2_0 i)
    (x0 : Vec F S2048x128 .f32) (x1 : Vec F S1x2048 .i32) :
    sout2_A_0 c i arg2 harg2 arg3 harg3 arg4 harg4 arg5 harg5 hc0 x0 x1 = k2_pay2 i x1 x0 k2_pay1 := by
  unfold sout2_A_0
  rw [View.read_writes_eq_canon _ _ _ (scover2_A_0 c i arg2 harg2 arg3 harg3 arg4 harg4 arg5 harg5 hc0 x0 x1)]
  unfold kernelRun2_A
  dsimp only
  try sl_unfold_words
  rw [View.canon_cons_unit_zero hz00, View.readCov_unit_zero (S := S2000x128) _ hz00]
  simp only [View.readAt_eq_ld, harg2.read_unread, harg3.read_unread, View.ld_unit_zero (S := S1x2048) hz00, View.ld_unit_zero (S := S2048x128) hz00]

/-- and the same in the output's buffer: the accumulator read back after its last store. -/
theorem out2_A_eq (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : cond2_0 i)
    (x0 : Vec F S2048x128 .f32) (x1 : Vec F S1x2048 .i32) :
    out2_A_2 c i arg2 harg2 arg3 harg3 arg4 harg4 arg5 harg5 hc0 x0 x1 = k2_pay2 i x1 x0 k2_pay1 := by
  unfold out2_A_2
  rw [View.read_writes_eq_canon _ _ _ (cover2_A_2 c i arg2 harg2 arg3 harg3 arg4 harg4 arg5 harg5 hc0 x0 x1)]
  unfold kernelRun2_A
  dsimp only
  try sl_unfold_words
  rw [View.canon_unit_zero hz00, readCov_cons_unit_zero _ hz00, View.readCov_unit_zero (S := S2000x128) _ hz00]
  simp only [View.readAt_eq_ld, harg2.read_unread, harg3.read_unread, View.ld_unit_zero (S := S1x2048) hz00, View.ld_unit_zero (S := S2048x128) hz00]

/-- Case B leaves in the accumulator the one-hot product of the point's blocks added onto what it held. -/
theorem sout2_B_eq (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : ¬cond2_0 i)
    (x0 : Vec F S2048x128 .f32) (x1 : Vec F S1x2048 .i32) (xs0 : Vec F S2000x128 .f32) :
    sout2_B_0 c i arg2 harg2 arg3 harg3 arg4 harg4 arg5 harg5 hc0 x0 x1 xs0 = k2_pay2 i x1 x0 xs0 := by
  unfold sout2_B_0
  rw [View.read_writes_eq_canon _ _ _ (scover2_B_0 c i arg2 harg2 arg3 harg3 arg4 harg4 arg5 harg5 hc0 x0 x1 xs0)]
  unfold kernelRun2_B
  dsimp only
  try sl_unfold_words
  rw [View.canon_unit_zero hz00]
  simp only [View.readAt_eq_ld, harg2.read_unread, harg3.read_unread, harg5.read_unread, View.ld_unit_zero (S := S1x2048) hz00, View.ld_unit_zero (S := S2048x128) hz00, View.ld_unit_zero (S := S2000x128) hz00]

/-- and the same in the output's buffer. -/
theorem out2_B_eq (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S2000x128 .f32) (harg4 : arg4.IsWhole) (arg5 : Memref sig .tc .vmem S2000x128 .f32) (harg5 : arg5.IsWhole) (hc0 : ¬cond2_0 i)
    (x0 : Vec F S2048x128 .f32) (x1 : Vec F S1x2048 .i32) (xs0 : Vec F S2000x128 .f32) :
    out2_B_2 c i arg2 harg2 arg3 harg3 arg4 harg4 arg5 harg5 hc0 x0 x1 xs0 = k2_pay2 i x1 x0 xs0 := by
  unfold out2_B_2
  rw [View.read_writes_eq_canon _ _ _ (cover2_B_2 c i arg2 harg2 arg3 harg3 arg4 harg4 arg5 harg5 hc0 x0 x1 xs0)]
  unfold kernelRun2_B
  dsimp only
  try sl_unfold_words
  rw [View.canon_unit_zero hz00, View.readCov_unit_zero (S := S2000x128) _ hz00]
  simp only [View.readAt_eq_ld, harg2.read_unread, harg3.read_unread, harg5.read_unread, View.ld_unit_zero (S := S1x2048) hz00, View.ld_unit_zero (S := S2048x128) hz00, View.ld_unit_zero (S := S2000x128) hz00]

section Regions
-- the TensorCore's buffer contents when the region is entered
variable (V : (c : Dev nD) → (b : Ref sig .tc) → Buf (Elt F) ((c : Thread nD τ).loc b))

/-- After every point the output's buffer and the accumulator hold the same value. -/
theorem outsAt2_fst_eq_snd (c : Dev nD) (n : ℕ) (hn : n < cfg2.N) : (outsAt2 V c n hn).1 = (outsAt2 V c n hn).2 := by
  by_cases h0 : n % 831 = 0
  · rw [outsAt2_A V c ⟨n, hn⟩ h0]
    dsimp only
    exact (out2_A_eq c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2_0 (Memref.isWhole_whole _) ((hcond2_0 ⟨n, hn⟩).mpr h0) (iblk2 V c 0 ⟨n, hn⟩) (iblk2 V c 1 ⟨n, hn⟩)).trans
      (sout2_A_eq c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2_0 (Memref.isWhole_whole _) ((hcond2_0 ⟨n, hn⟩).mpr h0) (iblk2 V c 0 ⟨n, hn⟩) (iblk2 V c 1 ⟨n, hn⟩)).symm
  · rw [outsAt2_B V c ⟨n, hn⟩ h0]
    dsimp only
    exact (out2_B_eq c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2_0 (Memref.isWhole_whole _) (fun h => h0 ((hcond2_0 ⟨n, hn⟩).mp h)) (iblk2 V c 0 ⟨n, hn⟩) (iblk2 V c 1 ⟨n, hn⟩) _).trans
      (sout2_B_eq c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2_0 (Memref.isWhole_whole _) (fun h => h0 ((hcond2_0 ⟨n, hn⟩).mp h)) (iblk2 V c 0 ⟨n, hn⟩) (iblk2 V c 1 ⟨n, hn⟩) _).symm

/-- At the first point of a row of the grid the output's buffer holds the one-hot product of the point's blocks added
    onto zero. -/
theorem accAt2_first (c : Dev nD) (t : Fin cfg2.N) (h : t.val % 831 = 0) :
    accAt2 V c t.val t.isLt = k2_pay2 (grid2.coords t) (iblk2 V c 1 t) (iblk2 V c 0 t) k2_pay1 := by
  unfold accAt2
  rw [outsAt2_A V c t h]
  dsimp only
  exact out2_A_eq c (grid2.coords t) (ms2_0 t) (hs2_0 t) (ms2_1 t) (hs2_1 t) (ms2_2 t) (hs2_2 t) scM2_0 (Memref.isWhole_whole _) ((hcond2_0 t).mpr h) (iblk2 V c 0 t) (iblk2 V c 1 t)

/-- At every other point it holds that product added onto what it held after the point before. -/
theorem accAt2_next (c : Dev nD) (t : Fin cfg2.N) (h : t.val % 831 ≠ 0) :
    accAt2 V c t.val t.isLt = k2_pay2 (grid2.coords t) (iblk2 V c 1 t) (iblk2 V c 0 t) (accAt2 V c (t.val - 1) (Nat.lt_of_le_of_lt (Nat.sub_le _ _) t.isLt)) := by
  unfold accAt2
  rw [outsAt2_B V c t h]
  dsimp only
  rw [outsAt2_fst_eq_snd V c (t.val - 1) (Nat.lt_of_le_of_lt (Nat.sub_le _ _) t.isLt)]
  exact out2_B_eq c (grid2.coords t) (ms2_0 t) (hs2_0 t) (ms2_1 t) (hs2_1 t) (ms2_2 t) (hs2_2 t) scM2_0 (Memref.isWhole_whole _) (fun h' => h ((hcond2_0 t).mp h')) (iblk2 V c 0 t) (iblk2 V c 1 t) (outsAt2 V c (t.val - 1) (Nat.lt_of_le_of_lt (Nat.sub_le _ _) t.isLt)).2

end Regions

end Cert.KernelIdeal.Run

end
-- ==== Proof.PayScatter.lean ====
/-
  The two segment-sum kernels' block values read at one node row and one feature column.

  At a grid point whose first coordinate is `b` the body numbers the 2000 node rows of its block
  `b · 2000 + r`, compares every node number with every one of the chunk's 2048 destination ids, and turns the
  comparison bits into a 2000 × 2048 matrix of ones and zeros.  That matrix times the chunk's 2048 message rows,
  into a zero accumulator, is added to the accumulator block loaded before.  Since `1 · x = x` and `0 · x = 0`
  on the extended reals, the entry at row `r`, column `f` is the old accumulator entry plus the sum of the
  message entries `m[k, f]` over the positions `k` of the chunk whose destination is node `b · 2000 + r`.
  The first store of a block's accumulator writes zero everywhere.
-/
import proofs.«147088_j4836133175935_1_alg».proof.Proof.Gen.KernelIdeal.Skeleton
import proofs.«147088_j4836133175935_1_alg».proof.Proof.LibMatmulRows
import Idealize.ShloMosaic.Lib.ValueLayout
import Idealize.ShloMosaic.Lib.KernelVsHost

noncomputable section

open scoped BigOperators

namespace Cert.KernelIdeal.Pay

open Idealize.ShloMosaic Idealize.ShloMosaic.ValueIdx Cert.KernelIdeal Cert.KernelIdeal.Gen

/-- A comparison bit widened to a word and converted is `1` where the two words are equal and `0` elsewhere. -/
theorem eqBit_toReal (a b : BitVec 32) :
    (((((IntOp.cmpi .eq a b).setWidth 32).toInt : ℝ) : EReal)) = if a = b then 1 else 0 := by
  by_cases h : a = b
  · rw [if_pos h, IntOp.cmpi_eq.mpr h]
    have : ((1#1 : BitVec 1).setWidth 32).toInt = 1 := by decide
    rw [this]; norm_cast
  · rw [if_neg h, eq_zero_of_ne_one (fun e => h (IntOp.cmpi_eq.mp e))]
    have : ((0#1 : BitVec 1).setWidth 32).toInt = 0 := by decide
    rw [this]; norm_cast

/-- The node number of row `r` of block `b`, as a 32-bit word: the word product and sum are the word of the
    natural number `b · 2000 + r` (word arithmetic is arithmetic modulo 2³², so nothing has to be bounded). -/
theorem nodeWord (b r : ℕ) :
    BitVec.ofNat 32 b * 2000#32 + BitVec.ofNat 32 r = BitVec.ofNat 32 (b * 2000 + r) := by
  rw [BitVec.ofNat_add, BitVec.ofNat_mul]

/-- A one-column matrix broadcast along the columns reads its row. -/
theorem broadcastTo_col_apply {α : Type} (v : S2000x1.Idx → α) (h : S2000x1.Broadcasts S2000x2048)
    (p : Fin 2000) (c : Fin 2048) : broadcastTo S2000x2048 v h (ix2 p c) = v (ix2 p (0 : Fin 1)) := by
  refine broadcastTo_apply v h (ix2 p c) (ix2 p (0 : Fin 1)) fun ax => ?_
  match ax with
  | ⟨0, _⟩ =>
    show p.val = if (2000 : ℕ) = 1 then 0 else p.val
    rw [if_neg (by decide)]
  | ⟨1, _⟩ =>
    show (0 : ℕ) = if (1 : ℕ) = 1 then 0 else c.val
    rw [if_pos rfl]

/-- The matrix of ones and zeros at row `r`, position `k`: `1` exactly when the chunk's destination id at `k`
    is node `b · 2000 + r`. -/
theorem oneHot_apply (b : ℕ) (ids : IVec S1x2048 32) (r : Fin 2000) (k : Fin 2048) :
    (sitofp .f32 (extui 32 (cmpi .eq
        (broadcastTo S2000x2048 (addi (broadcast S2000x1 (Scalar.muli (BitVec.ofNat 32 b) 2000#32))
          (iota .tc S2000x1 32 [0] iota_S2000x1_d0_w32)) broadcasts_S2000x1_S2000x2048)
        (broadcastTo S2000x2048 ids broadcasts_S1x2048_S2000x2048)) natLt_1_32) : FVec Ideal S2000x2048 .f32) (ix2 r k)
      = if ids (ix2 (0 : Fin 1) k) = BitVec.ofNat 32 (b * 2000 + r.val) then 1 else 0 := by
  show (((((IntOp.cmpi .eq
        (broadcastTo S2000x2048 (addi (broadcast S2000x1 (Scalar.muli (BitVec.ofNat 32 b) 2000#32))
          (iota .tc S2000x1 32 [0] iota_S2000x1_d0_w32)) broadcasts_S2000x1_S2000x2048 (ix2 r k))
        (broadcastTo S2000x2048 ids broadcasts_S1x2048_S2000x2048 (ix2 r k))).setWidth 32).toInt : ℝ) : EReal)) = _
  rw [broadcastTo_col_apply, broadcastTo_1b_ab_apply, eqBit_toReal]
  have e : addi (broadcast S2000x1 (Scalar.muli (BitVec.ofNat 32 b) 2000#32))
      (iota .tc S2000x1 32 [0] iota_S2000x1_d0_w32) (ix2 r (0 : Fin 1)) = BitVec.ofNat 32 (b * 2000 + r.val) := by
    show BitVec.ofNat 32 b * 2000#32 + iota .tc S2000x1 32 [0] iota_S2000x1_d0_w32 (ix2 r (0 : Fin 1)) = _
    rw [iota_single_apply]
    exact nodeWord b r.val
  rw [e]
  by_cases h : ids (ix2 (0 : Fin 1) k) = BitVec.ofNat 32 (b * 2000 + r.val)
  · rw [if_pos h, if_pos h.symm]
  · rw [if_neg h, if_neg (fun e' => h e'.symm)]

/-! The coordinate facts of the dimension record `dot_S2000x2048_S2048x128_S2000x128_1_0_0_1_n_n`: the left operand is read at (row, contraction
    position), the right operand at (contraction position, column). -/
theorem s2_l0 (i : S2000x128.Idx) (q : dot_S2000x2048_S2048x128_S2000x128_1_0_0_1_n_n.contr.Idx) :
    (dot_S2000x2048_S2048x128_S2000x128_1_0_0_1_n_n.lhsIdx i q 0).val = (i 0).val := by
  unfold DotDims.lhsIdx
  rw [dif_neg (show ¬(0 : Fin S2000x2048.rank) ∈ dot_S2000x2048_S2048x128_S2000x128_1_0_0_1_n_n.lhsBatch by decide), dif_pos (show (0 : Fin S2000x2048.rank) ∈ dot_S2000x2048_S2048x128_S2000x128_1_0_0_1_n_n.lhsNonContracting by decide)]
  rfl
theorem s2_l1 (i : S2000x128.Idx) (q : dot_S2000x2048_S2048x128_S2000x128_1_0_0_1_n_n.contr.Idx) :
    (dot_S2000x2048_S2048x128_S2000x128_1_0_0_1_n_n.lhsIdx i q 1).val = (q ⟨0, by decide⟩).val :=
  dot_S2000x2048_S2048x128_S2000x128_1_0_0_1_n_n.lhsIdx_val_of_single rfl i q
theorem s2_r0 (i : S2000x128.Idx) (q : dot_S2000x2048_S2048x128_S2000x128_1_0_0_1_n_n.contr.Idx) :
    (dot_S2000x2048_S2048x128_S2000x128_1_0_0_1_n_n.rhsIdx i q 0).val = (q ⟨0, by decide⟩).val :=
  dot_S2000x2048_S2048x128_S2000x128_1_0_0_1_n_n.rhsIdx_val_of_single rfl i q
theorem s2_r1 (i : S2000x128.Idx) (q : dot_S2000x2048_S2048x128_S2000x128_1_0_0_1_n_n.contr.Idx) :
    (dot_S2000x2048_S2048x128_S2000x128_1_0_0_1_n_n.rhsIdx i q 1).val = (i 1).val := by
  unfold DotDims.rhsIdx
  rw [dif_neg (show ¬(1 : Fin S2048x128.rank) ∈ dot_S2000x2048_S2048x128_S2000x128_1_0_0_1_n_n.rhsBatch by decide), dif_pos (show (1 : Fin S2048x128.rank) ∈ dot_S2000x2048_S2048x128_S2000x128_1_0_0_1_n_n.rhsNonContracting by decide)]
  rfl

/-- The first store of a block's accumulator is zero everywhere (width 128). -/
theorem k2_pay1_apply (y : S2000x128.Idx) : k2_pay1 (F := Ideal) y = 0 := by
  unfold k2_pay1
  rw [shapeCast_self]
  exact Ideal.ofBits_zero_f32

/-- One accumulation step at width 128: the old entry plus the chunk's messages addressed to node `b · 2000 + r`. -/
theorem k2_pay2_apply (i : grid2.Coords) (v7 : Vec Ideal S1x2048 .i32) (v14 : Vec Ideal S2048x128 .f32)
    (v16 : Vec Ideal S2000x128 .f32) (r : Fin 2000) (f : Fin 128) :
    k2_pay2 (F := Ideal) i v7 v14 v16 (ix2 r f)
      = v16 (ix2 r f) + ∑ k : Fin 2048,
          (if v7 (ix2 (0 : Fin 1) k) = BitVec.ofNat 32 ((i 0).val * 2000 + r.val) then v14 (ix2 k f) else 0) := by
  unfold k2_pay2
  rw [shapeCast_self, shapeCast_self, shapeCast_self]
  refine (addf_apply _ _ _).trans ?_
  refine congrArg (v16 (ix2 r f) + ·) ?_
  refine (Cert.LibMatmulRows.matmul_zero_apply dot_S2000x2048_S2048x128_S2000x128_1_0_0_1_n_n rfl rfl
    s2_l0 s2_l1 s2_r0 s2_r1 (some .fp32) _ _ r f).trans ?_
  refine Finset.sum_congr rfl fun k _ => ?_
  refine (congrArg (· * v14 (ix2 k f)) (oneHot_apply (i 0).val v7 r k)).trans ?_
  by_cases h : v7 (ix2 (0 : Fin 1) k) = BitVec.ofNat 32 ((i 0).val * 2000 + r.val)
  · rw [if_pos h, if_pos h, one_mul]
  · rw [if_neg h, if_neg h, zero_mul]

/-! The coordinate facts of the dimension record `dot_S2000x2048_S2048x40_S2000x40_1_0_0_1_n_n`: the left operand is read at (row, contraction
    position), the right operand at (contraction position, column). -/
theorem s4_l0 (i : S2000x40.Idx) (q : dot_S2000x2048_S2048x40_S2000x40_1_0_0_1_n_n.contr.Idx) :
    (dot_S2000x2048_S2048x40_S2000x40_1_0_0_1_n_n.lhsIdx i q 0).val = (i 0).val := by
  unfold DotDims.lhsIdx
  rw [dif_neg (show ¬(0 : Fin S2000x2048.rank) ∈ dot_S2000x2048_S2048x40_S2000x40_1_0_0_1_n_n.lhsBatch by decide), dif_pos (show (0 : Fin S2000x2048.rank) ∈ dot_S2000x2048_S2048x40_S2000x40_1_0_0_1_n_n.lhsNonContracting by decide)]
  rfl
theorem s4_l1 (i : S2000x40.Idx) (q : dot_S2000x2048_S2048x40_S2000x40_1_0_0_1_n_n.contr.Idx) :
    (dot_S2000x2048_S2048x40_S2000x40_1_0_0_1_n_n.lhsIdx i q 1).val = (q ⟨0, by decide⟩).val :=
  dot_S2000x2048_S2048x40_S2000x40_1_0_0_1_n_n.lhsIdx_val_of_single rfl i q
theorem s4_r0 (i : S2000x40.Idx) (q : dot_S2000x2048_S2048x40_S2000x40_1_0_0_1_n_n.contr.Idx) :
    (dot_S2000x2048_S2048x40_S2000x40_1_0_0_1_n_n.rhsIdx i q 0).val = (q ⟨0, by decide⟩).val :=
  dot_S2000x2048_S2048x40_S2000x40_1_0_0_1_n_n.rhsIdx_val_of_single rfl i q
theorem s4_r1 (i : S2000x40.Idx) (q : dot_S2000x2048_S2048x40_S2000x40_1_0_0_1_n_n.contr.Idx) :
    (dot_S2000x2048_S2048x40_S2000x40_1_0_0_1_n_n.rhsIdx i q 1).val = (i 1).val := by
  unfold DotDims.rhsIdx
  rw [dif_neg (show ¬(1 : Fin S2048x40.rank) ∈ dot_S2000x2048_S2048x40_S2000x40_1_0_0_1_n_n.rhsBatch by decide), dif_pos (show (1 : Fin S2048x40.rank) ∈ dot_S2000x2048_S2048x40_S2000x40_1_0_0_1_n_n.rhsNonContracting by decide)]
  rfl

/-- The first store of a block's accumulator is zero everywhere (width 40). -/
theorem k4_pay1_apply (y : S2000x40.Idx) : k4_pay1 (F := Ideal) y = 0 := by
  unfold k4_pay1
  rw [shapeCast_self]
  exact Ideal.ofBits_zero_f32

/-- One accumulation step at width 40: the old entry plus the chunk's messages addressed to node `b · 2000 + r`. -/
theorem k4_pay2_apply (i : grid4.Coords) (v7 : Vec Ideal S1x2048 .i32) (v14 : Vec Ideal S2048x40 .f32)
    (v16 : Vec Ideal S2000x40 .f32) (r : Fin 2000) (f : Fin 40) :
    k4_pay2 (F := Ideal) i v7 v14 v16 (ix2 r f)
      = v16 (ix2 r f) + ∑ k : Fin 2048,
          (if v7 (ix2 (0 : Fin 1) k) = BitVec.ofNat 32 ((i 0).val * 2000 + r.val) then v14 (ix2 k f) else 0) := by
  unfold k4_pay2
  rw [shapeCast_self, shapeCast_self, shapeCast_self]
  refine (addf_apply _ _ _).trans ?_
  refine congrArg (v16 (ix2 r f) + ·) ?_
  refine (Cert.LibMatmulRows.matmul_zero_apply dot_S2000x2048_S2048x40_S2000x40_1_0_0_1_n_n rfl rfl
    s4_l0 s4_l1 s4_r0 s4_r1 (some .fp32) _ _ r f).trans ?_
  refine Finset.sum_congr rfl fun k _ => ?_
  refine (congrArg (· * v14 (ix2 k f)) (oneHot_apply (i 0).val v7 r k)).trans ?_
  by_cases h : v7 (ix2 (0 : Fin 1) k) = BitVec.ofNat 32 ((i 0).val * 2000 + r.val)
  · rw [if_pos h, if_pos h, one_mul]
  · rw [if_neg h, if_neg h, zero_mul]

end Cert.KernelIdeal.Pay

end
-- ==== Proof.LibBlockSum.lean ====
/-
  Sums over a merged contraction axis.

  A contraction over `n * d` consecutive indices, that is `n` blocks of length `d` laid side by side, is the
  sum, block by block, of the `n` contractions over `d`.  Blocks whose terms all vanish may be left out.  A
  left-to-right accumulation from a starting value is that value plus the sum of what was added.  All of it is
  stated over an arbitrary commutative additive monoid: only commutativity and associativity of `+` are used,
  never cancellation or distributivity, so every statement holds on the extended reals as it stands, with no
  finiteness hypothesis.
-/
import Mathlib.Algebra.BigOperators.Fin
import Mathlib.Data.Fintype.BigOperators
import Mathlib.Logic.Equiv.Fin.Basic

namespace Cert.BlockSum

open Finset

variable {M : Type*} [AddCommMonoid M]

/-- Entry `c` of block `t` on the merged axis sits at position `c + d * t`. -/
def merged {n d : ℕ} (t : Fin n) (c : Fin d) : Fin (n * d) := finProdFinEquiv (t, c)

@[simp] theorem merged_val {n d : ℕ} (t : Fin n) (c : Fin d) : ((merged t c : Fin (n * d)) : ℕ) = c.val + d * t.val := rfl

/-- The block a merged position lies in. -/
theorem merged_div {n d : ℕ} (t : Fin n) (c : Fin d) : ((merged t c : Fin (n * d)) : ℕ) / d = t.val := by
  have hd : 0 < d := Nat.pos_of_ne_zero fun h => by subst h; exact c.elim0
  rw [merged_val, Nat.add_mul_div_left _ _ hd, Nat.div_eq_of_lt c.isLt, Nat.zero_add]

/-- The place of a merged position inside its block. -/
theorem merged_mod {n d : ℕ} (t : Fin n) (c : Fin d) : ((merged t c : Fin (n * d)) : ℕ) % d = c.val := by
  rw [merged_val, Nat.add_mul_mod_self_left, Nat.mod_eq_of_lt c.isLt]

/-- A sum over the merged axis is the sum over the blocks of the sums inside each block. -/
theorem sum_merged {n d : ℕ} (f : Fin (n * d) → M) :
    ∑ k, f k = ∑ t : Fin n, ∑ c : Fin d, f (merged t c) := by
  rw [← Equiv.sum_comp finProdFinEquiv f, Fintype.sum_prod_type]
  rfl

/-- The same when the merged term is known block by block. -/
theorem sum_merged_of {n d : ℕ} (f : Fin (n * d) → M) (g : Fin n → Fin d → M)
    (h : ∀ t c, f (merged t c) = g t c) : ∑ k, f k = ∑ t, ∑ c, g t c := by
  rw [sum_merged]
  exact Finset.sum_congr rfl fun t _ => Finset.sum_congr rfl fun c _ => h t c

/-- Terms that vanish outside `p` may be left out of a sum. -/
theorem sum_drop_zero {ι : Type*} [Fintype ι] (F : ι → M) (p : ι → Prop) [DecidablePred p]
    (h : ∀ t, ¬ p t → F t = 0) : ∑ t, F t = ∑ t ∈ univ.filter p, F t := by
  rw [Finset.sum_filter]
  refine Finset.sum_congr rfl fun t _ => ?_
  split_ifs with hp
  · rfl
  · exact h t hp

/-- Adding the entries of a list one after the other onto `z` gives `z` plus their sum. -/
theorem foldl_add_list (l : List M) (z : M) : l.foldl (· + ·) z = z + l.sum := by
  induction l generalizing z with
  | nil => simp
  | cons a l ih => rw [List.foldl_cons, ih, List.sum_cons, add_assoc]

/-- Accumulating `a 0, a 1, …` in order onto `z` gives `z` plus the sum of the `a t`. -/
theorem foldl_add_ofFn {n : ℕ} (a : Fin n → M) (z : M) : (List.ofFn a).foldl (· + ·) z = z + ∑ t, a t := by
  rw [foldl_add_list, List.sum_ofFn]

/-- Nine contributions added one after the other onto zero. -/
theorem acc_nine (a : Fin 9 → M) :
    0 + a 0 + a 1 + a 2 + a 3 + a 4 + a 5 + a 6 + a 7 + a 8 = ∑ t, a t := by
  simp only [Fin.sum_univ_succ, Fin.sum_univ_zero, zero_add, add_zero]
  simp only [add_assoc]
  rfl

/-- Four contributions added one after the other onto zero. -/
theorem acc_four (a : Fin 4 → M) : 0 + a 0 + a 1 + a 2 + a 3 = ∑ t, a t := by
  simp only [Fin.sum_univ_succ, Fin.sum_univ_zero, zero_add, add_zero]
  simp only [add_assoc]
  rfl

end Cert.BlockSum
-- ==== Proof.ChunkSum.lean ====
/-
  Accumulating chunk sums, and regrouping a padded sum.

  * A value built by adding contributions `a 0, a 1, …` one after the other onto zero is the sum of the
    contributions added so far.
  * A sum over `n` consecutive chunks of length `d` of a term that vanishes from position `R` on is the sum
    over the first `R` positions.

  Everything is stated over an arbitrary commutative additive monoid: only commutativity and associativity of
  `+` and `0 + x = x` are used, so the statements hold on the extended reals as they stand.
-/
import Mathlib.Algebra.BigOperators.Fin
import Mathlib.Data.Fintype.BigOperators
import proofs.«147088_j4836133175935_1_alg».proof.Proof.LibBlockSum

namespace Cert.ChunkSum

open Finset Cert.BlockSum

variable {M : Type*} [AddCommMonoid M]

/-- `acc 0 = 0 + a 0` and `acc (e+1) = acc e + a (e+1)` (as long as `e + 1 < N`) give
    `acc n = a 0 + … + a n` for every `n < N`. -/
theorem acc_succ (a acc : ℕ → M) (N : ℕ) (h0 : acc 0 = 0 + a 0)
    (hs : ∀ e, e + 1 < N → acc (e + 1) = acc e + a (e + 1)) :
    ∀ n, n < N → acc n = ∑ e : Fin (n + 1), a e.val := by
  intro n
  induction n with
  | zero =>
    intro _
    rw [h0, zero_add]
    exact (Fin.sum_univ_one (fun e : Fin 1 => a e.val)).symm
  | succ n ih =>
    intro hn
    rw [hs n hn, ih (by omega)]
    exact (Fin.sum_univ_castSucc (fun e : Fin (n + 1 + 1) => a e.val)).symm

/-- The same with the step written backwards: `acc e = acc (e-1) + a e` for `0 < e < N`. -/
theorem acc_pred (a acc : ℕ → M) (N : ℕ) (h0 : acc 0 = 0 + a 0)
    (hs : ∀ e, 0 < e → e < N → acc e = acc (e - 1) + a e) :
    ∀ n, n < N → acc n = ∑ e : Fin (n + 1), a e.val :=
  acc_succ a acc N h0 fun e he => by
    have h := hs (e + 1) (by omega) he
    rwa [Nat.add_sub_cancel] at h

/-- The last accumulated value is the sum of all `N + 1` contributions (natural-number indices). -/
theorem acc_pred_last (a acc : ℕ → M) (N : ℕ) (h0 : acc 0 = 0 + a 0)
    (hs : ∀ e, 0 < e → e < N + 1 → acc e = acc (e - 1) + a e) :
    acc N = ∑ e : Fin (N + 1), a e.val :=
  acc_pred a acc (N + 1) h0 hs N (by omega)

/-- The same over `Fin (N + 1)`: the last accumulated value is the sum of all the contributions. -/
theorem acc_fin {N : ℕ} (a acc : Fin (N + 1) → M) (h0 : acc 0 = 0 + a 0)
    (hs : ∀ e : Fin (N + 1), ∀ h : 0 < e.val, acc e = acc ⟨e.val - 1, by omega⟩ + a e) :
    acc (Fin.last N) = ∑ e, a e := by
  have key := acc_pred_last (fun n => if h : n < N + 1 then a ⟨n, h⟩ else 0)
    (fun n => if h : n < N + 1 then acc ⟨n, h⟩ else 0) N
    (by
      rw [dif_pos (Nat.succ_pos N), dif_pos (Nat.succ_pos N)]
      exact h0)
    (fun e he heN => by
      rw [dif_pos heN, dif_pos (show e - 1 < N + 1 by omega), dif_pos heN]
      exact hs ⟨e, heN⟩ he)
  rw [dif_pos (Nat.lt_succ_self N)] at key
  refine key.trans (Finset.sum_congr rfl fun e _ => ?_)
  rw [dif_pos e.isLt]

/-- A term that vanishes from position `R` on: the sum over all `N` positions is the sum over the first `R`. -/
theorem sum_drop_tail {N R : ℕ} (hR : R ≤ N) (g : Fin N → M) (hz : ∀ r : Fin N, R ≤ r.val → g r = 0) :
    ∑ r : Fin N, g r = ∑ r : Fin R, g ⟨r.val, lt_of_lt_of_le r.isLt hR⟩ := by
  obtain ⟨t, rfl⟩ := Nat.exists_eq_add_of_le hR
  rw [Fin.sum_univ_add]
  have ht : ∑ i : Fin t, g (Fin.natAdd R i) = 0 :=
    Finset.sum_eq_zero fun i _ => hz _ (by simp)
  rw [ht, add_zero]
  rfl

/-- `n` chunks of length `d`, the term vanishing from position `R ≤ n * d` on: the chunk sums add up to the
    sum over the first `R` positions. -/
theorem sum_chunks {n d R : ℕ} (hR : R ≤ n * d) (g : Fin (n * d) → M)
    (hz : ∀ r : Fin (n * d), R ≤ r.val → g r = 0) :
    ∑ e : Fin n, ∑ k : Fin d, g (merged e k) = ∑ r : Fin R, g ⟨r.val, lt_of_lt_of_le r.isLt hR⟩ := by
  rw [← sum_merged]
  exact sum_drop_tail hR g hz

/-- The same for a term given on the natural numbers: chunk `e`'s entry `k` sits at position `k + d * e`. -/
theorem sum_chunks_nat {n d R : ℕ} (hR : R ≤ n * d) (G : ℕ → M)
    (hz : ∀ r, R ≤ r → r < n * d → G r = 0) :
    ∑ e : Fin n, ∑ k : Fin d, G (k.val + d * e.val) = ∑ r : Fin R, G r.val :=
  sum_chunks hR (fun r : Fin (n * d) => G r.val) fun r h => hz r.val h r.isLt

/-- 831 chunks of 2048 message rows, of which the first 1700000 are real and the rest contribute nothing. -/
theorem sum_chunks_831 (g : Fin (831 * 2048) → M) (hz : ∀ r : Fin (831 * 2048), 1700000 ≤ r.val → g r = 0) :
    ∑ e : Fin 831, ∑ k : Fin 2048, g (merged e k) = ∑ r : Fin 1700000, g ⟨r.val, by omega⟩ :=
  sum_chunks (n := 831) (d := 2048) (R := 1700000) (by decide) g hz

/-- The natural-number form of the same. -/
theorem sum_chunks_nat_831 (G : ℕ → M) (hz : ∀ r, 1700000 ≤ r → r < 1701888 → G r = 0) :
    ∑ e : Fin 831, ∑ k : Fin 2048, G (k.val + 2048 * e.val) = ∑ r : Fin 1700000, G r.val :=
  sum_chunks_nat (n := 831) (d := 2048) (R := 1700000) (by decide) G fun r h1 h2 => hz r h1 (by omega)

end Cert.ChunkSum
-- ==== Proof.Whole2.lean ====
/-
  From the written-back blocks to the array, for the segment-sum region at width 128.

  The grid has 50 node blocks of 2000 rows times 831 chunks of 2048 message rows, the chunk running fastest: point
  `t` is node block `t / 831`, chunk `t % 831`.  The message window reads chunk `t % 831` of the message rows, the
  destination window the same chunk of the destination ids, and the output window is node block `t / 831`, whose
  block index moves only after chunk 830: that is the one point of each node block where the output block is
  written back.  Over the 831 points of a node block the output's buffer holds first `0 + a₀`, then the previous
  contents plus `aₑ`, where `aₑ` is the sum of the message entries of chunk `e` addressed to the node; so after
  chunk 830 it holds `∑ₑ aₑ`, the node's whole segment sum, and the 50 written-back blocks tile the array.
-/
import proofs.«147088_j4836133175935_1_alg».proof.Proof.Scatter2Val
import proofs.«147088_j4836133175935_1_alg».proof.Proof.PayScatter
import proofs.«147088_j4836133175935_1_alg».proof.Proof.ChunkSum
import Idealize.ShloMosaic.Lib.Pipeline.Value

noncomputable section

open scoped BigOperators

namespace Cert.KernelIdeal.Whole

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Run Cert.KernelIdeal.Pay

/-- Position `k` of chunk `e` is message row `e · 2048 + k`, below 831 · 2048 = 1701888. -/
theorem pos_lt (e : Fin 831) (k : Fin 2048) : e.val * 2048 + k.val < 1701888 := by
  have := e.isLt; have := k.isLt; omega

/-- The segment sum: entry `(n, f)` is the sum, over the 831 chunks and the 2048 positions of each, of the message
    entries `msg[e · 2048 + k, f]` whose destination id is `n`. -/
def scat128 (msg : S1701888x128.Idx → EReal) (dst : S1x1701888.Idx → BitVec 32) : S100000x128.Idx → EReal :=
  fun i => ∑ e : Fin 831, ∑ j : Fin 2048,
    (if dst (ix2 (0 : Fin 1) ⟨e.val * 2048 + j.val, pos_lt e j⟩) = BitVec.ofNat 32 (i 0).val
      then msg (ix2 ⟨e.val * 2048 + j.val, pos_lt e j⟩ (i 1)) else 0)

variable (V : (c : Dev nD) → (b : Ref sig .tc) → Buf (Elt Ideal) ((c : Thread nD τ).loc b)) (c : Dev nD)

/-! ## The grid: point `t` is node block `t / 831`, chunk `t % 831` -/

theorem coords2_0 (t : Fin cfg2.N) : (grid2.coords t 0).val = t.val / 831 := by
  have hs : grid2.stride 0 = 831 := by decide
  have hN : cfg2.N = 41550 := N_2
  have := t.isLt
  show t.val / grid2.stride 0 % 50 = _
  rw [hs]; omega

theorem coords2_1 (t : Fin cfg2.N) : (grid2.coords t 1).val = t.val % 831 := by
  have hs : grid2.stride 1 = 1 := by decide
  show t.val / grid2.stride 1 % 831 = _
  rw [hs, Nat.div_one]

/-- The last chunk. -/
abbrev e830 : Fin 831 := ⟨830, by decide⟩

/-! ## The printed index maps at a point -/

theorem idx2_0 (t : Fin cfg2.N) : win2_0.index t 0 = t.val % 831 ∧ win2_0.index t 1 = 0 := by
  refine ⟨?_, rfl⟩
  show (BitVec.ofNat 32 (grid2.coords t 1).val).toNat = _
  rw [BitVec.toNat_ofNat, coords2_1]
  exact Nat.mod_eq_of_lt (by omega)

theorem idx2_1 (t : Fin cfg2.N) : win2_1.index t 0 = 0 ∧ win2_1.index t 1 = t.val % 831 := by
  refine ⟨rfl, ?_⟩
  show (BitVec.ofNat 32 (grid2.coords t 1).val).toNat = _
  rw [BitVec.toNat_ofNat, coords2_1]
  exact Nat.mod_eq_of_lt (by omega)

theorem idx2_2 (t : Fin cfg2.N) : win2_2.index t 0 = t.val / 831 ∧ win2_2.index t 1 = 0 := by
  refine ⟨?_, rfl⟩
  have hN : cfg2.N = 41550 := N_2
  have := t.isLt
  show (BitVec.ofNat 32 (grid2.coords t 0).val).toNat = _
  rw [BitVec.toNat_ofNat, coords2_0]
  exact Nat.mod_eq_of_lt (by omega)

/-! ## What the windows read at a point: chunk `t % 831` of the messages and of the destination ids -/

theorem msg_blk2 (t : Fin cfg2.N) (e : Fin 831) (he : t.val % 831 = e.val) (k : Fin 2048) (f : Fin 128) :
    iblk2 V c 0 t (ix2 k f) = V c main_v48 (ix2 ⟨e.val * 2048 + k.val, pos_lt e k⟩ f) := by
  unfold iblk2
  rw [View.read_apply]
  show V c main_v48 _ = V c main_v48 _
  congr 1
  funext a
  apply Fin.ext
  match a with
  | ⟨0, _⟩ => show win2_0.index t 0 * 2048 + 1 * k.val = e.val * 2048 + k.val; rw [(idx2_0 t).1, he]; omega
  | ⟨1, _⟩ => show win2_0.index t 1 * 128 + 1 * f.val = f.val; rw [(idx2_0 t).2]; omega

theorem ids_blk2 (t : Fin cfg2.N) (e : Fin 831) (he : t.val % 831 = e.val) (k : Fin 2048) :
    iblk2 V c 1 t (ix2 (0 : Fin 1) k) = V c main_v49 (ix2 (0 : Fin 1) ⟨e.val * 2048 + k.val, pos_lt e k⟩) := by
  unfold iblk2
  rw [View.read_apply]
  show V c main_v49 _ = V c main_v49 _
  congr 1
  funext a
  apply Fin.ext
  match a with
  | ⟨0, _⟩ => show win2_1.index t 0 * 1 + 1 * 0 = 0; rw [(idx2_1 t).1]
  | ⟨1, _⟩ => show win2_1.index t 1 * 2048 + 1 * k.val = e.val * 2048 + k.val; rw [(idx2_1 t).2, he]; omega

/-! ## The write-back points: the last chunk of each node block -/

/-- The output block index moves exactly after chunk 830: that is where the block is written back. -/
theorem flush2_out (t : Fin cfg2.N) : (cfg2.win 2).flush t = true ↔ t.val % 831 = 830 := by
  have hN : grid2.N = 41550 := N_2
  have hlt : t.val < grid2.N := t.isLt
  show win2_2.flush t = true ↔ _
  unfold Pipeline.Window.flush
  have hout : win2_2.isOut = true := rfl
  rw [hout, Bool.true_and, Bool.or_eq_true, decide_eq_true_eq, decide_eq_true_eq]
  constructor
  · rintro (h | ⟨h, hne⟩)
    · omega
    · by_contra hc
      refine hne (funext fun a => ?_)
      match a with
      | ⟨0, _⟩ =>
        show win2_2.index ⟨t.val + 1, h⟩ 0 = win2_2.index t 0
        rw [(idx2_2 ⟨t.val + 1, h⟩).1, (idx2_2 t).1]
        show (t.val + 1) / 831 = t.val / 831
        omega
      | ⟨1, _⟩ =>
        show win2_2.index ⟨t.val + 1, h⟩ 1 = win2_2.index t 1
        rw [(idx2_2 ⟨t.val + 1, h⟩).2, (idx2_2 t).2]
  · intro h830
    by_cases hl : t.val + 1 = grid2.N
    · exact Or.inl hl
    · have hlt' : t.val + 1 < grid2.N := by omega
      refine Or.inr ⟨hlt', fun heq => ?_⟩
      have h0 := congrFun heq 0
      rw [(idx2_2 ⟨t.val + 1, hlt'⟩).1, (idx2_2 t).1] at h0
      have h0' : (t.val + 1) / 831 = t.val / 831 := h0
      omega

/-! ## The accumulation over the 831 chunks of a node block -/

/-- Chunk `e`'s contribution to node `n`, feature `f`. -/
def chunkTerm128 (msg : S1701888x128.Idx → EReal) (dst : S1x1701888.Idx → BitVec 32) (n : ℕ) (f : Fin 128) (e : Fin 831) : EReal :=
  ∑ k : Fin 2048, (if dst (ix2 (0 : Fin 1) ⟨e.val * 2048 + k.val, pos_lt e k⟩) = BitVec.ofNat 32 n
    then msg (ix2 ⟨e.val * 2048 + k.val, pos_lt e k⟩ f) else 0)

theorem scat128_apply (msg : S1701888x128.Idx → EReal) (dst : S1x1701888.Idx → BitVec 32) (n : Fin 100000) (f : Fin 128) :
    scat128 msg dst (ix2 n f) = ∑ e : Fin 831, chunkTerm128 msg dst n.val f e := rfl

theorem pt_lt2 (b : Fin 50) (e : Fin 831) : b.val * 831 + e.val < cfg2.N := by
  have hN : grid2.N = 41550 := N_2
  show _ < grid2.N
  have := b.isLt; have := e.isLt; omega

theorem accAt2_congr (n n' : ℕ) (h : n = n') (hn : n < cfg2.N) (hn' : n' < cfg2.N) :
    accAt2 V c n hn = accAt2 V c n' hn' := by subst h; rfl

/-- What one step adds, over the blocks the two input windows read: when the destination-id block and the message
    block are chunk `e` and the node block is `b`, it is chunk `e`'s contribution to node `b · 2000 + r`. -/
theorem added2 (b : Fin 50) (e : Fin 831) (r : Fin 2000) (f : Fin 128) (g : ℕ) (hg : g = b.val)
    (ids : Vec Ideal S1x2048 .i32) (msgs : Vec Ideal S2048x128 .f32)
    (hids : ∀ k : Fin 2048, ids (ix2 (0 : Fin 1) k) = V c main_v49 (ix2 (0 : Fin 1) ⟨e.val * 2048 + k.val, pos_lt e k⟩))
    (hmsgs : ∀ k : Fin 2048, msgs (ix2 k f) = V c main_v48 (ix2 ⟨e.val * 2048 + k.val, pos_lt e k⟩ f)) :
    (∑ k : Fin 2048, (if ids (ix2 (0 : Fin 1) k) = BitVec.ofNat 32 (g * 2000 + r.val) then msgs (ix2 k f) else 0))
      = chunkTerm128 (V c main_v48) (V c main_v49) (b.val * 2000 + r.val) f e := by
  subst hg
  unfold chunkTerm128
  refine Finset.sum_congr rfl fun k _ => ?_
  rw [hids k, hmsgs k]

theorem pt_mod2 (b : Fin 50) (e : Fin 831) : (⟨b.val * 831 + e.val, pt_lt2 b e⟩ : Fin cfg2.N).val % 831 = e.val := by
  show (b.val * 831 + e.val) % 831 = e.val; have := e.isLt; omega

theorem pt_div2 (b : Fin 50) (e : Fin 831) : (grid2.coords ⟨b.val * 831 + e.val, pt_lt2 b e⟩ 0).val = b.val := by
  rw [coords2_0]; show (b.val * 831 + e.val) / 831 = b.val; have := e.isLt; omega

theorem step_first2 (b : Fin 50) (e : Fin 831) (he : e.val = 0) (r : Fin 2000) (f : Fin 128) :
    accAt2 V c (b.val * 831 + e.val) (pt_lt2 b e) (ix2 r f)
      = 0 + chunkTerm128 (V c main_v48) (V c main_v49) (b.val * 2000 + r.val) f e := by
  have h0 : (⟨b.val * 831 + e.val, pt_lt2 b e⟩ : Fin cfg2.N).val % 831 = 0 := by
    show (b.val * 831 + e.val) % 831 = 0; omega
  refine (congrFun (accAt2_first V c ⟨b.val * 831 + e.val, pt_lt2 b e⟩ h0) (ix2 r f)).trans ?_
  refine (k2_pay2_apply (grid2.coords ⟨b.val * 831 + e.val, pt_lt2 b e⟩)
    (iblk2 V c 1 ⟨b.val * 831 + e.val, pt_lt2 b e⟩) (iblk2 V c 0 ⟨b.val * 831 + e.val, pt_lt2 b e⟩)
    (k2_pay1 (F := Ideal)) r f).trans ?_
  refine congrArg₂ (· + ·) (k2_pay1_apply _) ?_
  exact added2 V c b e r f _ (pt_div2 b e) (iblk2 V c 1 ⟨b.val * 831 + e.val, pt_lt2 b e⟩)
    (iblk2 V c 0 ⟨b.val * 831 + e.val, pt_lt2 b e⟩)
    (fun k => ids_blk2 V c ⟨b.val * 831 + e.val, pt_lt2 b e⟩ e (pt_mod2 b e) k)
    (fun k => msg_blk2 V c ⟨b.val * 831 + e.val, pt_lt2 b e⟩ e (pt_mod2 b e) k f)

theorem step_next2 (b : Fin 50) (e : Fin 831) (he : 0 < e.val) (r : Fin 2000) (f : Fin 128) :
    accAt2 V c (b.val * 831 + e.val) (pt_lt2 b e) (ix2 r f)
      = accAt2 V c (b.val * 831 + (e.val - 1)) (pt_lt2 b ⟨e.val - 1, by omega⟩) (ix2 r f)
        + chunkTerm128 (V c main_v48) (V c main_v49) (b.val * 2000 + r.val) f e := by
  have h0 : (⟨b.val * 831 + e.val, pt_lt2 b e⟩ : Fin cfg2.N).val % 831 ≠ 0 := by
    show (b.val * 831 + e.val) % 831 ≠ 0; have := e.isLt; omega
  refine (congrFun (accAt2_next V c ⟨b.val * 831 + e.val, pt_lt2 b e⟩ h0) (ix2 r f)).trans ?_
  refine (k2_pay2_apply (grid2.coords ⟨b.val * 831 + e.val, pt_lt2 b e⟩)
    (iblk2 V c 1 ⟨b.val * 831 + e.val, pt_lt2 b e⟩) (iblk2 V c 0 ⟨b.val * 831 + e.val, pt_lt2 b e⟩)
    (accAt2 V c (b.val * 831 + e.val - 1) (Nat.lt_of_le_of_lt (Nat.sub_le _ _) (pt_lt2 b e))) r f).trans ?_
  refine congrArg₂ (· + ·) (congrFun (accAt2_congr V c _ _ (by omega) _ _) (ix2 r f)) ?_
  exact added2 V c b e r f _ (pt_div2 b e) (iblk2 V c 1 ⟨b.val * 831 + e.val, pt_lt2 b e⟩)
    (iblk2 V c 0 ⟨b.val * 831 + e.val, pt_lt2 b e⟩)
    (fun k => ids_blk2 V c ⟨b.val * 831 + e.val, pt_lt2 b e⟩ e (pt_mod2 b e) k)
    (fun k => msg_blk2 V c ⟨b.val * 831 + e.val, pt_lt2 b e⟩ e (pt_mod2 b e) k f)

/-- After the last chunk the accumulator of node block `b` holds the whole segment sum of its rows. -/
theorem acc_last2 (b : Fin 50) (r : Fin 2000) (f : Fin 128) :
    accAt2 V c (b.val * 831 + 830) (pt_lt2 b e830) (ix2 r f)
      = ∑ e : Fin 831, chunkTerm128 (V c main_v48) (V c main_v49) (b.val * 2000 + r.val) f e :=
  Cert.ChunkSum.acc_fin (N := 830) (fun e => chunkTerm128 (V c main_v48) (V c main_v49) (b.val * 2000 + r.val) f e)
    (fun e => accAt2 V c (b.val * 831 + e.val) (pt_lt2 b e) (ix2 r f))
    (step_first2 V c b 0 rfl r f)
    (fun e he => step_next2 V c b e he r f)

/-! ## From the written-back blocks to the array -/

/-- The point after the last chunk of node block `b`. -/
abbrev lastPt2 (b : Fin 50) : Fin cfg2.N := ⟨b.val * 831 + 830, pt_lt2 b e830⟩

/-- Row `r` of node block `b` is node `b · 2000 + r`. -/
theorem node_lt (b : Fin 50) (r : Fin 2000) : b.val * 2000 + r.val < 100000 := by
  have := b.isLt; have := r.isLt; omega

/-- Entry `(r, f)` of the output block at the last point of node block `b` is entry `(b · 2000 + r, f)` of the array. -/
theorem emb_last2 (b : Fin 50) (r : Fin 2000) (f : Fin 128) :
    ((cfg2.win 2).blk (lastPt2 b)).view.emb (ix2 r f) = ix2 (⟨b.val * 2000 + r.val, node_lt b r⟩ : Fin 100000) f := by
  funext a
  apply Fin.ext
  match a with
  | ⟨0, _⟩ =>
    show win2_2.index (lastPt2 b) 0 * 2000 + 1 * r.val = b.val * 2000 + r.val
    rw [(idx2_2 (lastPt2 b)).1]
    show (b.val * 831 + 830) / 831 * 2000 + 1 * r.val = _
    omega
  | ⟨1, _⟩ =>
    show win2_2.index (lastPt2 b) 1 * 128 + 1 * f.val = f.val
    rw [(idx2_2 (lastPt2 b)).2]; omega

/-- What the point after chunk 830 of node block `b` writes back is block `b` of the segment sum. -/
theorem flushed_last2 (b : Fin 50) :
    (dat2 V c).flushed 2 (lastPt2 b)
      = ((cfg2.win 2).blk (lastPt2 b)).view.read (Elt Ideal) (scat128 (V c main_v48) (V c main_v49)) := by
  show (cfg2.win 2).cut (grid2.coords (lastPt2 b)) ((dat2 V c).after 2 (lastPt2 b)) = _
  rw [after2_2]
  funext j
  obtain ⟨r, f, rfl⟩ : ∃ (r : Fin 2000) (f : Fin 128), j = ix2 r f := ⟨j 0, j 1, eq_ix2 j⟩
  rw [View.read_apply, emb_last2, scat128_apply]
  exact acc_last2 V c b r f

theorem flushed_eq2 (t : Fin cfg2.N) (hf : (cfg2.win 2).flush t = true) :
    (dat2 V c).flushed 2 t
      = ((cfg2.win 2).blk t).view.read (Elt Ideal) (scat128 (V c main_v48) (V c main_v49)) := by
  have h830 : t.val % 831 = 830 := (flush2_out t).mp hf
  have hlt : t.val < 41550 := lt_of_lt_of_eq t.isLt N_2
  have hb : t = lastPt2 ⟨t.val / 831, by omega⟩ := Fin.ext (by show t.val = t.val / 831 * 831 + 830; omega)
  rw [hb]
  exact flushed_last2 V c _

/-- Every node row lies in the block written back after the last chunk of its node block. -/
theorem cover2 (i : ((cfg2.win 2).arr.view.loc (c.tc : Thread nD τ)).2.ty.Idx) :
    ∃ t : Fin cfg2.N, (cfg2.win 2).flush t = true ∧ i ∈ ((cfg2.win 2).blk t).view.set := by
  have h0 : (i 0 : Nat) < 100000 := (i 0).isLt
  have h1 : (i 1 : Nat) < 128 := (i 1).isLt
  have hb : (i 0 : Nat) / 2000 < 50 := by omega
  refine ⟨lastPt2 ⟨(i 0 : Nat) / 2000, hb⟩,
    (flush2_out _).mpr (by show ((i 0 : Nat) / 2000 * 831 + 830) % 831 = 830; omega), ?_⟩
  show i ∈ ((View.whole main_v50).slice (win2_2.rect (lastPt2 ⟨(i 0 : Nat) / 2000, hb⟩))).set
  rw [View.set_slice_whole, Rect.mem_set_unit]
  intro a
  match a with
  | ⟨0, _⟩ =>
    show win2_2.index (lastPt2 ⟨(i 0 : Nat) / 2000, hb⟩) 0 * 2000 ≤ (i 0 : Nat)
      ∧ (i 0 : Nat) < win2_2.index (lastPt2 ⟨(i 0 : Nat) / 2000, hb⟩) 0 * 2000 + 2000
    rw [(idx2_2 _).1]
    show ((i 0 : Nat) / 2000 * 831 + 830) / 831 * 2000 ≤ (i 0 : Nat)
      ∧ (i 0 : Nat) < ((i 0 : Nat) / 2000 * 831 + 830) / 831 * 2000 + 2000
    omega
  | ⟨1, _⟩ =>
    show win2_2.index (lastPt2 ⟨(i 0 : Nat) / 2000, hb⟩) 1 * 128 ≤ (i 1 : Nat)
      ∧ (i 1 : Nat) < win2_2.index (lastPt2 ⟨(i 0 : Nat) / 2000, hb⟩) 1 * 128 + 128
    rw [(idx2_2 _).2]
    omega

/-- THE ARRAY after the region: the segment sum of the message rows by destination id. -/
theorem final2 : (dat2 V c).arrAt 2 cfg2.N = scat128 (V c main_v48) (V c main_v49) :=
  (dat2 V c).arrAt_eq_of_cover 2 (scat128 (V c main_v48) (V c main_v49)) (fun t hf => flushed_eq2 V c t hf)
    (fun i => cover2 c i)

end Cert.KernelIdeal.Whole

end
-- ==== Proof.Scatter4Val.lean ====
import proofs.«147088_j4836133175935_1_alg».proof.Proof.Scatter4
import proofs.«147088_j4836133175935_1_alg».proof.Proof.ScatterCov
import Idealize.ShloMosaic.Lib.Pipeline.Value

-- membership in a rectangle of long extents recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (the width-40 segment sum): what its accumulation IS

Each case's pieces read back are the body's payloads of the point's blocks: the one-hot product added onto zero when the
accumulator was zeroed (A), onto what the point before left otherwise (B); the output's buffer holds the same value. -/

/-- Case A leaves in the accumulator the one-hot product of the point's blocks added onto zero. -/
theorem sout4_A_eq (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : cond4_0 i)
    (x0 : Vec F S2048x40 .f32) (x1 : Vec F S1x2048 .i32) :
    sout4_A_0 c i arg2 harg2 arg3 harg3 arg4 harg4 arg5 harg5 hc0 x0 x1 = k4_pay2 i x1 x0 k4_pay1 := by
  unfold sout4_A_0
  rw [View.read_writes_eq_canon _ _ _ (scover4_A_0 c i arg2 harg2 arg3 harg3 arg4 harg4 arg5 harg5 hc0 x0 x1)]
  unfold kernelRun4_A
  dsimp only
  try sl_unfold_words
  rw [View.canon_cons_unit_zero hz00, View.readCov_unit_zero (S := S2000x40) _ hz00]
  simp only [View.readAt_eq_ld, harg2.read_unread, harg3.read_unread, View.ld_unit_zero (S := S1x2048) hz00, View.ld_unit_zero (S := S2048x40) hz00]

/-- and the same in the output's buffer: the accumulator read back after its last store. -/
theorem out4_A_eq (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : cond4_0 i)
    (x0 : Vec F S2048x40 .f32) (x1 : Vec F S1x2048 .i32) :
    out4_A_2 c i arg2 harg2 arg3 harg3 arg4 harg4 arg5 harg5 hc0 x0 x1 = k4_pay2 i x1 x0 k4_pay1 := by
  unfold out4_A_2
  rw [View.read_writes_eq_canon _ _ _ (cover4_A_2 c i arg2 harg2 arg3 harg3 arg4 harg4 arg5 harg5 hc0 x0 x1)]
  unfold kernelRun4_A
  dsimp only
  try sl_unfold_words
  rw [View.canon_unit_zero hz00, readCov_cons_unit_zero _ hz00, View.readCov_unit_zero (S := S2000x40) _ hz00]
  simp only [View.readAt_eq_ld, harg2.read_unread, harg3.read_unread, View.ld_unit_zero (S := S1x2048) hz00, View.ld_unit_zero (S := S2048x40) hz00]

/-- Case B leaves in the accumulator the one-hot product of the point's blocks added onto what it held. -/
theorem sout4_B_eq (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : ¬cond4_0 i)
    (x0 : Vec F S2048x40 .f32) (x1 : Vec F S1x2048 .i32) (xs0 : Vec F S2000x40 .f32) :
    sout4_B_0 c i arg2 harg2 arg3 harg3 arg4 harg4 arg5 harg5 hc0 x0 x1 xs0 = k4_pay2 i x1 x0 xs0 := by
  unfold sout4_B_0
  rw [View.read_writes_eq_canon _ _ _ (scover4_B_0 c i arg2 harg2 arg3 harg3 arg4 harg4 arg5 harg5 hc0 x0 x1 xs0)]
  unfold kernelRun4_B
  dsimp only
  try sl_unfold_words
  rw [View.canon_unit_zero hz00]
  simp only [View.readAt_eq_ld, harg2.read_unread, harg3.read_unread, harg5.read_unread, View.ld_unit_zero (S := S1x2048) hz00, View.ld_unit_zero (S := S2048x40) hz00, View.ld_unit_zero (S := S2000x40) hz00]

/-- and the same in the output's buffer. -/
theorem out4_B_eq (c : Dev nD) (i : grid4.Coords) (arg2 : Memref sig .tc .vmem S2048x40 .f32) (harg2 : arg2.IsWhole) (arg3 : Memref sig .tc .vmem S1x2048 .i32) (harg3 : arg3.IsWhole) (arg4 : Memref sig .tc .vmem S2000x40 .f32) (harg4 : arg4.IsWhole) (arg5 : Memref sig .tc .vmem S2000x40 .f32) (harg5 : arg5.IsWhole) (hc0 : ¬cond4_0 i)
    (x0 : Vec F S2048x40 .f32) (x1 : Vec F S1x2048 .i32) (xs0 : Vec F S2000x40 .f32) :
    out4_B_2 c i arg2 harg2 arg3 harg3 arg4 harg4 arg5 harg5 hc0 x0 x1 xs0 = k4_pay2 i x1 x0 xs0 := by
  unfold out4_B_2
  rw [View.read_writes_eq_canon _ _ _ (cover4_B_2 c i arg2 harg2 arg3 harg3 arg4 harg4 arg5 harg5 hc0 x0 x1 xs0)]
  unfold kernelRun4_B
  dsimp only
  try sl_unfold_words
  rw [View.canon_unit_zero hz00, View.readCov_unit_zero (S := S2000x40) _ hz00]
  simp only [View.readAt_eq_ld, harg2.read_unread, harg3.read_unread, harg5.read_unread, View.ld_unit_zero (S := S1x2048) hz00, View.ld_unit_zero (S := S2048x40) hz00, View.ld_unit_zero (S := S2000x40) hz00]

section Regions
-- the TensorCore's buffer contents when the region is entered
variable (V : (c : Dev nD) → (b : Ref sig .tc) → Buf (Elt F) ((c : Thread nD τ).loc b))

/-- After every point the output's buffer and the accumulator hold the same value. -/
theorem outsAt4_fst_eq_snd (c : Dev nD) (n : ℕ) (hn : n < cfg4.N) : (outsAt4 V c n hn).1 = (outsAt4 V c n hn).2 := by
  by_cases h0 : n % 831 = 0
  · rw [outsAt4_A V c ⟨n, hn⟩ h0]
    dsimp only
    exact (out4_A_eq c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) ((hcond4_0 ⟨n, hn⟩).mpr h0) (iblk4 V c 0 ⟨n, hn⟩) (iblk4 V c 1 ⟨n, hn⟩)).trans
      (sout4_A_eq c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) ((hcond4_0 ⟨n, hn⟩).mpr h0) (iblk4 V c 0 ⟨n, hn⟩) (iblk4 V c 1 ⟨n, hn⟩)).symm
  · rw [outsAt4_B V c ⟨n, hn⟩ h0]
    dsimp only
    exact (out4_B_eq c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) (fun h => h0 ((hcond4_0 ⟨n, hn⟩).mp h)) (iblk4 V c 0 ⟨n, hn⟩) (iblk4 V c 1 ⟨n, hn⟩) _).trans
      (sout4_B_eq c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) (fun h => h0 ((hcond4_0 ⟨n, hn⟩).mp h)) (iblk4 V c 0 ⟨n, hn⟩) (iblk4 V c 1 ⟨n, hn⟩) _).symm

/-- At the first point of a row of the grid the output's buffer holds the one-hot product of the point's blocks added
    onto zero. -/
theorem accAt4_first (c : Dev nD) (t : Fin cfg4.N) (h : t.val % 831 = 0) :
    accAt4 V c t.val t.isLt = k4_pay2 (grid4.coords t) (iblk4 V c 1 t) (iblk4 V c 0 t) k4_pay1 := by
  unfold accAt4
  rw [outsAt4_A V c t h]
  dsimp only
  exact out4_A_eq c (grid4.coords t) (ms4_0 t) (hs4_0 t) (ms4_1 t) (hs4_1 t) (ms4_2 t) (hs4_2 t) scM4_0 (Memref.isWhole_whole _) ((hcond4_0 t).mpr h) (iblk4 V c 0 t) (iblk4 V c 1 t)

/-- At every other point it holds that product added onto what it held after the point before. -/
theorem accAt4_next (c : Dev nD) (t : Fin cfg4.N) (h : t.val % 831 ≠ 0) :
    accAt4 V c t.val t.isLt = k4_pay2 (grid4.coords t) (iblk4 V c 1 t) (iblk4 V c 0 t) (accAt4 V c (t.val - 1) (Nat.lt_of_le_of_lt (Nat.sub_le _ _) t.isLt)) := by
  unfold accAt4
  rw [outsAt4_B V c t h]
  dsimp only
  rw [outsAt4_fst_eq_snd V c (t.val - 1) (Nat.lt_of_le_of_lt (Nat.sub_le _ _) t.isLt)]
  exact out4_B_eq c (grid4.coords t) (ms4_0 t) (hs4_0 t) (ms4_1 t) (hs4_1 t) (ms4_2 t) (hs4_2 t) scM4_0 (Memref.isWhole_whole _) (fun h' => h ((hcond4_0 t).mp h')) (iblk4 V c 0 t) (iblk4 V c 1 t) (outsAt4 V c (t.val - 1) (Nat.lt_of_le_of_lt (Nat.sub_le _ _) t.isLt)).2

end Regions

end Cert.KernelIdeal.Run

end
-- ==== Proof.Whole4.lean ====
/-
  From the written-back blocks to the array, for the segment-sum region at width 40.

  The grid has 50 node blocks of 2000 rows times 831 chunks of 2048 message rows, the chunk running fastest: point
  `t` is node block `t / 831`, chunk `t % 831`.  The message window reads chunk `t % 831` of the message rows, the
  destination window the same chunk of the destination ids, and the output window is node block `t / 831`, whose
  block index moves only after chunk 830: that is the one point of each node block where the output block is
  written back.  Over the 831 points of a node block the output's buffer holds first `0 + a₀`, then the previous
  contents plus `aₑ`, where `aₑ` is the sum of the message entries of chunk `e` addressed to the node; so after
  chunk 830 it holds `∑ₑ aₑ`, the node's whole segment sum, and the 50 written-back blocks tile the array.
-/
import proofs.«147088_j4836133175935_1_alg».proof.Proof.Scatter4Val
import proofs.«147088_j4836133175935_1_alg».proof.Proof.Whole2
import proofs.«147088_j4836133175935_1_alg».proof.Proof.PayScatter
import proofs.«147088_j4836133175935_1_alg».proof.Proof.ChunkSum
import Idealize.ShloMosaic.Lib.Pipeline.Value

noncomputable section

open scoped BigOperators

namespace Cert.KernelIdeal.Whole

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Run Cert.KernelIdeal.Pay

/-- The segment sum: entry `(n, f)` is the sum, over the 831 chunks and the 2048 positions of each, of the message
    entries `msg[e · 2048 + k, f]` whose destination id is `n`. -/
def scat40 (msg : S1701888x40.Idx → EReal) (dst : S1x1701888.Idx → BitVec 32) : S100000x40.Idx → EReal :=
  fun i => ∑ e : Fin 831, ∑ j : Fin 2048,
    (if dst (ix2 (0 : Fin 1) ⟨e.val * 2048 + j.val, pos_lt e j⟩) = BitVec.ofNat 32 (i 0).val
      then msg (ix2 ⟨e.val * 2048 + j.val, pos_lt e j⟩ (i 1)) else 0)

variable (V : (c : Dev nD) → (b : Ref sig .tc) → Buf (Elt Ideal) ((c : Thread nD τ).loc b)) (c : Dev nD)

/-! ## The grid: point `t` is node block `t / 831`, chunk `t % 831` -/

theorem coords4_0 (t : Fin cfg4.N) : (grid4.coords t 0).val = t.val / 831 := by
  have hs : grid4.stride 0 = 831 := by decide
  have hN : cfg4.N = 41550 := N_4
  have := t.isLt
  show t.val / grid4.stride 0 % 50 = _
  rw [hs]; omega

theorem coords4_1 (t : Fin cfg4.N) : (grid4.coords t 1).val = t.val % 831 := by
  have hs : grid4.stride 1 = 1 := by decide
  show t.val / grid4.stride 1 % 831 = _
  rw [hs, Nat.div_one]

/-! ## The printed index maps at a point -/

theorem idx4_0 (t : Fin cfg4.N) : win4_0.index t 0 = t.val % 831 ∧ win4_0.index t 1 = 0 := by
  refine ⟨?_, rfl⟩
  show (BitVec.ofNat 32 (grid4.coords t 1).val).toNat = _
  rw [BitVec.toNat_ofNat, coords4_1]
  exact Nat.mod_eq_of_lt (by omega)

theorem idx4_1 (t : Fin cfg4.N) : win4_1.index t 0 = 0 ∧ win4_1.index t 1 = t.val % 831 := by
  refine ⟨rfl, ?_⟩
  show (BitVec.ofNat 32 (grid4.coords t 1).val).toNat = _
  rw [BitVec.toNat_ofNat, coords4_1]
  exact Nat.mod_eq_of_lt (by omega)

theorem idx4_2 (t : Fin cfg4.N) : win4_2.index t 0 = t.val / 831 ∧ win4_2.index t 1 = 0 := by
  refine ⟨?_, rfl⟩
  have hN : cfg4.N = 41550 := N_4
  have := t.isLt
  show (BitVec.ofNat 32 (grid4.coords t 0).val).toNat = _
  rw [BitVec.toNat_ofNat, coords4_0]
  exact Nat.mod_eq_of_lt (by omega)

/-! ## What the windows read at a point: chunk `t % 831` of the messages and of the destination ids -/

theorem msg_blk4 (t : Fin cfg4.N) (e : Fin 831) (he : t.val % 831 = e.val) (k : Fin 2048) (f : Fin 40) :
    iblk4 V c 0 t (ix2 k f) = V c main_v69 (ix2 ⟨e.val * 2048 + k.val, pos_lt e k⟩ f) := by
  unfold iblk4
  rw [View.read_apply]
  show V c main_v69 _ = V c main_v69 _
  congr 1
  funext a
  apply Fin.ext
  match a with
  | ⟨0, _⟩ => show win4_0.index t 0 * 2048 + 1 * k.val = e.val * 2048 + k.val; rw [(idx4_0 t).1, he]; omega
  | ⟨1, _⟩ => show win4_0.index t 1 * 40 + 1 * f.val = f.val; rw [(idx4_0 t).2]; omega

theorem ids_blk4 (t : Fin cfg4.N) (e : Fin 831) (he : t.val % 831 = e.val) (k : Fin 2048) :
    iblk4 V c 1 t (ix2 (0 : Fin 1) k) = V c main_v70 (ix2 (0 : Fin 1) ⟨e.val * 2048 + k.val, pos_lt e k⟩) := by
  unfold iblk4
  rw [View.read_apply]
  show V c main_v70 _ = V c main_v70 _
  congr 1
  funext a
  apply Fin.ext
  match a with
  | ⟨0, _⟩ => show win4_1.index t 0 * 1 + 1 * 0 = 0; rw [(idx4_1 t).1]
  | ⟨1, _⟩ => show win4_1.index t 1 * 2048 + 1 * k.val = e.val * 2048 + k.val; rw [(idx4_1 t).2, he]; omega

/-! ## The write-back points: the last chunk of each node block -/

/-- The output block index moves exactly after chunk 830: that is where the block is written back. -/
theorem flush4_out (t : Fin cfg4.N) : (cfg4.win 2).flush t = true ↔ t.val % 831 = 830 := by
  have hN : grid4.N = 41550 := N_4
  have hlt : t.val < grid4.N := t.isLt
  show win4_2.flush t = true ↔ _
  unfold Pipeline.Window.flush
  have hout : win4_2.isOut = true := rfl
  rw [hout, Bool.true_and, Bool.or_eq_true, decide_eq_true_eq, decide_eq_true_eq]
  constructor
  · rintro (h | ⟨h, hne⟩)
    · omega
    · by_contra hc
      refine hne (funext fun a => ?_)
      match a with
      | ⟨0, _⟩ =>
        show win4_2.index ⟨t.val + 1, h⟩ 0 = win4_2.index t 0
        rw [(idx4_2 ⟨t.val + 1, h⟩).1, (idx4_2 t).1]
        show (t.val + 1) / 831 = t.val / 831
        omega
      | ⟨1, _⟩ =>
        show win4_2.index ⟨t.val + 1, h⟩ 1 = win4_2.index t 1
        rw [(idx4_2 ⟨t.val + 1, h⟩).2, (idx4_2 t).2]
  · intro h830
    by_cases hl : t.val + 1 = grid4.N
    · exact Or.inl hl
    · have hlt' : t.val + 1 < grid4.N := by omega
      refine Or.inr ⟨hlt', fun heq => ?_⟩
      have h0 := congrFun heq 0
      rw [(idx4_2 ⟨t.val + 1, hlt'⟩).1, (idx4_2 t).1] at h0
      have h0' : (t.val + 1) / 831 = t.val / 831 := h0
      omega

/-! ## The accumulation over the 831 chunks of a node block -/

/-- Chunk `e`'s contribution to node `n`, feature `f`. -/
def chunkTerm40 (msg : S1701888x40.Idx → EReal) (dst : S1x1701888.Idx → BitVec 32) (n : ℕ) (f : Fin 40) (e : Fin 831) : EReal :=
  ∑ k : Fin 2048, (if dst (ix2 (0 : Fin 1) ⟨e.val * 2048 + k.val, pos_lt e k⟩) = BitVec.ofNat 32 n
    then msg (ix2 ⟨e.val * 2048 + k.val, pos_lt e k⟩ f) else 0)

theorem scat40_apply (msg : S1701888x40.Idx → EReal) (dst : S1x1701888.Idx → BitVec 32) (n : Fin 100000) (f : Fin 40) :
    scat40 msg dst (ix2 n f) = ∑ e : Fin 831, chunkTerm40 msg dst n.val f e := rfl

theorem pt_lt4 (b : Fin 50) (e : Fin 831) : b.val * 831 + e.val < cfg4.N := by
  have hN : grid4.N = 41550 := N_4
  show _ < grid4.N
  have := b.isLt; have := e.isLt; omega

theorem accAt4_congr (n n' : ℕ) (h : n = n') (hn : n < cfg4.N) (hn' : n' < cfg4.N) :
    accAt4 V c n hn = accAt4 V c n' hn' := by subst h; rfl

/-- What one step adds, over the blocks the two input windows read: when the destination-id block and the message
    block are chunk `e` and the node block is `b`, it is chunk `e`'s contribution to node `b · 2000 + r`. -/
theorem added4 (b : Fin 50) (e : Fin 831) (r : Fin 2000) (f : Fin 40) (g : ℕ) (hg : g = b.val)
    (ids : Vec Ideal S1x2048 .i32) (msgs : Vec Ideal S2048x40 .f32)
    (hids : ∀ k : Fin 2048, ids (ix2 (0 : Fin 1) k) = V c main_v70 (ix2 (0 : Fin 1) ⟨e.val * 2048 + k.val, pos_lt e k⟩))
    (hmsgs : ∀ k : Fin 2048, msgs (ix2 k f) = V c main_v69 (ix2 ⟨e.val * 2048 + k.val, pos_lt e k⟩ f)) :
    (∑ k : Fin 2048, (if ids (ix2 (0 : Fin 1) k) = BitVec.ofNat 32 (g * 2000 + r.val) then msgs (ix2 k f) else 0))
      = chunkTerm40 (V c main_v69) (V c main_v70) (b.val * 2000 + r.val) f e := by
  subst hg
  unfold chunkTerm40
  refine Finset.sum_congr rfl fun k _ => ?_
  rw [hids k, hmsgs k]

theorem pt_mod4 (b : Fin 50) (e : Fin 831) : (⟨b.val * 831 + e.val, pt_lt4 b e⟩ : Fin cfg4.N).val % 831 = e.val := by
  show (b.val * 831 + e.val) % 831 = e.val; have := e.isLt; omega

theorem pt_div4 (b : Fin 50) (e : Fin 831) : (grid4.coords ⟨b.val * 831 + e.val, pt_lt4 b e⟩ 0).val = b.val := by
  rw [coords4_0]; show (b.val * 831 + e.val) / 831 = b.val; have := e.isLt; omega

theorem step_first4 (b : Fin 50) (e : Fin 831) (he : e.val = 0) (r : Fin 2000) (f : Fin 40) :
    accAt4 V c (b.val * 831 + e.val) (pt_lt4 b e) (ix2 r f)
      = 0 + chunkTerm40 (V c main_v69) (V c main_v70) (b.val * 2000 + r.val) f e := by
  have h0 : (⟨b.val * 831 + e.val, pt_lt4 b e⟩ : Fin cfg4.N).val % 831 = 0 := by
    show (b.val * 831 + e.val) % 831 = 0; omega
  refine (congrFun (accAt4_first V c ⟨b.val * 831 + e.val, pt_lt4 b e⟩ h0) (ix2 r f)).trans ?_
  refine (k4_pay2_apply (grid4.coords ⟨b.val * 831 + e.val, pt_lt4 b e⟩)
    (iblk4 V c 1 ⟨b.val * 831 + e.val, pt_lt4 b e⟩) (iblk4 V c 0 ⟨b.val * 831 + e.val, pt_lt4 b e⟩)
    (k4_pay1 (F := Ideal)) r f).trans ?_
  refine congrArg₂ (· + ·) (k4_pay1_apply _) ?_
  exact added4 V c b e r f _ (pt_div4 b e) (iblk4 V c 1 ⟨b.val * 831 + e.val, pt_lt4 b e⟩)
    (iblk4 V c 0 ⟨b.val * 831 + e.val, pt_lt4 b e⟩)
    (fun k => ids_blk4 V c ⟨b.val * 831 + e.val, pt_lt4 b e⟩ e (pt_mod4 b e) k)
    (fun k => msg_blk4 V c ⟨b.val * 831 + e.val, pt_lt4 b e⟩ e (pt_mod4 b e) k f)

theorem step_next4 (b : Fin 50) (e : Fin 831) (he : 0 < e.val) (r : Fin 2000) (f : Fin 40) :
    accAt4 V c (b.val * 831 + e.val) (pt_lt4 b e) (ix2 r f)
      = accAt4 V c (b.val * 831 + (e.val - 1)) (pt_lt4 b ⟨e.val - 1, by omega⟩) (ix2 r f)
        + chunkTerm40 (V c main_v69) (V c main_v70) (b.val * 2000 + r.val) f e := by
  have h0 : (⟨b.val * 831 + e.val, pt_lt4 b e⟩ : Fin cfg4.N).val % 831 ≠ 0 := by
    show (b.val * 831 + e.val) % 831 ≠ 0; have := e.isLt; omega
  refine (congrFun (accAt4_next V c ⟨b.val * 831 + e.val, pt_lt4 b e⟩ h0) (ix2 r f)).trans ?_
  refine (k4_pay2_apply (grid4.coords ⟨b.val * 831 + e.val, pt_lt4 b e⟩)
    (iblk4 V c 1 ⟨b.val * 831 + e.val, pt_lt4 b e⟩) (iblk4 V c 0 ⟨b.val * 831 + e.val, pt_lt4 b e⟩)
    (accAt4 V c (b.val * 831 + e.val - 1) (Nat.lt_of_le_of_lt (Nat.sub_le _ _) (pt_lt4 b e))) r f).trans ?_
  refine congrArg₂ (· + ·) (congrFun (accAt4_congr V c _ _ (by omega) _ _) (ix2 r f)) ?_
  exact added4 V c b e r f _ (pt_div4 b e) (iblk4 V c 1 ⟨b.val * 831 + e.val, pt_lt4 b e⟩)
    (iblk4 V c 0 ⟨b.val * 831 + e.val, pt_lt4 b e⟩)
    (fun k => ids_blk4 V c ⟨b.val * 831 + e.val, pt_lt4 b e⟩ e (pt_mod4 b e) k)
    (fun k => msg_blk4 V c ⟨b.val * 831 + e.val, pt_lt4 b e⟩ e (pt_mod4 b e) k f)

/-- After the last chunk the accumulator of node block `b` holds the whole segment sum of its rows. -/
theorem acc_last4 (b : Fin 50) (r : Fin 2000) (f : Fin 40) :
    accAt4 V c (b.val * 831 + 830) (pt_lt4 b e830) (ix2 r f)
      = ∑ e : Fin 831, chunkTerm40 (V c main_v69) (V c main_v70) (b.val * 2000 + r.val) f e :=
  Cert.ChunkSum.acc_fin (N := 830) (fun e => chunkTerm40 (V c main_v69) (V c main_v70) (b.val * 2000 + r.val) f e)
    (fun e => accAt4 V c (b.val * 831 + e.val) (pt_lt4 b e) (ix2 r f))
    (step_first4 V c b 0 rfl r f)
    (fun e he => step_next4 V c b e he r f)

/-! ## From the written-back blocks to the array -/

/-- The point after the last chunk of node block `b`. -/
abbrev lastPt4 (b : Fin 50) : Fin cfg4.N := ⟨b.val * 831 + 830, pt_lt4 b e830⟩

/-- Entry `(r, f)` of the output block at the last point of node block `b` is entry `(b · 2000 + r, f)` of the array. -/
theorem emb_last4 (b : Fin 50) (r : Fin 2000) (f : Fin 40) :
    ((cfg4.win 2).blk (lastPt4 b)).view.emb (ix2 r f) = ix2 (⟨b.val * 2000 + r.val, node_lt b r⟩ : Fin 100000) f := by
  funext a
  apply Fin.ext
  match a with
  | ⟨0, _⟩ =>
    show win4_2.index (lastPt4 b) 0 * 2000 + 1 * r.val = b.val * 2000 + r.val
    rw [(idx4_2 (lastPt4 b)).1]
    show (b.val * 831 + 830) / 831 * 2000 + 1 * r.val = _
    omega
  | ⟨1, _⟩ =>
    show win4_2.index (lastPt4 b) 1 * 40 + 1 * f.val = f.val
    rw [(idx4_2 (lastPt4 b)).2]; omega

/-- What the point after chunk 830 of node block `b` writes back is block `b` of the segment sum. -/
theorem flushed_last4 (b : Fin 50) :
    (dat4 V c).flushed 2 (lastPt4 b)
      = ((cfg4.win 2).blk (lastPt4 b)).view.read (Elt Ideal) (scat40 (V c main_v69) (V c main_v70)) := by
  show (cfg4.win 2).cut (grid4.coords (lastPt4 b)) ((dat4 V c).after 2 (lastPt4 b)) = _
  rw [after4_2]
  funext j
  obtain ⟨r, f, rfl⟩ : ∃ (r : Fin 2000) (f : Fin 40), j = ix2 r f := ⟨j 0, j 1, eq_ix2 j⟩
  rw [View.read_apply, emb_last4, scat40_apply]
  exact acc_last4 V c b r f

theorem flushed_eq4 (t : Fin cfg4.N) (hf : (cfg4.win 2).flush t = true) :
    (dat4 V c).flushed 2 t
      = ((cfg4.win 2).blk t).view.read (Elt Ideal) (scat40 (V c main_v69) (V c main_v70)) := by
  have h830 : t.val % 831 = 830 := (flush4_out t).mp hf
  have hlt : t.val < 41550 := lt_of_lt_of_eq t.isLt N_4
  have hb : t = lastPt4 ⟨t.val / 831, by omega⟩ := Fin.ext (by show t.val = t.val / 831 * 831 + 830; omega)
  rw [hb]
  exact flushed_last4 V c _

/-- Every node row lies in the block written back after the last chunk of its node block. -/
theorem cover4 (i : ((cfg4.win 2).arr.view.loc (c.tc : Thread nD τ)).2.ty.Idx) :
    ∃ t : Fin cfg4.N, (cfg4.win 2).flush t = true ∧ i ∈ ((cfg4.win 2).blk t).view.set := by
  have h0 : (i 0 : Nat) < 100000 := (i 0).isLt
  have h1 : (i 1 : Nat) < 40 := (i 1).isLt
  have hb : (i 0 : Nat) / 2000 < 50 := by omega
  refine ⟨lastPt4 ⟨(i 0 : Nat) / 2000, hb⟩,
    (flush4_out _).mpr (by show ((i 0 : Nat) / 2000 * 831 + 830) % 831 = 830; omega), ?_⟩
  show i ∈ ((View.whole main_v71).slice (win4_2.rect (lastPt4 ⟨(i 0 : Nat) / 2000, hb⟩))).set
  rw [View.set_slice_whole, Rect.mem_set_unit]
  intro a
  match a with
  | ⟨0, _⟩ =>
    show win4_2.index (lastPt4 ⟨(i 0 : Nat) / 2000, hb⟩) 0 * 2000 ≤ (i 0 : Nat)
      ∧ (i 0 : Nat) < win4_2.index (lastPt4 ⟨(i 0 : Nat) / 2000, hb⟩) 0 * 2000 + 2000
    rw [(idx4_2 _).1]
    show ((i 0 : Nat) / 2000 * 831 + 830) / 831 * 2000 ≤ (i 0 : Nat)
      ∧ (i 0 : Nat) < ((i 0 : Nat) / 2000 * 831 + 830) / 831 * 2000 + 2000
    omega
  | ⟨1, _⟩ =>
    show win4_2.index (lastPt4 ⟨(i 0 : Nat) / 2000, hb⟩) 1 * 40 ≤ (i 1 : Nat)
      ∧ (i 1 : Nat) < win4_2.index (lastPt4 ⟨(i 0 : Nat) / 2000, hb⟩) 1 * 40 + 40
    rw [(idx4_2 _).2]
    omega

/-- THE ARRAY after the region: the segment sum of the message rows by destination id. -/
theorem final4 : (dat4 V c).arrAt 2 cfg4.N = scat40 (V c main_v69) (V c main_v70) :=
  (dat4 V c).arrAt_eq_of_cover 2 (scat40 (V c main_v69) (V c main_v70)) (fun t hf => flushed_eq4 V c t hf)
    (fun i => cover4 c i)

end Cert.KernelIdeal.Whole

end
-- ==== Proof.LibScatterRows.lean ====
/-
  A scatter of whole rows, read through its target.

  `stablehlo.scatter` with one scatter index per update row, the row axis inserted and the column axis a window,
  adds row `e` of the updates onto the operand's row whose number is the scatter index `idx[e, 0]`, read as a signed
  integer and NOT clamped: an update whose row number falls outside the operand is dropped.  Hence every update
  entry that lands on operand row `n` has `idx[e, 0] = n` as an integer.
-/
import Idealize.ShloMosaic.Lib.ValueIdx
import Idealize.ShloMosaic.PureOps.Ideal

noncomputable section

namespace Cert.ScatterRows

open Idealize.ShloMosaic Idealize.ShloMosaic.ValueIdx

/-- The dimension numbers of a scatter of whole rows onto an N×C operand, one scatter index per update row. -/
def rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the row axis the window starts at the update row's scatter index, read signed. -/
theorem start_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowDims N R C wf).start j idx (0 : Fin 2) = (idx (ix2 (j 0) (0 : Fin 1))).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The row axis is inserted: the window adds nothing on it. -/
theorem window_row {N R C : Nat} (wf : ScatterDims.WF ⟨2, ![N, C]⟩ ⟨2, ![R, 1]⟩ ⟨2, ![R, C]⟩ [1] [0] [0] 1)
    (j : (⟨2, ![R, C]⟩ : Shape).Idx) : (rowDims N R C wf).window j (0 : Fin 2) = 0 := by
  unfold ScatterDims.window
  rw [dif_neg]
  intro h
  have : (0 : Fin 2) ∉ (rowDims N R C wf).insertedWindowDims := by
    simpa [ScatterDims.sKept, Shape.kept, List.mem_filter, List.mem_finRange] using h
  exact this (List.mem_singleton.mpr rfl)

/-- An update entry that lands on operand row `i 0` has that row number as its scatter index. -/
theorem target_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowDims N R C wf).resultIdx? j idx = some i) :
    (idx (ix2 (j 0) (0 : Fin 1))).toInt = ((i 0).val : Int) := by
  unfold ScatterDims.resultIdx? at h
  split at h
  · rename_i hall
    have hi := Option.some.inj h
    have h0 := (hall 0).1
    have hv : (i 0).val = ((rowDims N R C wf).start j idx 0 + ((rowDims N R C wf).window j 0 : Int)).toNat := by
      rw [← hi]
    rw [start_row, window_row] at hv h0
    omega
  · exact absurd h (by simp)

end Cert.ScatterRows

end
-- ==== Proof.LibScatterSum.lean ====
/-
  A scatter-add read at an entry, at the exact values.

  A `stablehlo.scatter` with an `add` body and one scatter index per update row adds update row `e` onto the operand's
  row whose number is the scatter index `idx[e, 0]`, read as a signed integer and not clamped; an update whose row
  number falls outside the operand is dropped.  Over the extended reals the result's entry `(p, k)` is therefore the
  operand's entry plus the sum, over the update rows `e` whose scatter index is `p`, of the update's entry `(e, k)`.
  The same holds for a scatter of single entries onto a vector.
-/
import Idealize.ShloMosaic.Lib.ValueIdx
import Idealize.ShloMosaic.PureOps.Ideal
import proofs.«147088_j4836133175935_1_alg».proof.Proof.LibScatterRows

noncomputable section

namespace Cert.ScatterSum

open Idealize.ShloMosaic Idealize.ShloMosaic.ValueIdx Cert.ScatterRows

/-! ## Whole rows onto an N×C operand -/

/-- The column axis carries no scatter index: the window starts at column zero. -/
theorem start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowDims N R C wf).start j idx (1 : Fin 2) = 0 := by
  unfold ScatterDims.start
  rw [dif_neg]
  intro h
  exact Nat.one_ne_zero (congrArg Fin.val (List.mem_singleton.mp h))

/-- The column axis is the window axis: the window coordinate is the update's own column. -/
theorem window_col {N R C : Nat} (wf : ScatterDims.WF ⟨2, ![N, C]⟩ ⟨2, ![R, 1]⟩ ⟨2, ![R, C]⟩ [1] [0] [0] 1)
    (j : (⟨2, ![R, C]⟩ : Shape).Idx) : (rowDims N R C wf).window j (1 : Fin 2) = (j 1).val := by
  unfold ScatterDims.window
  rw [dif_pos (show (1 : Fin 2) ∈ (rowDims N R C wf).sKept by
    simp [ScatterDims.sKept, Shape.kept, List.mem_filter, List.mem_finRange, rowDims])]
  rfl

/-- An update entry lands on operand entry `i` exactly when its row's scatter index is `i`'s row and its column is
    `i`'s column. -/
theorem lands_iff {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx) :
    (rowDims N R C wf).resultIdx? j idx = some i ↔
      ((idx (ix2 (j 0) (0 : Fin 1))).toInt = ((i 0).val : Int) ∧ (j 1).val = (i 1).val) := by
  have hi0 : (i 0).val < N := (i 0).isLt
  have hi1 : (i 1).val < C := (i 1).isLt
  have hj1 : (j 1).val < C := (j 1).isLt
  unfold ScatterDims.resultIdx?
  constructor
  · intro h
    split at h
    · rename_i hall
      have hi := Option.some.inj h
      have h0 := (hall 0).1
      have h1 := (hall 1).1
      have e0 : (i 0).val = ((rowDims N R C wf).start j idx 0 + ((rowDims N R C wf).window j 0 : Int)).toNat := by
        rw [← hi]
      have e1 : (i 1).val = ((rowDims N R C wf).start j idx 1 + ((rowDims N R C wf).window j 1 : Int)).toNat := by
        rw [← hi]
      rw [start_row, window_row] at e0 h0
      rw [start_col, window_col] at e1 h1
      constructor <;> omega
    · exact absurd h (by simp)
  · rintro ⟨h0, h1⟩
    have hall : ∀ a, 0 ≤ (rowDims N R C wf).start j idx a + ((rowDims N R C wf).window j a : Int)
        ∧ (rowDims N R C wf).start j idx a + ((rowDims N R C wf).window j a : Int) < ((⟨2, ![N, C]⟩ : Shape).size a : Int) := by
      refine Fin.forall_fin_two.mpr ⟨?_, ?_⟩
      · rw [start_row, window_row]
        show _ ∧ _ < ((N : Nat) : Int)
        omega
      · rw [start_col, window_col]
        show _ ∧ _ < ((C : Nat) : Int)
        omega
    rw [dif_pos hall]
    congr 1
    funext a
    refine Fin.ext ?_
    revert a
    refine Fin.forall_fin_two.mpr ⟨?_, ?_⟩
    · show ((rowDims N R C wf).start j idx 0 + ((rowDims N R C wf).window j 0 : Int)).toNat = (i 0).val
      rw [start_row, window_row]; omega
    · show ((rowDims N R C wf).start j idx 1 + ((rowDims N R C wf).window j 1 : Int)).toNat = (i 1).val
      rw [start_col, window_col]; omega

/-- Entry `(p, k)` of a scatter-add of whole rows: the operand's entry plus the sum over the update rows whose
    scatter index is `p` of their entries in column `k`. -/
theorem scatterAdd_rows_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (p : Fin N) (k : Fin C) :
    Ideal.hostScatterAdd (rowDims N R C wf) x idx upd (ix2 p k)
      = x (ix2 p k) + ∑ e : Fin R, if (idx (ix2 e (0 : Fin 1))).toInt = (p.val : Int) then upd (ix2 e k) else 0 := by
  unfold Ideal.hostScatterAdd
  congr 1
  rw [Finset.sum_filter, sum_idx2]
  refine Finset.sum_congr rfl fun e _ => ?_
  have hpt : ∀ b : Fin C, (if (rowDims N R C wf).resultIdx? (ix2 e b) idx = some (ix2 p k) then upd (ix2 e b) else 0)
      = if b = k then (if (idx (ix2 e (0 : Fin 1))).toInt = (p.val : Int) then upd (ix2 e k) else 0) else 0 := by
    intro b
    by_cases hb : b = k
    · subst hb
      rw [if_pos rfl]
      refine if_congr ?_ rfl rfl
      rw [lands_iff]
      exact ⟨fun h => h.1, fun h => ⟨h, rfl⟩⟩
    · rw [if_neg hb, if_neg]
      rw [lands_iff]
      exact fun h => hb (Fin.ext h.2)
  rw [Finset.sum_congr rfl fun b _ => hpt b, Finset.sum_ite_eq' Finset.univ k, if_pos (Finset.mem_univ k)]

/-! ## Single entries onto a length-N vector -/

/-- The dimension numbers of a scatter of single entries onto a length-N vector, one scatter index per update entry. -/
def vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The window of an update entry starts at its scatter index, read signed. -/
theorem start_entry {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) :
    (vecDims N R wf).start j idx (0 : Fin 1) = (idx (ix2 (j 0) (0 : Fin 1))).toInt := by
  unfold ScatterDims.start
  rw [dif_pos (show (0 : Fin 1) ∈ (vecDims N R wf).scatterDimsToOperandDims from List.mem_singleton.mpr rfl)]
  have hsi : (vecDims N R wf).siIdx j ⟨List.idxOf (0 : Fin 1) (vecDims N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one axis is inserted: the window adds nothing. -/
theorem window_entry {N R : Nat} (wf : ScatterDims.WF ⟨1, ![N]⟩ ⟨2, ![R, 1]⟩ ⟨1, ![R]⟩ [] [0] [0] 1)
    (j : (⟨1, ![R]⟩ : Shape).Idx) : (vecDims N R wf).window j (0 : Fin 1) = 0 := by
  unfold ScatterDims.window
  rw [dif_neg]
  intro h
  have : (0 : Fin 1) ∉ (vecDims N R wf).insertedWindowDims := by
    simpa [ScatterDims.sKept, Shape.kept, List.mem_filter, List.mem_finRange] using h
  exact this (List.mem_singleton.mpr rfl)

/-- An update entry lands on operand entry `i` exactly when its scatter index is `i`. -/
theorem lands_entry_iff {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (i : (⟨1, ![N]⟩ : Shape).Idx) :
    (vecDims N R wf).resultIdx? j idx = some i ↔ (idx (ix2 (j 0) (0 : Fin 1))).toInt = ((i 0).val : Int) := by
  have hi0 : (i 0).val < N := (i 0).isLt
  unfold ScatterDims.resultIdx?
  constructor
  · intro h
    split at h
    · rename_i hall
      have hi := Option.some.inj h
      have h0 := (hall 0).1
      have e0 : (i 0).val = ((vecDims N R wf).start j idx 0 + ((vecDims N R wf).window j 0 : Int)).toNat := by
        rw [← hi]
      rw [start_entry, window_entry] at e0 h0
      omega
    · exact absurd h (by simp)
  · intro h0
    have hall : ∀ a, 0 ≤ (vecDims N R wf).start j idx a + ((vecDims N R wf).window j a : Int)
        ∧ (vecDims N R wf).start j idx a + ((vecDims N R wf).window j a : Int) < ((⟨1, ![N]⟩ : Shape).size a : Int) := by
      intro a
      have ha : a = 0 := Subsingleton.elim _ _
      subst ha
      rw [start_entry, window_entry]
      show _ ∧ _ < ((N : Nat) : Int)
      omega
    rw [dif_pos hall]
    congr 1
    funext a
    have ha : a = 0 := Subsingleton.elim _ _
    subst ha
    refine Fin.ext ?_
    show ((vecDims N R wf).start j idx 0 + ((vecDims N R wf).window j 0 : Int)).toNat = (i 0).val
    rw [start_entry, window_entry]; omega

/-- Entry `p` of a scatter-add of single entries: the operand's entry plus the sum of the updates whose scatter
    index is `p`. -/
theorem scatterAdd_vec_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (p : Fin N) :
    Ideal.hostScatterAdd (vecDims N R wf) x idx upd (ix1 p)
      = x (ix1 p) + ∑ e : Fin R, if (idx (ix2 e (0 : Fin 1))).toInt = (p.val : Int) then upd (ix1 e) else 0 := by
  unfold Ideal.hostScatterAdd
  congr 1
  rw [Finset.sum_filter]
  have hre : ∀ f : (⟨1, ![R]⟩ : Shape).Idx → EReal, ∑ j, f j = ∑ e : Fin R, f (ix1 e) := fun f =>
    (Equiv.sum_comp (⟨fun e => ix1 e, fun j => j 0, fun _ => rfl, fun j => (eq_ix1 j).symm⟩ : Fin R ≃ (⟨1, ![R]⟩ : Shape).Idx) f).symm
  rw [hre]
  refine Finset.sum_congr rfl fun e _ => ?_
  refine if_congr ?_ rfl rfl
  exact lands_entry_iff wf idx (ix1 e) (ix1 p)

end Cert.ScatterSum

end
-- ==== Proof.RefScatter.lean ====
/-
  The reference's two segment sums read at one entry, at the exact values.

  `stablehlo.scatter` with an `add` body adds message row `e` onto the node row whose number is the scatter index
  `idx[e, 0]`, read as a signed integer.  Started from zeros, entry `(p, k)` of the result is the sum over the message
  rows `e` with `idx[e, 0] = p` of their entries in column `k`.

  The statements are over variables of the operands' literal types, the operations spelt as the reference's printed
  program spells them.
-/
import proofs.«147088_j4836133175935_1_alg».proof.Proof.Gen.ReferenceIdeal
import proofs.«147088_j4836133175935_1_alg».proof.Proof.LibScatterSum
import proofs.«147088_j4836133175935_1_alg».proof.Proof.RefDense
import Idealize.ShloMosaic.Lib.Pipeline.Value
import Idealize.ShloMosaic.Lib.ValueIdx
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx

/-- At the exact values the host's accumulating scatter is the exact sum. -/
theorem hostScatterAdd_ideal {φ : FTy} {s si u : Shape} {w : Nat} (d : ScatterDims s si u) (x : FVec Ideal s φ) (idx : IVec si w)
    (upd : FVec Ideal u φ) : Host.scatterAdd (F := Ideal) d x idx upd = Ideal.hostScatterAdd d x idx upd := rfl

/-- The printed dimension record of the width-128 scatter is the whole-rows record. -/
theorem scatter128_eq_rowDims :
    scatter_S100000x128_S1700000x1_S1700000x128_1_0_0_1 = Cert.ScatterRows.rowDims 100000 1700000 128 scatter_S100000x128_S1700000x1_S1700000x128_1_0_0_1_wf := rfl

/-- Segment sum at width 128: entry `(p, k)` of the scatter-add of the 1700000 message rows onto zeros is the sum of
    the entries `(e, k)` of the rows `e` whose target index is `p`. -/
theorem ref_scatter128 (idx : IVec S1700000x1 32) (upd : FVec Ideal S1700000x128 .f32) (p : Fin 100000) (k : Fin 128) :
    Host.scatterAdd (F := Ideal) scatter_S100000x128_S1700000x1_S1700000x128_1_0_0_1
        (broadcastInDim S100000x128 ![] bcast_S_S100000x128 (constant (F := Ideal) S_ .f32 0x00000000#32)) idx upd (ix2 p k)
      = ∑ e : Fin 1700000, if (idx (ix2 e (0 : Fin 1))).toInt = (p.val : Int) then upd (ix2 e k) else 0 := by
  rw [hostScatterAdd_ideal, scatter128_eq_rowDims, Cert.ScatterSum.scatterAdd_rows_apply, ref_zeros128, zero_add]

/-- The printed dimension record of the width-40 scatter is the whole-rows record. -/
theorem scatter40_eq_rowDims :
    scatter_S100000x40_S1700000x1_S1700000x40_1_0_0_1 = Cert.ScatterRows.rowDims 100000 1700000 40 scatter_S100000x40_S1700000x1_S1700000x40_1_0_0_1_wf := rfl

/-- Segment sum at width 40: entry `(p, k)` of the scatter-add of the 1700000 message rows onto zeros is the sum of
    the entries `(e, k)` of the rows `e` whose target index is `p`. -/
theorem ref_scatter40 (idx : IVec S1700000x1 32) (upd : FVec Ideal S1700000x40 .f32) (p : Fin 100000) (k : Fin 40) :
    Host.scatterAdd (F := Ideal) scatter_S100000x40_S1700000x1_S1700000x40_1_0_0_1
        (broadcastInDim S100000x40 ![] bcast_S_S100000x40 (constant (F := Ideal) S_ .f32 0x00000000#32)) idx upd (ix2 p k)
      = ∑ e : Fin 1700000, if (idx (ix2 e (0 : Fin 1))).toInt = (p.val : Int) then upd (ix2 e k) else 0 := by
  rw [hostScatterAdd_ideal, scatter40_eq_rowDims, Cert.ScatterSum.scatterAdd_rows_apply, ref_zeros40, zero_add]

/-- The column of target indices read at row `r` is the vector's entry `r`. -/
theorem idxcol_apply {α : Type} (dst : S1700000.Idx → α) (r : Fin 1700000) :
    broadcastInDim S1700000x1 ![0] bcast_S1700000_S1700000x1_0 dst (ix2 r (0 : Fin 1)) = dst (ix1 r) :=
  broadcastInDim_apply ![0] bcast_S1700000_S1700000x1_0 dst (ix2 r (0 : Fin 1)) (ix1 r) (fun a => match a with
    | ⟨0, _⟩ => by show r.val = if (1700000 : Nat) = 1 then 0 else r.val; rw [if_neg (by decide)])

/-- The same with the target indices given as a vector and laid out as a column, as the reference does: entry
    `(p, k)` is the sum of the entries `(r, k)` of the message rows `r` with `dst[r] = p`. -/
theorem ref_scatter128_col (dst : (⟨S1700000, .i32⟩ : BufTy).Contents (Elt Ideal)) (upd : FVec Ideal S1700000x128 .f32)
    (p : Fin 100000) (k : Fin 128) :
    Host.scatterAdd (F := Ideal) scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 dst) upd (ix2 p k)
      = ∑ r : Fin 1700000, if (dst (ix1 r)).toInt = (p.val : Int) then upd (ix2 r k) else 0 := by
  rw [ref_scatter128]
  refine Finset.sum_congr rfl fun r _ => ?_
  rw [idxcol_apply]

/-- The same with the target indices given as a vector and laid out as a column, as the reference does: entry
    `(p, k)` is the sum of the entries `(r, k)` of the message rows `r` with `dst[r] = p`. -/
theorem ref_scatter40_col (dst : (⟨S1700000, .i32⟩ : BufTy).Contents (Elt Ideal)) (upd : FVec Ideal S1700000x40 .f32)
    (p : Fin 100000) (k : Fin 40) :
    Host.scatterAdd (F := Ideal) scatter_S100000x40_S1700000x1_S1700000x40_1_0_0_1
        (broadcastInDim S100000x40 ![] bcast_S_S100000x40 (constant (F := Ideal) S_ .f32 0x00000000#32))
        (broadcastInDim S1700000x1 ![0] bcast_S1700000_S1700000x1_0 dst) upd (ix2 p k)
      = ∑ r : Fin 1700000, if (dst (ix1 r)).toInt = (p.val : Int) then upd (ix2 r k) else 0 := by
  rw [ref_scatter40]
  refine Finset.sum_congr rfl fun r _ => ?_
  rw [idxcol_apply]

end Cert.ReferenceIdeal.RefRead

end
-- ==== Proof.ScatterBridge.lean ====
/-
  The kernel's chunked segment sum against the sum over the real message rows.

  The kernel pads the 1700000 message rows with 1888 zero rows and the 1700000 target indices with 1888 copies of the
  sentinel 100000 (no node has that number), lays the padded indices out as one row, and sums, chunk by chunk over
  831 chunks of 2048 rows, the message rows whose padded target index is the node `p`.  The padding rows are zero, so
  the chunk sums add up to the sum over the real rows `r` with `dst[r] = p`; for a node number below 100000 the
  32-bit word equals the node's number exactly when it does as a signed integer.
-/
import proofs.«147088_j4836133175935_1_alg».proof.Proof.Gen.KernelIdeal
import proofs.«147088_j4836133175935_1_alg».proof.Proof.ChunkSum
import Idealize.ShloMosaic.Lib.Pipeline.Value
import Idealize.ShloMosaic.Lib.ValueIdx
import Idealize.ShloMosaic.PureOps.Ideal.Laws

noncomputable section

open scoped BigOperators

namespace Cert.ScatterBridge

open Cert.KernelIdeal Cert.KernelIdeal.Gen Idealize.ShloMosaic Idealize.ShloMosaic.ValueIdx

/-- Row `j` of chunk `e` is a padded row number. -/
theorem chunk_lt (e : Fin 831) (j : Fin 2048) : e.val * 2048 + j.val < 1701888 := by
  have := e.isLt; have := j.isLt; omega

/-- A 32-bit word is the word of a number below 100000 exactly when its signed value is that number. -/
theorem eq_ofNat_iff_toInt (v : BitVec 32) (n : ℕ) (hn : n < 100000) :
    v = BitVec.ofNat 32 n ↔ v.toInt = (n : Int) := by
  have hN : (BitVec.ofNat 32 n).toInt = (n : Int) := by
    rw [BitVec.toInt_eq_toNat_cond, BitVec.toNat_ofNat]
    have hm : n % 2 ^ 32 = n := Nat.mod_eq_of_lt (by omega)
    rw [hm, if_pos (show 2 * n < 2 ^ 32 by omega)]
  rw [← hN]
  exact BitVec.toInt_inj.symm

/-- The column of target indices read at row `r`. -/
theorem idxcol_apply {α : Type} (dst : S1700000.Idx → α) (h : S1700000.BroadcastsInDim S1700000x1 ![0]) (r : Fin 1700000) :
    broadcastInDim S1700000x1 ![0] h dst (ix2 r (0 : Fin 1)) = dst (ix1 r) :=
  broadcastInDim_apply ![0] h dst (ix2 r (0 : Fin 1)) (ix1 r) (fun a => match a with
    | ⟨0, _⟩ => by show r.val = if (1700000 : Nat) = 1 then 0 else r.val; rw [if_neg (by decide)])

/-- The padded target indices laid out as one row, read at a position: the padded vector's entry. -/
theorem dstrow_apply (v : (⟨S1701888, .i32⟩ : BufTy).Contents (Elt Ideal)) (r : Fin 1701888) :
    shapeCast S1x1701888 v shapeCasts_S1701888_S1x1701888 (ix2 (0 : Fin 1) r) = v (ix1 r) :=
  shapeCast_apply v shapeCasts_S1701888_S1x1701888 (ix2 (0 : Fin 1) r) (ix1 r) (by
    rw [Shape.rowMajor_val_one, Shape.rowMajor_val_two]
    show r.val = 0 * 1701888 + r.val
    omega)

/-- A padded target index below 1700000 is the target index. -/
theorem dstpad_lt (dst : (⟨S1700000, .i32⟩ : BufTy).Contents (Elt Ideal)) (r : Fin 1701888) (h : r.val < 1700000) :
    shapeCast S1x1701888 (concatenate S1701888 0 [⟨S1700000, dst⟩, ⟨S1888, broadcastInDim S1888 ![] bcast_S_S1888 (constantI S_ 32 100000#32)⟩] concatenates_S1700000_S1888_S1701888_d0) shapeCasts_S1701888_S1x1701888 (ix2 (0 : Fin 1) r)
      = dst (ix1 ⟨r.val, h⟩) := by
  rw [dstrow_apply]
  exact concatenate_pair_apply_left 0 dst _ concatenates_S1700000_S1888_S1701888_d0 (ix1 r) rfl (ix1 ⟨r.val, h⟩)
    (fun b => match b with
      | ⟨0, _⟩ => rfl)

/-- A padded target index from 1700000 on is the sentinel 100000. -/
theorem dstpad_ge (dst : (⟨S1700000, .i32⟩ : BufTy).Contents (Elt Ideal)) (r : Fin 1701888) (h : 1700000 ≤ r.val) :
    shapeCast S1x1701888 (concatenate S1701888 0 [⟨S1700000, dst⟩, ⟨S1888, broadcastInDim S1888 ![] bcast_S_S1888 (constantI S_ 32 100000#32)⟩] concatenates_S1700000_S1888_S1701888_d0) shapeCasts_S1701888_S1x1701888 (ix2 (0 : Fin 1) r)
      = 100000#32 := by
  have hr := r.isLt
  rw [dstrow_apply, concatenate_pair_apply_right 0 dst _ concatenates_S1700000_S1888_S1701888_d0 (ix1 r) rfl rfl
    (ix1 (⟨r.val - 1700000, by omega⟩ : Fin 1888))
    (fun b => match b with
      | ⟨0, _⟩ => fun hb => absurd rfl hb)
    (by show r.val - 1700000 + 1700000 = r.val; omega)]
  exact broadcastInDim_apply _ bcast_S_S1888 _ _ (fun a => a.elim0) (fun a => a.elim0)

/-! ### Width 128 -/

/-- The constant zero spread over the 128-wide padding rows is zero at every entry. -/
theorem padzeros128_apply (i : S1888x128.Idx) :
    broadcastInDim S1888x128 ![] bcast_S_S1888x128 (constant (F := Ideal) S_ .f32 0x00000000#32) i = 0 := by
  rw [broadcastInDim_apply _ bcast_S_S1888x128 _ i (fun a => a.elim0) (fun a => a.elim0), constant_apply,
    Ideal.ofBits_zero_f32]

/-- A padded message row below 1700000 is the message row. -/
theorem msgpad128_lt (msg : FVec Ideal S1700000x128 .f32) (r : Fin 1701888) (k : Fin 128) (h : r.val < 1700000) :
    concatenate S1701888x128 0 [⟨S1700000x128, msg⟩, ⟨S1888x128, broadcastInDim S1888x128 ![] bcast_S_S1888x128 (constant (F := Ideal) S_ .f32 0x00000000#32)⟩] concatenates_S1700000x128_S1888x128_S1701888x128_d0 (ix2 r k)
      = msg (ix2 ⟨r.val, h⟩ k) :=
  concatenate_pair_apply_left 0 msg _ concatenates_S1700000x128_S1888x128_S1701888x128_d0 (ix2 r k) rfl (ix2 ⟨r.val, h⟩ k)
    (fun b => match b with
      | ⟨0, _⟩ => rfl
      | ⟨1, _⟩ => rfl)

/-- A padded message row from 1700000 on is zero. -/
theorem msgpad128_ge (msg : FVec Ideal S1700000x128 .f32) (r : Fin 1701888) (k : Fin 128) (h : 1700000 ≤ r.val) :
    concatenate S1701888x128 0 [⟨S1700000x128, msg⟩, ⟨S1888x128, broadcastInDim S1888x128 ![] bcast_S_S1888x128 (constant (F := Ideal) S_ .f32 0x00000000#32)⟩] concatenates_S1700000x128_S1888x128_S1701888x128_d0 (ix2 r k)
      = 0 := by
  have hr := r.isLt
  rw [concatenate_pair_apply_right 0 msg _ concatenates_S1700000x128_S1888x128_S1701888x128_d0 (ix2 r k) rfl rfl
    (ix2 (⟨r.val - 1700000, by omega⟩ : Fin 1888) k)
    (fun b => match b with
      | ⟨0, _⟩ => fun hb => absurd rfl hb
      | ⟨1, _⟩ => fun _ => rfl)
    (by show r.val - 1700000 + 1700000 = r.val; omega)]
  exact padzeros128_apply _

/-- The term of the width-128 chunk sums as a function of the padded row number: the padded message entry where the
    padded target index is the node `p`, zero elsewhere (and zero past the padded rows). -/
def padTerm128 (msg : FVec Ideal S1700000x128 .f32) (dst : (⟨S1700000, .i32⟩ : BufTy).Contents (Elt Ideal))
    (p : Fin 100000) (k : Fin 128) (n : ℕ) : Ideal .f32 :=
  if h : n < 1701888 then
    (if shapeCast S1x1701888 (concatenate S1701888 0 [⟨S1700000, dst⟩, ⟨S1888, broadcastInDim S1888 ![] bcast_S_S1888 (constantI S_ 32 100000#32)⟩] concatenates_S1700000_S1888_S1701888_d0) shapeCasts_S1701888_S1x1701888 (ix2 (0 : Fin 1) (⟨n, h⟩ : Fin 1701888)) = BitVec.ofNat 32 p.val
      then concatenate S1701888x128 0 [⟨S1700000x128, msg⟩, ⟨S1888x128, broadcastInDim S1888x128 ![] bcast_S_S1888x128 (constant (F := Ideal) S_ .f32 0x00000000#32)⟩] concatenates_S1700000x128_S1888x128_S1701888x128_d0 (ix2 (⟨n, h⟩ : Fin 1701888) k)
      else 0)
  else 0

/-- The kernel's width-128 segment sum, chunk by chunk over the padded message rows and padded target indices, is the
    sum over the 1700000 real message rows whose target index is `p`. -/
theorem bridge128 (msg : FVec Ideal S1700000x128 .f32) (dst : (⟨S1700000, .i32⟩ : BufTy).Contents (Elt Ideal))
    (p : Fin 100000) (k : Fin 128) :
    (∑ e : Fin 831, ∑ j : Fin 2048,
      (if shapeCast S1x1701888 (concatenate S1701888 0 [⟨S1700000, dst⟩, ⟨S1888, broadcastInDim S1888 ![] bcast_S_S1888 (constantI S_ 32 100000#32)⟩] concatenates_S1700000_S1888_S1701888_d0) shapeCasts_S1701888_S1x1701888
            (ix2 (0 : Fin 1) (⟨e.val * 2048 + j.val, chunk_lt e j⟩ : Fin 1701888)) = BitVec.ofNat 32 p.val
        then concatenate S1701888x128 0 [⟨S1700000x128, msg⟩, ⟨S1888x128, broadcastInDim S1888x128 ![] bcast_S_S1888x128 (constant (F := Ideal) S_ .f32 0x00000000#32)⟩] concatenates_S1700000x128_S1888x128_S1701888x128_d0
            (ix2 (⟨e.val * 2048 + j.val, chunk_lt e j⟩ : Fin 1701888) k)
        else 0))
      = ∑ r : Fin 1700000, (if (dst (ix1 r)).toInt = (p.val : Int) then msg (ix2 r k) else 0) := by
  have hL : ∀ (e : Fin 831) (j : Fin 2048), padTerm128 msg dst p k (j.val + 2048 * e.val)
      = (if shapeCast S1x1701888 (concatenate S1701888 0 [⟨S1700000, dst⟩, ⟨S1888, broadcastInDim S1888 ![] bcast_S_S1888 (constantI S_ 32 100000#32)⟩] concatenates_S1700000_S1888_S1701888_d0) shapeCasts_S1701888_S1x1701888
            (ix2 (0 : Fin 1) (⟨e.val * 2048 + j.val, chunk_lt e j⟩ : Fin 1701888)) = BitVec.ofNat 32 p.val
        then concatenate S1701888x128 0 [⟨S1700000x128, msg⟩, ⟨S1888x128, broadcastInDim S1888x128 ![] bcast_S_S1888x128 (constant (F := Ideal) S_ .f32 0x00000000#32)⟩] concatenates_S1700000x128_S1888x128_S1701888x128_d0
            (ix2 (⟨e.val * 2048 + j.val, chunk_lt e j⟩ : Fin 1701888) k)
        else 0) := by
    intro e j
    have hlt : j.val + 2048 * e.val < 1701888 := by have := chunk_lt e j; omega
    have hfe : (⟨j.val + 2048 * e.val, hlt⟩ : Fin 1701888) = ⟨e.val * 2048 + j.val, chunk_lt e j⟩ :=
      Fin.ext (by show j.val + 2048 * e.val = e.val * 2048 + j.val; omega)
    unfold padTerm128
    rw [dif_pos hlt, hfe]
  refine (Finset.sum_congr rfl fun e _ => Finset.sum_congr rfl fun j _ => (hL e j).symm).trans ?_
  refine (Cert.ChunkSum.sum_chunks_nat_831 (padTerm128 msg dst p k) ?_).trans ?_
  · intro r h1 h2
    unfold padTerm128
    rw [dif_pos h2, msgpad128_ge msg ⟨r, h2⟩ k h1, ite_self]
  · refine Finset.sum_congr rfl fun r _ => ?_
    have hr := r.isLt
    have h2 : r.val < 1701888 := by omega
    unfold padTerm128
    rw [dif_pos h2, dstpad_lt dst ⟨r.val, h2⟩ hr, msgpad128_lt msg ⟨r.val, h2⟩ k hr]
    exact if_congr (eq_ofNat_iff_toInt _ p.val p.isLt) rfl rfl

/-! ### Width 40 -/

/-- The constant zero spread over the 40-wide padding rows is zero at every entry. -/
theorem padzeros40_apply (i : S1888x40.Idx) :
    broadcastInDim S1888x40 ![] bcast_S_S1888x40 (constant (F := Ideal) S_ .f32 0x00000000#32) i = 0 := by
  rw [broadcastInDim_apply _ bcast_S_S1888x40 _ i (fun a => a.elim0) (fun a => a.elim0), constant_apply,
    Ideal.ofBits_zero_f32]

/-- A padded message row below 1700000 is the message row. -/
theorem msgpad40_lt (msg : FVec Ideal S1700000x40 .f32) (r : Fin 1701888) (k : Fin 40) (h : r.val < 1700000) :
    concatenate S1701888x40 0 [⟨S1700000x40, msg⟩, ⟨S1888x40, broadcastInDim S1888x40 ![] bcast_S_S1888x40 (constant (F := Ideal) S_ .f32 0x00000000#32)⟩] concatenates_S1700000x40_S1888x40_S1701888x40_d0 (ix2 r k)
      = msg (ix2 ⟨r.val, h⟩ k) :=
  concatenate_pair_apply_left 0 msg _ concatenates_S1700000x40_S1888x40_S1701888x40_d0 (ix2 r k) rfl (ix2 ⟨r.val, h⟩ k)
    (fun b => match b with
      | ⟨0, _⟩ => rfl
      | ⟨1, _⟩ => rfl)

/-- A padded message row from 1700000 on is zero. -/
theorem msgpad40_ge (msg : FVec Ideal S1700000x40 .f32) (r : Fin 1701888) (k : Fin 40) (h : 1700000 ≤ r.val) :
    concatenate S1701888x40 0 [⟨S1700000x40, msg⟩, ⟨S1888x40, broadcastInDim S1888x40 ![] bcast_S_S1888x40 (constant (F := Ideal) S_ .f32 0x00000000#32)⟩] concatenates_S1700000x40_S1888x40_S1701888x40_d0 (ix2 r k)
      = 0 := by
  have hr := r.isLt
  rw [concatenate_pair_apply_right 0 msg _ concatenates_S1700000x40_S1888x40_S1701888x40_d0 (ix2 r k) rfl rfl
    (ix2 (⟨r.val - 1700000, by omega⟩ : Fin 1888) k)
    (fun b => match b with
      | ⟨0, _⟩ => fun hb => absurd rfl hb
      | ⟨1, _⟩ => fun _ => rfl)
    (by show r.val - 1700000 + 1700000 = r.val; omega)]
  exact padzeros40_apply _

/-- The term of the width-40 chunk sums as a function of the padded row number: the padded message entry where the
    padded target index is the node `p`, zero elsewhere (and zero past the padded rows). -/
def padTerm40 (msg : FVec Ideal S1700000x40 .f32) (dst : (⟨S1700000, .i32⟩ : BufTy).Contents (Elt Ideal))
    (p : Fin 100000) (k : Fin 40) (n : ℕ) : Ideal .f32 :=
  if h : n < 1701888 then
    (if shapeCast S1x1701888 (concatenate S1701888 0 [⟨S1700000, dst⟩, ⟨S1888, broadcastInDim S1888 ![] bcast_S_S1888 (constantI S_ 32 100000#32)⟩] concatenates_S1700000_S1888_S1701888_d0) shapeCasts_S1701888_S1x1701888 (ix2 (0 : Fin 1) (⟨n, h⟩ : Fin 1701888)) = BitVec.ofNat 32 p.val
      then concatenate S1701888x40 0 [⟨S1700000x40, msg⟩, ⟨S1888x40, broadcastInDim S1888x40 ![] bcast_S_S1888x40 (constant (F := Ideal) S_ .f32 0x00000000#32)⟩] concatenates_S1700000x40_S1888x40_S1701888x40_d0 (ix2 (⟨n, h⟩ : Fin 1701888) k)
      else 0)
  else 0

/-- The kernel's width-40 segment sum, chunk by chunk over the padded message rows and padded target indices, is the
    sum over the 1700000 real message rows whose target index is `p`. -/
theorem bridge40 (msg : FVec Ideal S1700000x40 .f32) (dst : (⟨S1700000, .i32⟩ : BufTy).Contents (Elt Ideal))
    (p : Fin 100000) (k : Fin 40) :
    (∑ e : Fin 831, ∑ j : Fin 2048,
      (if shapeCast S1x1701888 (concatenate S1701888 0 [⟨S1700000, dst⟩, ⟨S1888, broadcastInDim S1888 ![] bcast_S_S1888 (constantI S_ 32 100000#32)⟩] concatenates_S1700000_S1888_S1701888_d0) shapeCasts_S1701888_S1x1701888
            (ix2 (0 : Fin 1) (⟨e.val * 2048 + j.val, chunk_lt e j⟩ : Fin 1701888)) = BitVec.ofNat 32 p.val
        then concatenate S1701888x40 0 [⟨S1700000x40, msg⟩, ⟨S1888x40, broadcastInDim S1888x40 ![] bcast_S_S1888x40 (constant (F := Ideal) S_ .f32 0x00000000#32)⟩] concatenates_S1700000x40_S1888x40_S1701888x40_d0
            (ix2 (⟨e.val * 2048 + j.val, chunk_lt e j⟩ : Fin 1701888) k)
        else 0))
      = ∑ r : Fin 1700000, (if (dst (ix1 r)).toInt = (p.val : Int) then msg (ix2 r k) else 0) := by
  have hL : ∀ (e : Fin 831) (j : Fin 2048), padTerm40 msg dst p k (j.val + 2048 * e.val)
      = (if shapeCast S1x1701888 (concatenate S1701888 0 [⟨S1700000, dst⟩, ⟨S1888, broadcastInDim S1888 ![] bcast_S_S1888 (constantI S_ 32 100000#32)⟩] concatenates_S1700000_S1888_S1701888_d0) shapeCasts_S1701888_S1x1701888
            (ix2 (0 : Fin 1) (⟨e.val * 2048 + j.val, chunk_lt e j⟩ : Fin 1701888)) = BitVec.ofNat 32 p.val
        then concatenate S1701888x40 0 [⟨S1700000x40, msg⟩, ⟨S1888x40, broadcastInDim S1888x40 ![] bcast_S_S1888x40 (constant (F := Ideal) S_ .f32 0x00000000#32)⟩] concatenates_S1700000x40_S1888x40_S1701888x40_d0
            (ix2 (⟨e.val * 2048 + j.val, chunk_lt e j⟩ : Fin 1701888) k)
        else 0) := by
    intro e j
    have hlt : j.val + 2048 * e.val < 1701888 := by have := chunk_lt e j; omega
    have hfe : (⟨j.val + 2048 * e.val, hlt⟩ : Fin 1701888) = ⟨e.val * 2048 + j.val, chunk_lt e j⟩ :=
      Fin.ext (by show j.val + 2048 * e.val = e.val * 2048 + j.val; omega)
    unfold padTerm40
    rw [dif_pos hlt, hfe]
  refine (Finset.sum_congr rfl fun e _ => Finset.sum_congr rfl fun j _ => (hL e j).symm).trans ?_
  refine (Cert.ChunkSum.sum_chunks_nat_831 (padTerm40 msg dst p k) ?_).trans ?_
  · intro r h1 h2
    unfold padTerm40
    rw [dif_pos h2, msgpad40_ge msg ⟨r, h2⟩ k h1, ite_self]
  · refine Finset.sum_congr rfl fun r _ => ?_
    have hr := r.isLt
    have h2 : r.val < 1701888 := by omega
    unfold padTerm40
    rw [dif_pos h2, dstpad_lt dst ⟨r.val, h2⟩ hr, msgpad40_lt msg ⟨r.val, h2⟩ k hr]
    exact if_congr (eq_ofNat_iff_toInt _ p.val p.isLt) rfl rfl

end Cert.ScatterBridge

end
-- ==== Proof.BridgePrefix.lean ====
/-
  The host operations before the first kernel region, read at the buffers the later stretches use.

  Outside the five kernel regions the kernel program and the reference perform the same host operations on the same
  arguments: the source and destination ids extended by the self loops, the degrees by a scatter-add of ones, their
  inverse square roots, the edge weights as the product of the two gathered roots, and the destination ids padded
  with the out-of-range id.  Each buffer's contents after the stretch is the composition of its operations' functions
  applied to the argument arrays, which is the reference's stage for the same value.
-/
import proofs.«147088_j4836133175935_1_alg».proof.Proof.Chain
import proofs.«147088_j4836133175935_1_alg».proof.Proof.RefReadP
import Idealize.ShloMosaic.PureOps.Ideal.Laws
import Idealize.ShloMosaic.Lib.StableHlo.Run

set_option maxRecDepth 16384

noncomputable section

namespace Cert.Bridge

open Idealize.ShloMosaic Idealize.ShloMosaic.TcCoe Idealize.ShloMosaic.StableHlo
open Idealize.SL Idealize.SL.Sem
open Cert.KernelIdeal Cert.KernelIdeal.Gen Cert.KernelIdeal.Run

variable (m : (ℓ : Loc nD τ sig) → Buf (Elt Ideal) ℓ) (ρ : Dev nD → PrngReg) (c : Dev nD)

/-- The operations' results rewritten also under a `concatenate`, whose side condition's type mentions the list of
    operands. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- Contents carried to a buffer's own type and back are unchanged. -/
theorem ofBuf_toBuf {T : BufTy} (x : TRef sig T) (v : T.Contents (Elt Ideal)) : x.ofBuf (x.toBuf v) = v := by
  obtain ⟨r, h, _, _⟩ := x
  subst h
  rfl

/-! Contents carried to the type a function's signature gives a buffer are the same contents: the two types are equal. -/
theorem ofBuf_main_v12 (v : (⟨S100000, .i1⟩ : BufTy).Contents (Elt Ideal)) : (TRef.of (sig := sig) (T := ⟨S100000, .i1⟩) main_v12).ofBuf (Val := Elt Ideal) v = v := rfl
theorem ofBuf_main_v13 (v : (⟨S100000, .f32⟩ : BufTy).Contents (Elt Ideal)) : (TRef.of (sig := sig) (T := ⟨S100000, .f32⟩) main_v13).ofBuf (Val := Elt Ideal) v = v := rfl
theorem ofBuf_main_cst_2 (v : (⟨S_, .f32⟩ : BufTy).Contents (Elt Ideal)) : (TRef.of (sig := sig) (T := ⟨S_, .f32⟩) main_cst_2).ofBuf (Val := Elt Ideal) v = v := rfl
theorem toBuf_main_v14 (v : (⟨S100000, .f32⟩ : BufTy).Contents (Elt Ideal)) : (TRef.of (sig := sig) (T := ⟨S100000, .f32⟩) main_v14).toBuf (Val := Elt Ideal) v = v := rfl

/-! ## The first stretch: ids, self loops, degrees, inverse square roots -/

/-- One buffer after the first 18 operations, from the launch contents. -/
theorem Q3 : W1 m ρ c (Proc.devRef .tc main_v3) = Cert.ReferenceIdeal.ReadP.val_main_v3 (F := Ideal) (m ((c.tc : Thread nD τ).loc main_arg1)) := by
  show StableHlo.after hostOps0 (W0 m ρ c) (Proc.devRef .tc main_v3) = _
  after_results_simp
  results_rw
  rfl

theorem Q6 : W1 m ρ c (Proc.devRef .tc main_v6) = Cert.ReferenceIdeal.ReadP.val_main_v6 (F := Ideal) (m ((c.tc : Thread nD τ).loc main_arg1)) := by
  show StableHlo.after hostOps0 (W0 m ρ c) (Proc.devRef .tc main_v6) = _
  after_results_simp
  results_rw
  rfl

theorem Q12 : W1 m ρ c (Proc.devRef .tc main_v12) = Cert.ReferenceIdeal.ReadP.val_main_v12 (F := Ideal) (m ((c.tc : Thread nD τ).loc main_arg1)) := by
  show StableHlo.after hostOps0 (W0 m ρ c) (Proc.devRef .tc main_v12) = _
  after_results_simp
  results_rw
  rfl

theorem Q13 : W1 m ρ c (Proc.devRef .tc main_v13) = Cert.ReferenceIdeal.ReadP.val_main_v13 (F := Ideal) (m ((c.tc : Thread nD τ).loc main_arg1)) := by
  show StableHlo.after hostOps0 (W0 m ρ c) (Proc.devRef .tc main_v13) = _
  after_results_simp
  results_rw
  rfl

theorem Qcst2 : W1 m ρ c (Proc.devRef .tc main_cst_2) = Cert.ReferenceIdeal.ReadP.val_main_cst_2 (F := Ideal) := by
  show StableHlo.after hostOps0 (W0 m ρ c) (Proc.devRef .tc main_cst_2) = _
  after_results_simp
  rfl

/-! ## The second stretch: the inverse square root where the degree is positive, zero elsewhere -/

theorem Q14 : W2 m ρ c (Proc.devRef .tc main_v14) = Cert.ReferenceIdeal.ReadP.val_main_v14 (F := Ideal) (m ((c.tc : Thread nD τ).loc main_arg1)) := by
  have h12 := Q12 m ρ c
  have h13 := Q13 m ρ c
  have hc2 := Qcst2 m ρ c
  show StableHlo.after hostOps0_1 (W1 m ρ c) (Proc.devRef .tc main_v14) = _
  generalize W1 m ρ c = G at h12 h13 hc2 ⊢
  after_results_simp
  rw [h12, h13, hc2]
  rw [ofBuf_toBuf, ofBuf_toBuf, ofBuf_main_v12, ofBuf_main_v13, ofBuf_main_cst_2, toBuf_main_v14]
  rfl

/-! ## The third stretch: the edge weights and the padded destination ids -/

theorem P3 : W3 m ρ c (Proc.devRef .tc main_v3) = Cert.ReferenceIdeal.ReadP.val_main_v3 (F := Ideal) (m ((c.tc : Thread nD τ).loc main_arg1)) :=
  (W3_of m ρ c main_v3 (by decide)).trans ((W2_of m ρ c main_v3 (by decide)).trans (Q3 m ρ c))

theorem P6 : W3 m ρ c (Proc.devRef .tc main_v6) = Cert.ReferenceIdeal.ReadP.val_main_v6 (F := Ideal) (m ((c.tc : Thread nD τ).loc main_arg1)) :=
  (W3_of m ρ c main_v6 (by decide)).trans ((W2_of m ρ c main_v6 (by decide)).trans (Q6 m ρ c))

/-- The edge weights: the product of the two gathered inverse square roots of the degrees. -/
theorem P29 : W3 m ρ c (Proc.devRef .tc main_v29) = Cert.ReferenceIdeal.ReadP.val_main_v29 (F := Ideal) (m ((c.tc : Thread nD τ).loc main_arg1)) := by
  have h3 : W2 m ρ c (Proc.devRef .tc main_v3) = _ := (W2_of m ρ c main_v3 (by decide)).trans (Q3 m ρ c)
  have h6 : W2 m ρ c (Proc.devRef .tc main_v6) = _ := (W2_of m ρ c main_v6 (by decide)).trans (Q6 m ρ c)
  have h14 := Q14 m ρ c
  show StableHlo.after hostOps0_2 (W2 m ρ c) (Proc.devRef .tc main_v29) = _
  generalize W2 m ρ c = G at h3 h6 h14 ⊢
  after_results_simp
  rw [h3, h6, h14]
  rfl

/-- The destination ids padded to 831 · 2048 entries with the out-of-range id 100000. -/
theorem P31 : W3 m ρ c (Proc.devRef .tc main_v31)
    = concatenate S1701888 0 [⟨S1700000, Cert.ReferenceIdeal.ReadP.val_main_v6 (F := Ideal) (m ((c.tc : Thread nD τ).loc main_arg1))⟩,
        ⟨S1888, broadcastInDim S1888 ![] bcast_S_S1888 (constantI S_ 32 100000#32)⟩] concatenates_S1700000_S1888_S1701888_d0 := by
  have h6 : W2 m ρ c (Proc.devRef .tc main_v6) = _ := (W2_of m ρ c main_v6 (by decide)).trans (Q6 m ρ c)
  show StableHlo.after hostOps0_2 (W2 m ρ c) (Proc.devRef .tc main_v31) = _
  generalize W2 m ρ c = G at h6 ⊢
  after_results_simp
  results_rw
  rw [h6]

end Cert.Bridge

end
-- ==== Proof.BridgeMsg.lean ====
/-
  The host stretches that prepare the two segment-sum regions' inputs.

  Before each segment-sum region the program gathers the rows of the dense layer's output at the source ids,
  scales row `e` by the edge weight `w[e]`, pads the 1700000 message rows with 1888 zero rows, and reshapes the
  padded destination ids to one row.  Given what the dense region left, these are the reference's message stage
  padded with zero rows and its destination ids padded with the out-of-range id.
-/
import proofs.«147088_j4836133175935_1_alg».proof.Proof.Chain
import proofs.«147088_j4836133175935_1_alg».proof.Proof.RefReadP
import proofs.«147088_j4836133175935_1_alg».proof.Proof.BridgePrefix
import Idealize.ShloMosaic.PureOps.Ideal.Laws
import Idealize.ShloMosaic.Lib.StableHlo.Run

set_option maxRecDepth 16384

noncomputable section

namespace Cert.Bridge

open Idealize.ShloMosaic Idealize.ShloMosaic.TcCoe Idealize.ShloMosaic.StableHlo
open Idealize.SL Idealize.SL.Sem
open Cert.KernelIdeal Cert.KernelIdeal.Gen Cert.KernelIdeal.Run

variable (m : (ℓ : Loc nD τ sig) → Buf (Elt Ideal) ℓ) (ρ : Dev nD → PrngReg) (c : Dev nD)

/-- The padded destination ids as one row. -/
abbrev dstRow : (⟨S1x1701888, .i32⟩ : BufTy).Contents (Elt Ideal) :=
  shapeCast S1x1701888
    (concatenate S1701888 0 [⟨S1700000, Cert.ReferenceIdeal.ReadP.val_main_v6 (F := Ideal) (m ((c.tc : Thread nD τ).loc main_arg1))⟩,
      ⟨S1888, broadcastInDim S1888 ![] bcast_S_S1888 (constantI S_ 32 100000#32)⟩] concatenates_S1700000_S1888_S1701888_d0)
    shapeCasts_S1701888_S1x1701888

/-! Buffers computed before the first region, as the later stretches find them. -/

theorem W6_v3 : W6 m ρ c (Proc.devRef .tc main_v3) = Cert.ReferenceIdeal.ReadP.val_main_v3 (F := Ideal) (m ((c.tc : Thread nD τ).loc main_arg1)) :=
  ((W6_of_ne m ρ c main_v3 (by decide)).trans ((W5_of m ρ c main_v3 (by decide)).trans (W4_of_ne m ρ c main_v3 (by decide)))).trans (P3 m ρ c)
theorem W6_v29 : W6 m ρ c (Proc.devRef .tc main_v29) = Cert.ReferenceIdeal.ReadP.val_main_v29 (F := Ideal) (m ((c.tc : Thread nD τ).loc main_arg1)) :=
  ((W6_of_ne m ρ c main_v29 (by decide)).trans ((W5_of m ρ c main_v29 (by decide)).trans (W4_of_ne m ρ c main_v29 (by decide)))).trans (P29 m ρ c)
theorem W6_v31 : W6 m ρ c (Proc.devRef .tc main_v31) = W3 m ρ c (Proc.devRef .tc main_v31) :=
  ((W6_of_ne m ρ c main_v31 (by decide)).trans ((W5_of m ρ c main_v31 (by decide)).trans (W4_of_ne m ρ c main_v31 (by decide))))
theorem W12_v3 : W12 m ρ c (Proc.devRef .tc main_v3) = Cert.ReferenceIdeal.ReadP.val_main_v3 (F := Ideal) (m ((c.tc : Thread nD τ).loc main_arg1)) :=
  ((W12_of_ne m ρ c main_v3 (by decide)).trans ((W11_of m ρ c main_v3 (by decide)).trans ((W10_of m ρ c main_v3 (by decide)).trans ((W9_of m ρ c main_v3 (by decide)).trans ((W8_of_ne m ρ c main_v3 (by decide)).trans ((W7_of m ρ c main_v3 (by decide)).trans ((W6_of_ne m ρ c main_v3 (by decide)).trans ((W5_of m ρ c main_v3 (by decide)).trans (W4_of_ne m ρ c main_v3 (by decide)))))))))).trans (P3 m ρ c)
theorem W12_v29 : W12 m ρ c (Proc.devRef .tc main_v29) = Cert.ReferenceIdeal.ReadP.val_main_v29 (F := Ideal) (m ((c.tc : Thread nD τ).loc main_arg1)) :=
  ((W12_of_ne m ρ c main_v29 (by decide)).trans ((W11_of m ρ c main_v29 (by decide)).trans ((W10_of m ρ c main_v29 (by decide)).trans ((W9_of m ρ c main_v29 (by decide)).trans ((W8_of_ne m ρ c main_v29 (by decide)).trans ((W7_of m ρ c main_v29 (by decide)).trans ((W6_of_ne m ρ c main_v29 (by decide)).trans ((W5_of m ρ c main_v29 (by decide)).trans (W4_of_ne m ρ c main_v29 (by decide)))))))))).trans (P29 m ρ c)
theorem W12_v31 : W12 m ρ c (Proc.devRef .tc main_v31) = W3 m ρ c (Proc.devRef .tc main_v31) :=
  ((W12_of_ne m ρ c main_v31 (by decide)).trans ((W11_of m ρ c main_v31 (by decide)).trans ((W10_of m ρ c main_v31 (by decide)).trans ((W9_of m ρ c main_v31 (by decide)).trans ((W8_of_ne m ρ c main_v31 (by decide)).trans ((W7_of m ρ c main_v31 (by decide)).trans ((W6_of_ne m ρ c main_v31 (by decide)).trans ((W5_of m ρ c main_v31 (by decide)).trans (W4_of_ne m ρ c main_v31 (by decide))))))))))

/-- A two-part `concatenate` depends only on its two parts. -/
theorem concatenate_pair_congr {α : Type} (t : Shape) (ax : Fin t.rank) (s₁ s₂ : Shape) (a a' : s₁.Idx → α) (b b' : s₂.Idx → α)
    (h : Shape.Concatenates (([⟨s₁, a⟩, ⟨s₂, b⟩] : List ((s : Shape) × (s.Idx → α))).map (·.1)) t ax) (ha : a = a') (hb : b = b') :
    concatenate t ax [⟨s₁, a⟩, ⟨s₂, b⟩] h = concatenate t ax [⟨s₁, a'⟩, ⟨s₂, b'⟩] h := by
  subst ha; subst hb; rfl

/-- The message rows of the first segment sum: the gathered rows scaled by the edge weights, then 1888 zero rows. -/
theorem msg2 (h1 : W6 m ρ c (Proc.devRef .tc main_v36) = Cert.ReferenceIdeal.ReadP.val_main_v35 (F := Ideal) (m ((c.tc : Thread nD τ).loc main_arg0)) (m ((c.tc : Thread nD τ).loc main_arg2)) (m ((c.tc : Thread nD τ).loc main_arg3)) (m ((c.tc : Thread nD τ).loc main_arg4))) :
    W7 m ρ c (Proc.devRef .tc main_v48)
      = concatenate S1701888x128 0 [⟨S1700000x128, Cert.ReferenceIdeal.ReadP.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))⟩,
          ⟨S1888x128, broadcastInDim S1888x128 ![] bcast_S_S1888x128 (constant (F := Ideal) S_ .f32 0x00000000#32)⟩]
          concatenates_S1700000x128_S1888x128_S1701888x128_d0 := by
  have e3 := W6_v3 m ρ c
  have e29 := W6_v29 m ρ c
  show StableHlo.after hostOps2 (W6 m ρ c) (Proc.devRef .tc main_v48) = _
  after_results_simp
  refine concatenate_pair_congr _ _ _ _ _ _ _ _ _ ?_ ?_
  · after_results_simp
    rw [h1, e3, e29]
    rfl
  · (after_results_simp <;> rfl)

theorem dst2 : W7 m ρ c (Proc.devRef .tc main_v49) = dstRow m c := by
  have e31 := (W6_v31 m ρ c).trans (P31 m ρ c)
  show StableHlo.after hostOps2 (W6 m ρ c) (Proc.devRef .tc main_v49) = _
  after_results_simp
  results_rw
  rw [e31]
  rfl

/-- The message rows of the second segment sum, at width 40. -/
theorem msg4 (h3 : W12 m ρ c (Proc.devRef .tc main_v57) = Cert.ReferenceIdeal.ReadP.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    W13 m ρ c (Proc.devRef .tc main_v69)
      = concatenate S1701888x40 0 [⟨S1700000x40, Cert.ReferenceIdeal.ReadP.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))⟩,
          ⟨S1888x40, broadcastInDim S1888x40 ![] bcast_S_S1888x40 (constant (F := Ideal) S_ .f32 0x00000000#32)⟩]
          concatenates_S1700000x40_S1888x40_S1701888x40_d0 := by
  have e3 := W12_v3 m ρ c
  have e29 := W12_v29 m ρ c
  show StableHlo.after hostOps4 (W12 m ρ c) (Proc.devRef .tc main_v69) = _
  after_results_simp
  refine concatenate_pair_congr _ _ _ _ _ _ _ _ _ ?_ ?_
  · after_results_simp
    rw [h3, e3, e29]
    rfl
  · (after_results_simp <;> rfl)

theorem dst4 : W13 m ρ c (Proc.devRef .tc main_v70) = dstRow m c := by
  have e31 := (W12_v31 m ρ c).trans (P31 m ρ c)
  show StableHlo.after hostOps4 (W12 m ρ c) (Proc.devRef .tc main_v70) = _
  after_results_simp
  results_rw
  rw [e31]
  rfl

end Cert.Bridge

end
-- ==== Proof.BridgeScatter.lean ====
/-
  The two segment sums of the bridge. The kernel program's region leaves, at node p and feature k, the sum over the 831
  chunks of 2048 padded message rows of those whose destination is p; the appended zero rows (whose destination is the
  sentinel 100000, no node) add nothing, so this is the sum over the 1700000 real rows with destination p — the
  reference's scatter-add onto zeros. The messages going in are the same on both sides once the layer before agrees.
-/
import proofs.«147088_j4836133175935_1_alg».proof.Proof.Chain
import proofs.«147088_j4836133175935_1_alg».proof.Proof.Whole2
import proofs.«147088_j4836133175935_1_alg».proof.Proof.Whole4
import proofs.«147088_j4836133175935_1_alg».proof.Proof.RefReadP
import proofs.«147088_j4836133175935_1_alg».proof.Proof.RefScatter
import proofs.«147088_j4836133175935_1_alg».proof.Proof.ScatterBridge
import proofs.«147088_j4836133175935_1_alg».proof.Proof.BridgeMsg

noncomputable section

namespace Cert.Bridge

open Idealize.ShloMosaic Idealize.ShloMosaic.TcCoe Idealize.ShloMosaic.ValueIdx Idealize.SL.Sem
open Cert.KernelIdeal Cert.KernelIdeal.Gen Cert.KernelIdeal.Run

variable (m : (ℓ : Loc nD τ sig) → Buf (Elt Ideal) ℓ) (ρ : Dev nD → PrngReg) (c : Dev nD)

/-- The hidden layer's segment sum: the region's output array is the reference's scatter-add stage. -/
theorem stage2 (h1 : W6 m ρ c (Proc.devRef .tc main_v36) = Cert.ReferenceIdeal.ReadP.val_main_v35 (F := Ideal) (m ((c.tc : Thread nD τ).loc main_arg0)) (m ((c.tc : Thread nD τ).loc main_arg2)) (m ((c.tc : Thread nD τ).loc main_arg3)) (m ((c.tc : Thread nD τ).loc main_arg4))) :
    W8 m ρ c (Proc.devRef .tc main_v50) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W8_arr m ρ c 2).trans ?_
  refine (Cert.KernelIdeal.Whole.final2 (V7 m ρ) c).trans ?_
  rw [show V7 m ρ c main_v48 = _ from msg2 m ρ c h1, show V7 m ρ c main_v49 = _ from dst2 m ρ c]
  unfold dstRow
  unfold Cert.ReferenceIdeal.ReadP.val_main_v48 Cert.ReferenceIdeal.ReadP.val_main_v46 Cert.ReferenceIdeal.ReadP.val_main_cst_8 Cert.ReferenceIdeal.ReadP.val_main_v47
  generalize Cert.ReferenceIdeal.ReadP.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = R45
  generalize Cert.ReferenceIdeal.ReadP.val_main_v6 (F := Ideal) (m ((c.tc : Thread nD τ).loc main_arg1)) = R6
  funext i
  obtain ⟨p, k, rfl⟩ : ∃ (p : Fin 100000) (k : Fin 128), i = ix2 p k := ⟨i 0, i 1, eq_ix2 i⟩
  rw [Cert.KernelIdeal.Whole.scat128_apply]
  unfold Cert.KernelIdeal.Whole.chunkTerm128
  refine (Cert.ScatterBridge.bridge128 R45 R6 p k).trans ?_
  exact (Cert.ReferenceIdeal.RefRead.ref_scatter128_col R6 R45 p k).symm

/-- The output layer's segment sum, at width 40. -/
theorem stage4 (h3 : W12 m ρ c (Proc.devRef .tc main_v57) = Cert.ReferenceIdeal.ReadP.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    W14 m ρ c (Proc.devRef .tc main_v71) = Cert.ReferenceIdeal.ReadP.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W14_arr m ρ c 2).trans ?_
  refine (Cert.KernelIdeal.Whole.final4 (V13 m ρ) c).trans ?_
  rw [show V13 m ρ c main_v69 = _ from msg4 m ρ c h3, show V13 m ρ c main_v70 = _ from dst4 m ρ c]
  unfold dstRow
  unfold Cert.ReferenceIdeal.ReadP.val_main_v66 Cert.ReferenceIdeal.ReadP.val_main_v64 Cert.ReferenceIdeal.ReadP.val_main_cst_11 Cert.ReferenceIdeal.ReadP.val_main_v65
  generalize Cert.ReferenceIdeal.ReadP.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = R63
  generalize Cert.ReferenceIdeal.ReadP.val_main_v6 (F := Ideal) (m ((c.tc : Thread nD τ).loc main_arg1)) = R6
  funext i
  obtain ⟨p, k, rfl⟩ : ∃ (p : Fin 100000) (k : Fin 40), i = ix2 p k := ⟨i 0, i 1, eq_ix2 i⟩
  rw [Cert.KernelIdeal.Whole.scat40_apply]
  unfold Cert.KernelIdeal.Whole.chunkTerm40
  refine (Cert.ScatterBridge.bridge40 R63 R6 p k).trans ?_
  exact (Cert.ReferenceIdeal.RefRead.ref_scatter40_col R6 R63 p k).symm

end Cert.Bridge

end
-- ==== Proof.BridgeTail.lean ====
/-
  The host stretches after the two segment-sum regions: the bias and the rectifier after the first, the bias and
  the log-softmax after the second.

  Given what the segment-sum region left in its output array, the operations that follow are the reference's own,
  on the same bias argument; so the buffer they end in holds the reference's stage.
-/
import proofs.«147088_j4836133175935_1_alg».proof.Proof.Chain
import proofs.«147088_j4836133175935_1_alg».proof.Proof.RefReadP
import proofs.«147088_j4836133175935_1_alg».proof.Proof.BridgePrefix
import Idealize.ShloMosaic.PureOps.Ideal.Laws
import Idealize.ShloMosaic.Lib.StableHlo.Run

set_option maxRecDepth 16384

noncomputable section

namespace Cert.Bridge

open Idealize.ShloMosaic Idealize.ShloMosaic.TcCoe Idealize.ShloMosaic.StableHlo
open Idealize.SL Idealize.SL.Sem
open Cert.KernelIdeal Cert.KernelIdeal.Gen Cert.KernelIdeal.Run

variable (m : (ℓ : Loc nD τ sig) → Buf (Elt Ideal) ℓ) (ρ : Dev nD → PrngReg) (c : Dev nD)

/-- The second layer's bias is as launched when the first segment sum ends. -/
theorem W8_arg5 : W8 m ρ c (Proc.devRef .tc main_arg5) = (m ((c.tc : Thread nD τ).loc main_arg5)) :=
  (W8_of_ne m ρ c main_arg5 (by decide)).trans <|
    (W7_of m ρ c main_arg5 (by decide)).trans <|
    (W6_of_ne m ρ c main_arg5 (by decide)).trans <|
    (W5_of m ρ c main_arg5 (by decide)).trans <|
    (W4_of_ne m ρ c main_arg5 (by decide)).trans <|
    (W3_of m ρ c main_arg5 (by decide)).trans <|
    (W2_of m ρ c main_arg5 (by decide)).trans <|
    (W1_of m ρ c main_arg5 (by decide)).trans rfl

/-- The output layer's bias is as launched when the second segment sum ends. -/
theorem W14_arg7 : W14 m ρ c (Proc.devRef .tc main_arg7) = (m ((c.tc : Thread nD τ).loc main_arg7)) :=
  (W14_of_ne m ρ c main_arg7 (by decide)).trans <|
    (W13_of m ρ c main_arg7 (by decide)).trans <|
    (W12_of_ne m ρ c main_arg7 (by decide)).trans <|
    (W11_of m ρ c main_arg7 (by decide)).trans <|
    (W10_of m ρ c main_arg7 (by decide)).trans <|
    (W9_of m ρ c main_arg7 (by decide)).trans <|
    (W8_of_ne m ρ c main_arg7 (by decide)).trans <|
    (W7_of m ρ c main_arg7 (by decide)).trans <|
    (W6_of_ne m ρ c main_arg7 (by decide)).trans <|
    (W5_of m ρ c main_arg7 (by decide)).trans <|
    (W4_of_ne m ρ c main_arg7 (by decide)).trans <|
    (W3_of m ρ c main_arg7 (by decide)).trans <|
    (W2_of m ρ c main_arg7 (by decide)).trans <|
    (W1_of m ρ c main_arg7 (by decide)).trans rfl

/-! Contents carried to the type a function's signature gives a buffer are the same contents: the two types are equal. -/
theorem ofBuf_main_v53 (v : (⟨S100000x128, .f32⟩ : BufTy).Contents (Elt Ideal)) : (TRef.of (sig := sig) (T := ⟨S100000x128, .f32⟩) main_v53).ofBuf (Val := Elt Ideal) v = v := rfl
theorem toBuf_main_v54 (v : (⟨S100000x128, .f32⟩ : BufTy).Contents (Elt Ideal)) : (TRef.of (sig := sig) (T := ⟨S100000x128, .f32⟩) main_v54).toBuf (Val := Elt Ideal) v = v := rfl
theorem ofBuf_main_v74 (v : (⟨S100000x40, .f32⟩ : BufTy).Contents (Elt Ideal)) : (TRef.of (sig := sig) (T := ⟨S100000x40, .f32⟩) main_v74).ofBuf (Val := Elt Ideal) v = v := rfl
theorem toBuf_main_v75 (v : (⟨S100000x40, .f32⟩ : BufTy).Contents (Elt Ideal)) : (TRef.of (sig := sig) (T := ⟨S100000x40, .f32⟩) main_v75).toBuf (Val := Elt Ideal) v = v := rfl

/-- After the first segment sum: the bias added, then the rectifier. -/
theorem mid (h2 : W8 m ρ c (Proc.devRef .tc main_v50) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    W11 m ρ c (Proc.devRef .tc main_v54) = Cert.ReferenceIdeal.ReadP.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e5 := W8_arg5 m ρ c
  show StableHlo.after hostOps3_2 (StableHlo.after hostOps3_1 (StableHlo.after hostOps3 (W8 m ρ c))) (Proc.devRef .tc main_v54) = _
  after_results_simp
  results_rw
  rw [h2, e5]
  repeat rw [ofBuf_toBuf]
  rw [ofBuf_main_v53, toBuf_main_v54]
  rfl

/-- After the second segment sum: the bias added, then the log-softmax along the 40 classes. -/
theorem tail (h4 : W14 m ρ c (Proc.devRef .tc main_v71) = Cert.ReferenceIdeal.ReadP.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    W16 m ρ c (Proc.devRef .tc main_v75) = Cert.ReferenceIdeal.ReadP.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e7 := W14_arg7 m ρ c
  show StableHlo.after hostOps5_1 (StableHlo.after hostOps5 (W14 m ρ c)) (Proc.devRef .tc main_v75) = _
  after_results_simp
  results_rw
  rw [h4, e7]
  repeat rw [ofBuf_toBuf]
  rw [ofBuf_main_v74, toBuf_main_v75]
  rfl

end Cert.Bridge

end
-- ==== Proof.Bridge.lean ====
/-
  The bridge closed: stage by stage the kernel program's buffers hold the reference's stages — the first dense layer, the
  hidden layer's product, its segment sum, the output layer's product, its segment sum, and the shared bias and
  log-softmax tail — so the result buffer at the last boundary is the reference's composed term of the arguments.
-/
import proofs.«147088_j4836133175935_1_alg».proof.Proof.BridgeS0
import proofs.«147088_j4836133175935_1_alg».proof.Proof.BridgeS1
import proofs.«147088_j4836133175935_1_alg».proof.Proof.BridgeS3
import proofs.«147088_j4836133175935_1_alg».proof.Proof.BridgeScatter
import proofs.«147088_j4836133175935_1_alg».proof.Proof.BridgeTail

noncomputable section

namespace Cert.Bridge

open Idealize.ShloMosaic Idealize.ShloMosaic.TcCoe Idealize.SL.Sem
open Cert.KernelIdeal Cert.KernelIdeal.Gen Cert.KernelIdeal.Run

variable (m : (ℓ : Loc nD τ sig) → Buf (Elt Ideal) ℓ) (ρ : Dev nD → PrngReg) (c : Dev nD)

/-- The kernel program's result buffer at the last boundary is the reference's last stage of the same arguments. -/
theorem result_stage : W16 m ρ c (Proc.devRef .tc main_v75) = Cert.ReferenceIdeal.ReadP.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  tail m ρ c (stage4 m ρ c (stage3 m ρ c (stage2 m ρ c (stage1 m ρ c))))

/-- The reference's result, run from a memory that agrees on the arguments, is the kernel program's. -/
theorem result_eq (m' : (ℓ : Loc Cert.ReferenceIdeal.nD Cert.ReferenceIdeal.τ Cert.ReferenceIdeal.sig) → Buf (Elt Ideal) ℓ)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)) :
    Cert.ReferenceIdeal.ReadP.val_main_v70 (F := Ideal)
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      = W16 m ρ c (Proc.devRef .tc main_v75) := by
  rw [hag.1, hag.2.1, hag.2.2.1, hag.2.2.2.1, hag.2.2.2.2.1, hag.2.2.2.2.2.1, hag.2.2.2.2.2.2.1, hag.2.2.2.2.2.2.2]
  exact (result_stage m ρ c).symm

end Cert.Bridge

end
-- ==== Proof.lean ====
/-
  The certificate of the two-layer graph convolution: a Pallas program of five kernel regions — three dense layers on
  blocks of 5000 rows and two segment sums computed as one-hot products accumulated over 831 chunks of 2048 edges —
  against the jnp reference (dot_general, scatter-add). At the ideal instance both compute, per node p,
    out[p] = log_softmax(Σ_{e : dst e = p} w_e · (relu(Σ_{e' : dst e' = ·} w_e' · (relu(x·W0 + b0)·W1)[src e'] + b1)·W2)[src e] + b2):
  a cast is the identity, a product with a 0/1 row picks the rows whose destination is p (0·x = 0 and 1·x = x on the
  extended reals), the zero rows appended to fill the last chunk add nothing, and sums are regrouped by commutativity
  and associativity alone, so the precondition is not used. The three frames: the two kernel programs by their run
  through the sixteen items of the program; the reference by its run with the result dropped.
-/
import proofs.«147088_j4836133175935_1_alg».proof.Defs
import proofs.«147088_j4836133175935_1_alg».proof.Proof.Gen.Kernel
import proofs.«147088_j4836133175935_1_alg».proof.Proof.Gen.KernelIdeal
import proofs.«147088_j4836133175935_1_alg».proof.Proof.Gen.ReferenceIdeal
import proofs.«147088_j4836133175935_1_alg».proof.Proof.RefRun
import proofs.«147088_j4836133175935_1_alg».proof.Proof.Gen.Pre_finite_inputs
import proofs.«147088_j4836133175935_1_alg».proof.Proof.Bits.RunAll
import proofs.«147088_j4836133175935_1_alg».proof.Proof.RunAll
import proofs.«147088_j4836133175935_1_alg».proof.Proof.Bridge

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Run.frame m ρ
theorem frame_ki : Cert.frame_KernelIdeal (hKernelIdeal := Cert.KernelIdeal.Gen.facts) (hPre_finite_inputs := Cert.Pre_finite_inputs.Gen.facts) :=
  fun m ρ _ => Cert.KernelIdeal.Run.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueH.run (F := Ideal) m ρ)

/-- Both idealized programs end with the same result array: the kernel program's is the last boundary's contents of the
    result buffer, which the bridge identifies with the reference's composed term of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Run.W16 m ρ c (Proc.devRef .tc Cert.KernelIdeal.main_v75), ?_, ?_⟩
  · exact (θ_run Cert.KernelIdeal.defs _ _).mono (fun _ h c =>
      ⟨h c _ (Cert.KernelIdeal.Run.mem_uc Cert.KernelIdeal.main_v75 (by decide)),
       (h c _ (Cert.KernelIdeal.Run.mem_uc Cert.KernelIdeal.main_arg0 (by decide))).trans (Cert.KernelIdeal.Run.W16_main_arg0 m ρ c),
       (h c _ (Cert.KernelIdeal.Run.mem_uc Cert.KernelIdeal.main_arg1 (by decide))).trans (Cert.KernelIdeal.Run.W16_main_arg1 m ρ c),
       (h c _ (Cert.KernelIdeal.Run.mem_uc Cert.KernelIdeal.main_arg2 (by decide))).trans (Cert.KernelIdeal.Run.W16_main_arg2 m ρ c),
       (h c _ (Cert.KernelIdeal.Run.mem_uc Cert.KernelIdeal.main_arg3 (by decide))).trans (Cert.KernelIdeal.Run.W16_main_arg3 m ρ c),
       (h c _ (Cert.KernelIdeal.Run.mem_uc Cert.KernelIdeal.main_arg4 (by decide))).trans (Cert.KernelIdeal.Run.W16_main_arg4 m ρ c),
       (h c _ (Cert.KernelIdeal.Run.mem_uc Cert.KernelIdeal.main_arg5 (by decide))).trans (Cert.KernelIdeal.Run.W16_main_arg5 m ρ c),
       (h c _ (Cert.KernelIdeal.Run.mem_uc Cert.KernelIdeal.main_arg6 (by decide))).trans (Cert.KernelIdeal.Run.W16_main_arg6 m ρ c),
       (h c _ (Cert.KernelIdeal.Run.mem_uc Cert.KernelIdeal.main_arg7 (by decide))).trans (Cert.KernelIdeal.Run.W16_main_arg7 m ρ c)⟩)
      (Cert.KernelIdeal.Run.run_all (F := Ideal) m ρ)
  · refine (θ_run Cert.ReferenceIdeal.defs _ _).mono (fun _ h c => ⟨(h c).1.trans ?_, (h c).2⟩)
      (Cert.ReferenceIdeal.ValueH.run (F := Ideal) m' ρ')
    exact Cert.Bridge.result_eq m ρ c m' (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
